-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S625000 : Shape := ⟨1, ![625000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x8 : Shape := ⟨2, ![128, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg17 : FVec F S8 .f32) (main_v63 : IVec S_ 1) (main_v67 : IVec S_ 1) : IVec S_ 1 :=
  let main_v68 : IVec S_ 1 := andi main_v63 main_v67
  let main_v69 : FVec F S8 .f32 := Host.absf main_arg17
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg14 : FVec F S3x128x128 .f32) (main_arg15 : FVec F S3x128 .f32) (main_arg16 : FVec F S128x8 .f32) (main_arg17 : FVec F S8 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg14
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128 .f32 := Host.absf main_arg15
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S128x8 .f32 := Host.absf main_arg16
  let main_cst_24 : FVec F S_ .f32 := constant S_ .f32 0x7F800000#32
  let main_v65 : FVec F S128x8 .f32 := broadcastInDim S128x8 ![] bcast_S_S128x8 main_cst_24
  let main_v66 : IVec S128x8 1 := cmpf .olt main_v64 main_v65
  let main_c_25 : IVec S_ 1 := constantI S_ 1 1#1
  let main_v67 : IVec S_ 1 := (fun x v => Host.reduce IntOp.andi x v reducesTo_S128x8_S_d0_1 h_S_) main_v66 main_c_25
  fn_part4 (F := F) main_arg17 main_v63 main_v67

def fn_part2 {F : FTy → Type} [FloatOps F] (main_arg10 : FVec F S3x128x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x8 .f32) (main_arg17 : FVec F S8 .f32) (main_v33 : IVec S_ 1) : IVec S_ 1 :=
  let main_v34 : FVec F S3x128x128 .f32 := Host.absf main_arg10
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg12
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg13
  let main_cst_18 : FVec F S_ .f32 := constant S_ .f32 0x7F800000#32
  let main_v50 : FVec F S3x128 .f32 := broadcastInDim S3x128 ![] bcast_S_S3x128 main_cst_18
  fn_part3 (F := F) main_arg14 main_arg15 main_arg16 main_arg17 main_v48 main_v49 main_v50

def fn_part1 {F : FTy → Type} [FloatOps F] (main_arg7 : FVec F S3x128 .f32) (main_arg8 : FVec F S3x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x8 .f32) (main_arg17 : FVec F S8 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x64 .f32) (main_arg1 : IVec S625000 32) (main_arg2 : IVec S625000 32) (main_arg3 : IVec S100000 32) (main_arg4 : FVec F S64x128 .f32) (main_arg5 : FVec F S128 .f32) (main_arg6 : FVec F S3x128x128 .f32) (main_arg7 : FVec F S3x128 .f32) (main_arg8 : FVec F S3x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x8 .f32) (main_arg17 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S625000 : Shape := ⟨1, ![625000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x8 : Shape := ⟨2, ![128, 8]⟩
abbrev S8 : Shape := ⟨1, ![8]⟩
abbrev S725000 : Shape := ⟨1, ![725000]⟩
abbrev S_ : Shape := ⟨0, ![]⟩
abbrev S725000x1 : Shape := ⟨2, ![725000, 1]⟩
abbrev S100000x1 : Shape := ⟨2, ![100000, 1]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1x128x128 : Shape := ⟨3, ![1, 128, 128]⟩
abbrev S128x128 : Shape := ⟨2, ![128, 128]⟩
abbrev S2000x1 : Shape := ⟨2, ![2000, 1]⟩
abbrev S2000 : Shape := ⟨1, ![2000]⟩
abbrev S725000x128 : Shape := ⟨2, ![725000, 128]⟩
abbrev S512x128 : Shape := ⟨2, ![512, 128]⟩
abbrev S512 : Shape := ⟨1, ![512]⟩
abbrev S512x1 : Shape := ⟨2, ![512, 1]⟩
abbrev S512x8 : Shape := ⟨2, ![512, 8]⟩
abbrev S1x8 : Shape := ⟨2, ![1, 8]⟩

abbrev nBuf : Space → Nat
  | .hbm => 192
  | .vmem => 54
  | .smem => 0
  | _ => 0

abbrev hbmTy0_0 (i : Nat) : BufTy := match i % 128 with
  | 0 => ⟨S100000x64, .f32⟩
  | 1 => ⟨S625000, .i32⟩
  | 2 => ⟨S625000, .i32⟩
  | 3 => ⟨S100000, .i32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S3x128x128, .f32⟩
  | 15 => ⟨S3x128, .f32⟩
  | 16 => ⟨S128x8, .f32⟩
  | 17 => ⟨S8, .f32⟩
  | 18 => ⟨S100000, .i32⟩
  | 19 => ⟨S725000, .i32⟩
  | 20 => ⟨S725000, .i32⟩
  | 21 => ⟨S_, .f32⟩
  | 22 => ⟨S725000, .f32⟩
  | 23 => ⟨S_, .f32⟩
  | 24 => ⟨S100000, .f32⟩
  | 25 => ⟨S725000x1, .i32⟩
  | 26 => ⟨S100000, .f32⟩
  | 27 => ⟨S_, .f32⟩
  | 28 => ⟨S100000, .f32⟩
  | 29 => ⟨S725000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S_, .f32⟩
  | 37 => ⟨S100000, .f32⟩
  | 38 => ⟨S100000, .f32⟩
  | 39 => ⟨S100000, .f32⟩
  | 40 => ⟨S100000x1, .f32⟩
  | 41 => ⟨S1x128, .f32⟩
  | 42 => ⟨S100000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S100000x128, .f32⟩
  | 71 => ⟨S_, .i32⟩
  | 72 => ⟨S725000, .i32⟩
  | 73 => ⟨S725000, .i1⟩
  | 74 => ⟨S_, .i32⟩
  | 75 => ⟨S725000, .i32⟩
  | 76 => ⟨S725000, .i32⟩
  | 77 => ⟨S725000, .i32⟩
  | 78 => ⟨S725000x1, .i32⟩
  | 79 => ⟨S725000x128, .f32⟩
  | 80 => ⟨S_, .f32⟩
  | 81 => ⟨S100000x128, .f32⟩
  | 82 => ⟨S725000x1, .i32⟩
  | 83 => ⟨S100000x128, .f32⟩
  | 84 => ⟨S100000x128, .f32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S100000x128, .f32⟩
  | 114 => ⟨S_, .i32⟩
  | 115 => ⟨S725000, .i32⟩
  | 116 => ⟨S725000, .i1⟩
  | 117 => ⟨S_, .i32⟩
  | 118 => ⟨S725000, .i32⟩
  | 119 => ⟨S725000, .i32⟩
  | 120 => ⟨S725000, .i32⟩
  | 121 => ⟨S725000x1, .i32⟩
  | 122 => ⟨S725000x128, .f32⟩
  | 123 => ⟨S_, .f32⟩
  | 124 => ⟨S100000x128, .f32⟩
  | 125 => ⟨S725000x1, .i32⟩
  | 126 => ⟨S100000x128, .f32⟩
  | 127 => ⟨S100000x128, .f32⟩
  | _ => ⟨S100000x64, .f32⟩

abbrev hbmTy0_1 (i : Nat) : BufTy := match i % 128 with
  | 0 => ⟨S100000x128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S100000x128, .f32⟩
  | 29 => ⟨S_, .i32⟩
  | 30 => ⟨S725000, .i32⟩
  | 31 => ⟨S725000, .i1⟩
  | 32 => ⟨S_, .i32⟩
  | 33 => ⟨S725000, .i32⟩
  | 34 => ⟨S725000, .i32⟩
  | 35 => ⟨S725000, .i32⟩
  | 36 => ⟨S725000x1, .i32⟩
  | 37 => ⟨S725000x128, .f32⟩
  | 38 => ⟨S_, .f32⟩
  | 39 => ⟨S100000x128, .f32⟩
  | 40 => ⟨S725000x1, .i32⟩
  | 41 => ⟨S100000x128, .f32⟩
  | 42 => ⟨S100000x128, .f32⟩
  | 43 => ⟨S100000x128, .f32⟩
  | 44 => ⟨S_, .f32⟩
  | 45 => ⟨S512x128, .f32⟩
  | 46 => ⟨S100000x1, .i32⟩
  | 47 => ⟨S512x128, .f32⟩
  | 48 => ⟨S_, .f32⟩
  | 49 => ⟨S100000, .f32⟩
  | 50 => ⟨S_, .f32⟩
  | 51 => ⟨S512, .f32⟩
  | 52 => ⟨S100000x1, .i32⟩
  | 53 => ⟨S512, .f32⟩
  | 54 => ⟨S_, .f32⟩
  | 55 => ⟨S512, .f32⟩
  | 56 => ⟨S512, .f32⟩
  | 57 => ⟨S512x1, .f32⟩
  | 58 => ⟨S512x128, .f32⟩
  | 59 => ⟨S512x128, .f32⟩
  | 60 => ⟨S512x8, .f32⟩
  | 61 => ⟨S1x8, .f32⟩
  | 62 => ⟨S512x8, .f32⟩
  | 63 => ⟨S512x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x1, .f32⟩
  | .local _ .vmem, ⟨41, _⟩ => ⟨S2000x1, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c : Ref sig .tc := ⟨.hbm, 71, rfl⟩
abbrev main_v48 : Ref sig .tc := ⟨.hbm, 72, rfl⟩
abbrev main_v49 : Ref sig .tc := ⟨.hbm, 73, rfl⟩
abbrev main_c_4 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_6 : Ref sig .tc := ⟨.hbm, 114, rfl⟩
abbrev main_v88 : Ref sig .tc := ⟨.hbm, 115, rfl⟩
abbrev main_v89 : Ref sig .tc := ⟨.hbm, 116, rfl⟩
abbrev main_c_7 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_8 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_c_9 : Ref sig .tc := ⟨.hbm, 157, rfl⟩
abbrev main_v128 : Ref sig .tc := ⟨.hbm, 158, rfl⟩
abbrev main_v129 : Ref sig .tc := ⟨.hbm, 159, rfl⟩
abbrev main_c_10 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_11 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_12 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_13 : Ref sig .tc := ⟨.hbm, 176, rfl⟩
abbrev main_v143 : Ref sig .tc := ⟨.hbm, 177, rfl⟩
abbrev main_cst_14 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_15 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg12_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg10_0 : Ref sig .tc := ⟨.vmem, 50, rfl⟩
abbrev cc3_stg11_0 : Ref sig .tc := ⟨.vmem, 51, rfl⟩
abbrev cc3_stg12_0 : Ref sig .tc := ⟨.vmem, 52, rfl⟩
abbrev cc3_stg12_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem11_0 : DmaSem sig := 51
abbrev cc3_sem12_0 : DmaSem sig := 52
abbrev cc3_sem12_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S2000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  concatenates_S625000_S100000_S725000_d0 : Shape.Concatenates [S625000, S100000] S725000 0
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S100000_S100000x1_0 : S100000.BroadcastsInDim S100000x1 (![0] : Fin 1 → Fin S100000x1.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  scatter_S100000_S725000x1_S725000_n_0_0_1_wf : ScatterDims.WF S100000 S725000x1 S725000 [] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x8_S512x8_1_0_0_1_n_n_wf : DotDims.WF S512x128 S128x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S100000x128.size a
  hwx1_12 : ∀ i : grid1.Coords, EltTy.bits .f32 = 32 ∨ (Rect.block (s := S100000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x128.size a ≤ S100000x128.size a
  hwx2_12 : ∀ i : grid2.Coords, EltTy.bits .f32 = 32 ∨ (Rect.block (s := S100000x128) S2000x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2000x128.size a ≤ S100000x128.size a
  hwx3_12 : ∀ i : grid3.Coords, EltTy.bits .f32 = 32 ∨ (Rect.block (s := S100000x128) S2000x128.size (cc3_transform_12 i) (hinb3_12 i)).WholeWords (EltTy.packing .f32)

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v47) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v84) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v85) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v77) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v86) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v87) S2000x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v99) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v120) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v121) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v122) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v123) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v124) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v125) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v117) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v126) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v127) S2000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S100000x64 : Shape := ⟨2, ![100000, 64]⟩
abbrev S625000 : Shape := ⟨1, ![625000]⟩
abbrev S100000 : Shape := ⟨1, ![100000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x8 : Shape := ⟨2, ![128, 8]⟩
abbrev S8 : Shape := ⟨1, ![8]⟩
abbrev S725000 : Shape := ⟨1, ![725000]⟩
abbrev S_ : Shape := ⟨0, ![]⟩
abbrev S725000x1 : Shape := ⟨2, ![725000, 1]⟩
abbrev S100000x1 : Shape := ⟨2, ![100000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S725000x128 : Shape := ⟨2, ![725000, 128]⟩
abbrev S512x128 : Shape := ⟨2, ![512, 128]⟩
abbrev S512 : Shape := ⟨1, ![512]⟩
abbrev S512x1 : Shape := ⟨2, ![512, 1]⟩
abbrev S512x8 : Shape := ⟨2, ![512, 8]⟩
abbrev S1x8 : Shape := ⟨2, ![1, 8]⟩

abbrev nBuf : Space → Nat
  | .hbm => 413
  | .vmem => 0
  | .smem => 0
  | _ => 0

abbrev hbmTy0_0 (i : Nat) : BufTy := match i % 128 with
  | 0 => ⟨S100000x64, .f32⟩
  | 1 => ⟨S625000, .i32⟩
  | 2 => ⟨S625000, .i32⟩
  | 3 => ⟨S100000, .i32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S3x128x128, .f32⟩
  | 15 => ⟨S3x128, .f32⟩
  | 16 => ⟨S128x8, .f32⟩
  | 17 => ⟨S8, .f32⟩
  | 18 => ⟨S100000, .i32⟩
  | 19 => ⟨S725000, .i32⟩
  | 20 => ⟨S725000, .i32⟩
  | 21 => ⟨S_, .f32⟩
  | 22 => ⟨S725000, .f32⟩
  | 23 => ⟨S_, .f32⟩
  | 24 => ⟨S100000, .f32⟩
  | 25 => ⟨S725000x1, .i32⟩
  | 26 => ⟨S100000, .f32⟩
  | 27 => ⟨S_, .f32⟩
  | 28 => ⟨S100000, .f32⟩
  | 29 => ⟨S725000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S_, .f32⟩
  | 37 => ⟨S100000, .f32⟩
  | 38 => ⟨S100000, .f32⟩
  | 39 => ⟨S100000, .f32⟩
  | 40 => ⟨S100000x1, .f32⟩
  | 41 => ⟨S100000x128, .f32⟩
  | 42 => ⟨S1x128, .f32⟩
  | 43 => ⟨S100000x128, .f32⟩
  | 44 => ⟨S100000x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S100000x128, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S_, .f32⟩
  | 126 => ⟨S100000x1, .f32⟩
  | 127 => ⟨S100000x1, .f32⟩
  | _ => ⟨S100000x64, .f32⟩

abbrev hbmTy0_1 (i : Nat) : BufTy := match i % 128 with
  | 0 => ⟨S100000x1, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S_, .i32⟩
  | 19 => ⟨S725000, .i32⟩
  | 20 => ⟨S725000, .i1⟩
  | 21 => ⟨S_, .i32⟩
  | 22 => ⟨S725000, .i32⟩
  | 23 => ⟨S725000, .i32⟩
  | 24 => ⟨S725000, .i32⟩
  | 25 => ⟨S725000x1, .i32⟩
  | 26 => ⟨S725000x128, .f32⟩
  | 27 => ⟨S_, .f32⟩
  | 28 => ⟨S100000x128, .f32⟩
  | 29 => ⟨S725000x1, .i32⟩
  | 30 => ⟨S100000x128, .f32⟩
  | 31 => ⟨S100000x128, .f32⟩
  | 32 => ⟨S100000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S_, .f32⟩
  | 73 => ⟨S100000x1, .f32⟩
  | 74 => ⟨S100000x1, .f32⟩
  | 75 => ⟨S100000x128, .f32⟩
  | 76 => ⟨S100000x128, .f32⟩
  | 77 => ⟨S_, .f32⟩
  | 78 => ⟨S100000x1, .f32⟩
  | 79 => ⟨S100000x1, .f32⟩
  | 80 => ⟨S100000x1, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x128, .f32⟩
  | 105 => ⟨S_, .f32⟩
  | 106 => ⟨S100000, .f32⟩
  | 107 => ⟨S100000x1, .f32⟩
  | 108 => ⟨S_, .f32⟩
  | 109 => ⟨S100000x1, .f32⟩
  | 110 => ⟨S100000x1, .f32⟩
  | 111 => ⟨S100000x128, .f32⟩
  | 112 => ⟨S100000x128, .f32⟩
  | 113 => ⟨S_, .f32⟩
  | 114 => ⟨S100000x1, .f32⟩
  | 115 => ⟨S100000x1, .f32⟩
  | 116 => ⟨S100000x1, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S100000x128, .f32⟩
  | 6 => ⟨S_, .i32⟩
  | 7 => ⟨S725000, .i32⟩
  | 8 => ⟨S725000, .i1⟩
  | 9 => ⟨S_, .i32⟩
  | 10 => ⟨S725000, .i32⟩
  | 11 => ⟨S725000, .i32⟩
  | 12 => ⟨S725000, .i32⟩
  | 13 => ⟨S725000x1, .i32⟩
  | 14 => ⟨S725000x128, .f32⟩
  | 15 => ⟨S_, .f32⟩
  | 16 => ⟨S100000x128, .f32⟩
  | 17 => ⟨S725000x1, .i32⟩
  | 18 => ⟨S100000x128, .f32⟩
  | 19 => ⟨S100000x128, .f32⟩
  | 20 => ⟨S100000x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x1, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S100000x128, .f32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S_, .f32⟩
  | 102 => ⟨S100000x1, .f32⟩
  | 103 => ⟨S100000x1, .f32⟩
  | 104 => ⟨S100000x1, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S_, .i32⟩
  | 123 => ⟨S725000, .i32⟩
  | 124 => ⟨S725000, .i1⟩
  | 125 => ⟨S_, .i32⟩
  | 126 => ⟨S725000, .i32⟩
  | 127 => ⟨S725000, .i32⟩
  | _ => ⟨S100000x64, .f32⟩

abbrev hbmTy0_3 (i : Nat) : BufTy := match i % 128 with
  | 0 => ⟨S725000, .i32⟩
  | 1 => ⟨S725000x1, .i32⟩
  | 2 => ⟨S725000x128, .f32⟩
  | 3 => ⟨S_, .f32⟩
  | 4 => ⟨S100000x128, .f32⟩
  | 5 => ⟨S725000x1, .i32⟩
  | 6 => ⟨S100000x128, .f32⟩
  | 7 => ⟨S100000x128, .f32⟩
  | 8 => ⟨S100000x128, .f32⟩
  | 9 => ⟨S_, .f32⟩
  | 10 => ⟨S512x128, .f32⟩
  | 11 => ⟨S100000x1, .i32⟩
  | 12 => ⟨S512x128, .f32⟩
  | 13 => ⟨S_, .f32⟩
  | 14 => ⟨S100000, .f32⟩
  | 15 => ⟨S_, .f32⟩
  | 16 => ⟨S512, .f32⟩
  | 17 => ⟨S100000x1, .i32⟩
  | 18 => ⟨S512, .f32⟩
  | 19 => ⟨S_, .f32⟩
  | 20 => ⟨S512, .f32⟩
  | 21 => ⟨S512, .f32⟩
  | 22 => ⟨S512x1, .f32⟩
  | 23 => ⟨S512x128, .f32⟩
  | 24 => ⟨S512x128, .f32⟩
  | 25 => ⟨S512x8, .f32⟩
  | 26 => ⟨S1x8, .f32⟩
  | 27 => ⟨S512x8, .f32⟩
  | 28 => ⟨S512x8, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call1_cst : Ref sig .tc := ⟨.hbm, 105, rfl⟩
abbrev main_call1_v0 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_cst_10 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_cst_12 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_13 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call2_cst : Ref sig .tc := ⟨.hbm, 141, rfl⟩
abbrev main_call2_v0 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c : Ref sig .tc := ⟨.hbm, 146, rfl⟩
abbrev main_v107 : Ref sig .tc := ⟨.hbm, 147, rfl⟩
abbrev main_v108 : Ref sig .tc := ⟨.hbm, 148, rfl⟩
abbrev main_c_14 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_15 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_call3_cst : Ref sig .tc := ⟨.hbm, 185, rfl⟩
abbrev main_call3_v0 : Ref sig .tc := ⟨.hbm, 186, rfl⟩
abbrev main_v143 : Ref sig .tc := ⟨.hbm, 187, rfl⟩
abbrev main_cst_16 : Ref sig .tc := ⟨.hbm, 188, rfl⟩
abbrev main_v144 : Ref sig .tc := ⟨.hbm, 189, rfl⟩
abbrev main_v145 : Ref sig .tc := ⟨.hbm, 190, rfl⟩
abbrev main_cst_17 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_18 : Ref sig .tc := ⟨.hbm, 197, rfl⟩
abbrev main_v151 : Ref sig .tc := ⟨.hbm, 198, rfl⟩
abbrev main_v152 : Ref sig .tc := ⟨.hbm, 199, rfl⟩
abbrev main_cst_19 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_20 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_call4_cst : Ref sig .tc := ⟨.hbm, 221, rfl⟩
abbrev main_call4_v0 : Ref sig .tc := ⟨.hbm, 222, rfl⟩
abbrev main_v172 : Ref sig .tc := ⟨.hbm, 223, rfl⟩
abbrev main_cst_21 : Ref sig .tc := ⟨.hbm, 224, rfl⟩
abbrev main_v173 : Ref sig .tc := ⟨.hbm, 225, rfl⟩
abbrev main_v174 : Ref sig .tc := ⟨.hbm, 226, rfl⟩
abbrev main_cst_22 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_23 : Ref sig .tc := ⟨.hbm, 233, rfl⟩
abbrev main_v180 : Ref sig .tc := ⟨.hbm, 234, rfl⟩
abbrev main_v181 : Ref sig .tc := ⟨.hbm, 235, rfl⟩
abbrev main_cst_24 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_25 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_call5_cst : Ref sig .tc := ⟨.hbm, 257, rfl⟩
abbrev main_call5_v0 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_c_26 : Ref sig .tc := ⟨.hbm, 262, rfl⟩
abbrev main_v204 : Ref sig .tc := ⟨.hbm, 263, rfl⟩
abbrev main_v205 : Ref sig .tc := ⟨.hbm, 264, rfl⟩
abbrev main_c_27 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_28 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_call6_cst : Ref sig .tc := ⟨.hbm, 301, rfl⟩
abbrev main_call6_v0 : Ref sig .tc := ⟨.hbm, 302, rfl⟩
abbrev main_v240 : Ref sig .tc := ⟨.hbm, 303, rfl⟩
abbrev main_cst_29 : Ref sig .tc := ⟨.hbm, 304, rfl⟩
abbrev main_v241 : Ref sig .tc := ⟨.hbm, 305, rfl⟩
abbrev main_v242 : Ref sig .tc := ⟨.hbm, 306, rfl⟩
abbrev main_cst_30 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_cst_31 : Ref sig .tc := ⟨.hbm, 313, rfl⟩
abbrev main_v248 : Ref sig .tc := ⟨.hbm, 314, rfl⟩
abbrev main_v249 : Ref sig .tc := ⟨.hbm, 315, rfl⟩
abbrev main_cst_32 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_cst_33 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_call7_cst : Ref sig .tc := ⟨.hbm, 337, rfl⟩
abbrev main_call7_v0 : Ref sig .tc := ⟨.hbm, 338, rfl⟩
abbrev main_v269 : Ref sig .tc := ⟨.hbm, 339, rfl⟩
abbrev main_cst_34 : Ref sig .tc := ⟨.hbm, 340, rfl⟩
abbrev main_v270 : Ref sig .tc := ⟨.hbm, 341, rfl⟩
abbrev main_v271 : Ref sig .tc := ⟨.hbm, 342, rfl⟩
abbrev main_cst_35 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_cst_36 : Ref sig .tc := ⟨.hbm, 349, rfl⟩
abbrev main_v277 : Ref sig .tc := ⟨.hbm, 350, rfl⟩
abbrev main_v278 : Ref sig .tc := ⟨.hbm, 351, rfl⟩
abbrev main_cst_37 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_cst_38 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_call8_cst : Ref sig .tc := ⟨.hbm, 373, rfl⟩
abbrev main_call8_v0 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_c_39 : Ref sig .tc := ⟨.hbm, 378, rfl⟩
abbrev main_v301 : Ref sig .tc := ⟨.hbm, 379, rfl⟩
abbrev main_v302 : Ref sig .tc := ⟨.hbm, 380, rfl⟩
abbrev main_c_40 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_cst_41 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_cst_42 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_cst_43 : Ref sig .tc := ⟨.hbm, 397, rfl⟩
abbrev main_v316 : Ref sig .tc := ⟨.hbm, 398, rfl⟩
abbrev main_cst_44 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_cst_45 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩

abbrev nD : Nat := 1
abbrev τ : Topo := Topo.v7x

variable {F : FTy → Type} [FloatOps F]

class Facts₀ : Prop where
  concatenates_S625000_S100000_S725000_d0 : Shape.Concatenates [S625000, S100000] S725000 0
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  scatter_S100000_S725000x1_S725000_n_0_0_1_wf : ScatterDims.WF S100000 S725000x1 S725000 [] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x8_S512x8_1_0_0_1_n_n_wf : DotDims.WF S512x128 S128x8 S512x8 [1] [0] [0] [1] [] []

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

class Facts : Prop extends Facts₀ where

variable [Facts]
-- ==== Proof.RefFold.lean ====
/-
  The reference program's result, stage by stage.

  The reference is one line of 395 host operations.  Its run ends with every buffer at the fold of the operations over
  the launch contents.  Read at the result buffer all at once, that fold is a term in which the embedding occurs tens of
  thousands of times (each normalisation reads its input six times, and there are six of them in a row); read in
  stages it is small.  The line is cut after the embedding, after each of the three node updates, after each of the
  three aggregations, and at the end; the buffers after each piece are a valuation of their own, and the value of a
  stage's buffer is the stage's operations applied to the previous stage's buffer, the shared buffers (the edge lists
  with their self loops, the two columns of norms) and the arguments, each of which is carried unchanged through the
  pieces that do not write it.
-/
import proofs.«144831_j23313082483287_1_alg».proof.Proof.RefRun
import proofs.«144831_j23313082483287_1_alg».proof.Proof.RefRead
import Idealize.ShloMosaic.Lib.StableHlo.Run
import Idealize.ShloMosaic.Lib.Pipeline.Frame

set_option maxRecDepth 16384
-- a buffer is walked back through up to 375 operations, one inequality of references decided per operation
set_option maxHeartbeats 8000000

noncomputable section

namespace Cert.ReferenceIdeal.Fold

open Cert.ReferenceIdeal Cert.ReferenceIdeal.Gen Cert.ReferenceIdeal.Read Idealize.ShloMosaic Idealize.ShloMosaic.TcCoe Idealize.SL.Sem
open Idealize.ShloMosaic.StableHlo

variable {F : FTy → Type} [FloatOps F]

/-! ## The line of operations, in eight pieces -/

def seg0 : List (HloOp τ sig (Elt F)) :=
  [ nullary main_v0 (iotaInDim S100000 32 0),
    binary main_arg1 main_v0 main_v1 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    binary main_arg2 main_v0 main_v2 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    nullary main_cst (constant S_ .f32 0x3F800000#32),
    unary main_cst main_v3 (broadcastInDim S725000 ![] bcast_S_S725000 : (⟨S_, .f32⟩ : BufTy).Contents (Elt F) → (⟨S725000, .f32⟩ : BufTy).Contents (Elt F)),
    nullary main_cst_0 (constant S_ .f32 0x00000000#32),
    unary main_cst_0 main_v4 (broadcastInDim S100000 ![] bcast_S_S100000 : (⟨S_, .f32⟩ : BufTy).Contents (Elt F) → (⟨S100000, .f32⟩ : BufTy).Contents (Elt F)),
    unary main_v1 main_v5 (broadcastInDim S725000x1 ![0] bcast_S725000_S725000x1_0 : (⟨S725000, .i32⟩ : BufTy).Contents (Elt F) → (⟨S725000x1, .i32⟩ : BufTy).Contents (Elt F)),
    ternary main_v4 main_v5 main_v3 main_v6 ((fun x i u => Host.scatterAdd scatter_S100000_S725000x1_S725000_n_0_0_1 x i u) : (⟨S100000, .f32⟩ : BufTy).Contents (Elt F) → (⟨S725000x1, .i32⟩ : BufTy).Contents (Elt F) → (⟨S725000, .f32⟩ : BufTy).Contents (Elt F) → (⟨S100000, .f32⟩ : BufTy).Contents (Elt F)),
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    unary main_v2 main_v8 (broadcastInDim S725000x1 ![0] bcast_S725000_S725000x1_0 : (⟨S725000, .i32⟩ : BufTy).Contents (Elt F) → (⟨S725000x1, .i32⟩ : BufTy).Contents (Elt F)),
    ternary main_v7 main_v8 main_v3 main_v9 ((fun x i u => Host.scatterAdd scatter_S100000_S725000x1_S725000_n_0_0_1 x i u) : (⟨S100000, .f32⟩ : BufTy).Contents (Elt F) → (⟨S725000x1, .i32⟩ : BufTy).Contents (Elt F) → (⟨S725000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v6 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    unary main_v12 main_v13 (broadcastInDim S100000x1 ![0] bcast_S100000_S100000x1_0 : (⟨S100000, .f32⟩ : BufTy).Contents (Elt F) → (⟨S100000x1, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v9 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)),
    binary main_arg0 main_arg4 main_v18 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)) ]

def seg1 : List (HloOp τ sig (Elt F)) :=
  [ unary main_arg6 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v22 main_v23 rfl shapeCasts_S1x128x128_S128x128,
    unary main_arg7 main_v24 ((extractStridedSlice S1x128 ![0, 0] · slices_S3x128_S1x128_0_0) : (⟨S3x128, .f32⟩ : BufTy).Contents (Elt F) → (⟨S1x128, .f32⟩ : BufTy).Contents (Elt F)),
    reshape main_v24 main_v25 rfl shapeCasts_S1x128_S128,
    unary main_arg8 main_v26 ((extractStridedSlice S1x128 ![0, 0] · slices_S3x128_S1x128_0_0) : (⟨S3x128, .f32⟩ : BufTy).Contents (Elt F) → (⟨S1x128, .f32⟩ : BufTy).Contents (Elt F)),
    reshape main_v26 main_v27 rfl shapeCasts_S1x128_S128,
    unary main_arg9 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_arg10 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    unary main_arg11 main_v32 ((extractStridedSlice S1x128 ![0, 0] · slices_S3x128_S1x128_0_0) : (⟨S3x128, .f32⟩ : BufTy).Contents (Elt F) → (⟨S1x128, .f32⟩ : BufTy).Contents (Elt F)),
    reshape main_v32 main_v33 rfl shapeCasts_S1x128_S128,
    unary main_arg12 main_v34 ((extractStridedSlice S1x128 ![0, 0] · slices_S3x128_S1x128_0_0) : (⟨S3x128, .f32⟩ : BufTy).Contents (Elt F) → (⟨S1x128, .f32⟩ : BufTy).Contents (Elt F)),
    reshape main_v34 main_v35 rfl shapeCasts_S1x128_S128,
    unary main_arg13 main_v36 ((extractStridedSlice S1x128 ![0, 0] · slices_S3x128_S1x128_0_0) : (⟨S3x128, .f32⟩ : BufTy).Contents (Elt F) → (⟨S1x128, .f32⟩ : BufTy).Contents (Elt F)),
    reshape main_v36 main_v37 rfl shapeCasts_S1x128_S128,
    unary main_arg14 main_v38 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v38 main_v39 rfl shapeCasts_S1x128x128_S128x128,
    unary main_arg15 main_v40 ((extractStridedSlice S1x128 ![0, 0] · slices_S3x128_S1x128_0_0) : (⟨S3x128, .f32⟩ : BufTy).Contents (Elt F) → (⟨S1x128, .f32⟩ : BufTy).Contents (Elt F)),
    reshape main_v40 main_v41 rfl shapeCasts_S1x128_S128,
    binary main_v21 main_v23 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v25 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v45) (TRef.of (T := ⟨S100000x128, .f32⟩) main_call0_v0) (TRef.of (T := ⟨S100000x128, .f32⟩) main_v46) maximumf,
    nullary main_cst_4 (constant S_ .f32 0x00000000#32),
    binary main_v46 main_cst_4 main_v47 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v49 (broadcastInDim S100000x1 ![] bcast_S_S100000x1 : (⟨S_, .f32⟩ : BufTy).Contents (Elt F) → (⟨S100000x1, .f32⟩ : BufTy).Contents (Elt F)),
    binary main_v48 main_v49 main_v50 (Host.divf : (⟨S100000x1, .f32⟩ : BufTy).Contents (Elt F) → (⟨S100000x1, .f32⟩ : BufTy).Contents (Elt F) → (⟨S100000x1, .f32⟩ : BufTy).Contents (Elt F)),
    unary main_v50 main_v51 (broadcastInDim S100000x128 ![0, 1] bcast_S100000x1_S100000x128_0_1 : (⟨S100000x1, .f32⟩ : BufTy).Contents (Elt F) → (⟨S100000x128, .f32⟩ : BufTy).Contents (Elt F)),
    binary main_v46 main_v51 main_v52 (subf : (⟨S100000x128, .f32⟩ : BufTy).Contents (Elt F) → (⟨S100000x128, .f32⟩ : BufTy).Contents (Elt F) → (⟨S100000x128, .f32⟩ : BufTy).Contents (Elt F)),
    binary main_v52 main_v52 main_v53 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v53 main_cst_6 main_v54 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v54 main_v55 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v56 (broadcastInDim S100000x1 ![] bcast_S_S100000x1 : (⟨S_, .f32⟩ : BufTy).Contents (Elt F) → (⟨S100000x1, .f32⟩ : BufTy).Contents (Elt F)),
    binary main_v55 main_v56 main_v57 (Host.divf : (⟨S100000x1, .f32⟩ : BufTy).Contents (Elt F) → (⟨S100000x1, .f32⟩ : BufTy).Contents (Elt F) → (⟨S100000x1, .f32⟩ : BufTy).Contents (Elt F)),
    unary main_v50 main_v58 (broadcastInDim S100000x128 ![0, 1] bcast_S100000x1_S100000x128_0_1 : (⟨S100000x1, .f32⟩ : BufTy).Contents (Elt F) → (⟨S100000x128, .f32⟩ : BufTy).Contents (Elt F)),
    binary main_v46 main_v58 main_v59 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x358637BD#32),
    unary main_cst_8 main_v60 (broadcastInDim S100000x1 ![] bcast_S_S100000x1 : (⟨S_, .f32⟩ : BufTy).Contents (Elt F) → (⟨S100000x1, .f32⟩ : BufTy).Contents (Elt F)),
    binary main_v57 main_v60 main_v61 (addf : (⟨S100000x1, .f32⟩ : BufTy).Contents (Elt F) → (⟨S100000x1, .f32⟩ : BufTy).Contents (Elt F) → (⟨S100000x1, .f32⟩ : BufTy).Contents (Elt F)),
    unary main_v61 main_v62 (Host.rsqrt : (⟨S100000x1, .f32⟩ : BufTy).Contents (Elt F) → (⟨S100000x1, .f32⟩ : BufTy).Contents (Elt F)),
    unary main_v62 main_v63 (broadcastInDim S100000x128 ![0, 1] bcast_S100000x1_S100000x128_0_1 : (⟨S100000x1, .f32⟩ : BufTy).Contents (Elt F) → (⟨S100000x128, .f32⟩ : BufTy).Contents (Elt F)),
    binary main_v59 main_v63 main_v64 (mulf : (⟨S100000x128, .f32⟩ : BufTy).Contents (Elt F) → (⟨S100000x128, .f32⟩ : BufTy).Contents (Elt F) → (⟨S100000x128, .f32⟩ : BufTy).Contents (Elt F)),
    unary main_v27 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (mulf : (⟨S100000x128, .f32⟩ : BufTy).Contents (Elt F) → (⟨S100000x128, .f32⟩ : BufTy).Contents (Elt F) → (⟨S100000x128, .f32⟩ : BufTy).Contents (Elt F)),
    unary main_v29 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    binary main_v70 main_v31 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v33 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v71 main_v73 main_v74 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v74) (TRef.of (T := ⟨S100000x128, .f32⟩) main_call1_v0) (TRef.of (T := ⟨S100000x128, .f32⟩) main_v75) maximumf,
    nullary main_cst_9 (constant S_ .f32 0x00000000#32),
    binary main_v75 main_cst_9 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v76 main_v77 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v78 (broadcastInDim S100000x1 ![] bcast_S_S100000x1 : (⟨S_, .f32⟩ : BufTy).Contents (Elt F) → (⟨S100000x1, .f32⟩ : BufTy).Contents (Elt F)),
    binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v75 main_v80 main_v81 (subf : (⟨S100000x128, .f32⟩ : BufTy).Contents (Elt F) → (⟨S100000x128, .f32⟩ : BufTy).Contents (Elt F) → (⟨S100000x128, .f32⟩ : BufTy).Contents (Elt F)),
    binary main_v81 main_v81 main_v82 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v82 main_cst_11 main_v83 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v85 (broadcastInDim S100000x1 ![] bcast_S_S100000x1 : (⟨S_, .f32⟩ : BufTy).Contents (Elt F) → (⟨S100000x1, .f32⟩ : BufTy).Contents (Elt F)),
    binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    unary main_v79 main_v87 (broadcastInDim S100000x128 ![0, 1] bcast_S100000x1_S100000x128_0_1 : (⟨S100000x1, .f32⟩ : BufTy).Contents (Elt F) → (⟨S100000x128, .f32⟩ : BufTy).Contents (Elt F)),
    binary main_v75 main_v87 main_v88 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x358637BD#32),
    unary main_cst_13 main_v89 (broadcastInDim S100000x1 ![] bcast_S_S100000x1 : (⟨S_, .f32⟩ : BufTy).Contents (Elt F) → (⟨S100000x1, .f32⟩ : BufTy).Contents (Elt F)),
    binary main_v86 main_v89 main_v90 (addf : (⟨S100000x1, .f32⟩ : BufTy).Contents (Elt F) → (⟨S100000x1, .f32⟩ : BufTy).Contents (Elt F) → (⟨S100000x1, .f32⟩ : BufTy).Contents (Elt F)),
    unary main_v90 main_v91 (Host.rsqrt : (⟨S100000x1, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v88 main_v92 main_v93 (mulf : (⟨S100000x128, .f32⟩ : BufTy).Contents (Elt F) → (⟨S100000x128, .f32⟩ : BufTy).Contents (Elt F) → (⟨S100000x128, .f32⟩ : BufTy).Contents (Elt F)),
    unary main_v35 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v37 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    binary main_v99 main_v39 main_v100 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v41 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v100 main_v102 main_v103 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v103) (TRef.of (T := ⟨S100000x128, .f32⟩) main_call2_v0) (TRef.of (T := ⟨S100000x128, .f32⟩) main_v104) maximumf,
    unary main_v13 main_v105 (broadcastInDim S100000x128 ![0, 1] bcast_S100000x1_S100000x128_0_1 : (⟨S100000x1, .f32⟩ : BufTy).Contents (Elt F) → (⟨S100000x128, .f32⟩ : BufTy).Contents (Elt F)),
    binary main_v104 main_v105 main_v106 (mulf : (⟨S100000x128, .f32⟩ : BufTy).Contents (Elt F) → (⟨S100000x128, .f32⟩ : BufTy).Contents (Elt F) → (⟨S100000x128, .f32⟩ : BufTy).Contents (Elt F)) ]

def seg2 : List (HloOp τ sig (Elt F)) :=
  [ nullary main_c (constantI S_ 32 0#32),
    unary main_c main_v107 (broadcastInDim S725000 ![] bcast_S_S725000 : (⟨S_, .i32⟩ : BufTy).Contents (Elt F) → (⟨S725000, .i32⟩ : BufTy).Contents (Elt F)),
    binary main_v1 main_v107 main_v108 (cmpi .slt : (⟨S725000, .i32⟩ : BufTy).Contents (Elt F) → (⟨S725000, .i32⟩ : BufTy).Contents (Elt F) → (⟨S725000, .i1⟩ : BufTy).Contents (Elt F)),
    nullary main_c_14 (constantI S_ 32 100000#32),
    unary main_c_14 main_v109 (broadcastInDim S725000 ![] bcast_S_S725000 : (⟨S_, .i32⟩ : BufTy).Contents (Elt F) → (⟨S725000, .i32⟩ : BufTy).Contents (Elt F)),
    binary main_v1 main_v109 main_v110 (addi : (⟨S725000, .i32⟩ : BufTy).Contents (Elt F) → (⟨S725000, .i32⟩ : BufTy).Contents (Elt F) → (⟨S725000, .i32⟩ : BufTy).Contents (Elt F)),
    ternary main_v108 main_v110 main_v1 main_v111 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v111 main_v112 (broadcastInDim S725000x1 ![0] bcast_S725000_S725000x1_0 : (⟨S725000, .i32⟩ : BufTy).Contents (Elt F) → (⟨S725000x1, .i32⟩ : BufTy).Contents (Elt F)),
    binary main_v106 main_v112 main_v113 ((fun x i => Host.gather gather_S100000x128_S725000x1_S725000x128_1_0_n_n_0_1_1128 x i) : (⟨S100000x128, .f32⟩ : BufTy).Contents (Elt F) → (⟨S725000x1, .i32⟩ : BufTy).Contents (Elt F) → (⟨S725000x128, .f32⟩ : BufTy).Contents (Elt F)),
    nullary main_cst_15 (constant S_ .f32 0x00000000#32),
    unary main_cst_15 main_v114 (broadcastInDim S100000x128 ![] bcast_S_S100000x128 : (⟨S_, .f32⟩ : BufTy).Contents (Elt F) → (⟨S100000x128, .f32⟩ : BufTy).Contents (Elt F)),
    unary main_v2 main_v115 (broadcastInDim S725000x1 ![0] bcast_S725000_S725000x1_0 : (⟨S725000, .i32⟩ : BufTy).Contents (Elt F) → (⟨S725000x1, .i32⟩ : BufTy).Contents (Elt F)),
    ternary main_v114 main_v115 main_v113 main_v116 ((fun x i u => Host.scatterAdd scatter_S100000x128_S725000x1_S725000x128_1_0_0_1 x i u) : (⟨S100000x128, .f32⟩ : BufTy).Contents (Elt F) → (⟨S725000x1, .i32⟩ : BufTy).Contents (Elt F) → (⟨S725000x128, .f32⟩ : BufTy).Contents (Elt F) → (⟨S100000x128, .f32⟩ : BufTy).Contents (Elt F)),
    unary main_v17 main_v117 (broadcastInDim S100000x128 ![0, 1] bcast_S100000x1_S100000x128_0_1 : (⟨S100000x1, .f32⟩ : BufTy).Contents (Elt F) → (⟨S100000x128, .f32⟩ : BufTy).Contents (Elt F)),
    binary main_v116 main_v117 main_v118 (mulf : (⟨S100000x128, .f32⟩ : BufTy).Contents (Elt F) → (⟨S100000x128, .f32⟩ : BufTy).Contents (Elt F) → (⟨S100000x128, .f32⟩ : BufTy).Contents (Elt F)) ]

def seg3 : List (HloOp τ sig (Elt F)) :=
  [ unary main_arg6 main_v119 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v119 main_v120 rfl shapeCasts_S1x128x128_S128x128,
    unary main_arg7 main_v121 ((extractStridedSlice S1x128 ![1, 0] · slices_S3x128_S1x128_1_0) : (⟨S3x128, .f32⟩ : BufTy).Contents (Elt F) → (⟨S1x128, .f32⟩ : BufTy).Contents (Elt F)),
    reshape main_v121 main_v122 rfl shapeCasts_S1x128_S128,
    unary main_arg8 main_v123 ((extractStridedSlice S1x128 ![1, 0] · slices_S3x128_S1x128_1_0) : (⟨S3x128, .f32⟩ : BufTy).Contents (Elt F) → (⟨S1x128, .f32⟩ : BufTy).Contents (Elt F)),
    reshape main_v123 main_v124 rfl shapeCasts_S1x128_S128,
    unary main_arg9 main_v125 ((extractStridedSlice S1x128 ![1, 0] · slices_S3x128_S1x128_1_0) : (⟨S3x128, .f32⟩ : BufTy).Contents (Elt F) → (⟨S1x128, .f32⟩ : BufTy).Contents (Elt F)),
    reshape main_v125 main_v126 rfl shapeCasts_S1x128_S128,
    unary main_arg10 main_v127 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v127 main_v128 rfl shapeCasts_S1x128x128_S128x128,
    unary main_arg11 main_v129 ((extractStridedSlice S1x128 ![1, 0] · slices_S3x128_S1x128_1_0) : (⟨S3x128, .f32⟩ : BufTy).Contents (Elt F) → (⟨S1x128, .f32⟩ : BufTy).Contents (Elt F)),
    reshape main_v129 main_v130 rfl shapeCasts_S1x128_S128,
    unary main_arg12 main_v131 ((extractStridedSlice S1x128 ![1, 0] · slices_S3x128_S1x128_1_0) : (⟨S3x128, .f32⟩ : BufTy).Contents (Elt F) → (⟨S1x128, .f32⟩ : BufTy).Contents (Elt F)),
    reshape main_v131 main_v132 rfl shapeCasts_S1x128_S128,
    unary main_arg13 main_v133 ((extractStridedSlice S1x128 ![1, 0] · slices_S3x128_S1x128_1_0) : (⟨S3x128, .f32⟩ : BufTy).Contents (Elt F) → (⟨S1x128, .f32⟩ : BufTy).Contents (Elt F)),
    reshape main_v133 main_v134 rfl shapeCasts_S1x128_S128,
    unary main_arg14 main_v135 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v135 main_v136 rfl shapeCasts_S1x128x128_S128x128,
    unary main_arg15 main_v137 ((extractStridedSlice S1x128 ![1, 0] · slices_S3x128_S1x128_1_0) : (⟨S3x128, .f32⟩ : BufTy).Contents (Elt F) → (⟨S1x128, .f32⟩ : BufTy).Contents (Elt F)),
    reshape main_v137 main_v138 rfl shapeCasts_S1x128_S128,
    binary main_v118 main_v120 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v122 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v139 main_v141 main_v142 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v142) (TRef.of (T := ⟨S100000x128, .f32⟩) main_call3_v0) (TRef.of (T := ⟨S100000x128, .f32⟩) main_v143) maximumf,
    nullary main_cst_16 (constant S_ .f32 0x00000000#32),
    binary main_v143 main_cst_16 main_v144 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v144 main_v145 (broadcastInDim S100000x1 ![0] bcast_S100000_S100000x1_0 : (⟨S100000, .f32⟩ : BufTy).Contents (Elt F) → (⟨S100000x1, .f32⟩ : BufTy).Contents (Elt F)),
    nullary main_cst_17 (constant S_ .f32 0x43000000#32),
    unary main_cst_17 main_v146 (broadcastInDim S100000x1 ![] bcast_S_S100000x1 : (⟨S_, .f32⟩ : BufTy).Contents (Elt F) → (⟨S100000x1, .f32⟩ : BufTy).Contents (Elt F)),
    binary main_v145 main_v146 main_v147 (Host.divf : (⟨S100000x1, .f32⟩ : BufTy).Contents (Elt F) → (⟨S100000x1, .f32⟩ : BufTy).Contents (Elt F) → (⟨S100000x1, .f32⟩ : BufTy).Contents (Elt F)),
    unary main_v147 main_v148 (broadcastInDim S100000x128 ![0, 1] bcast_S100000x1_S100000x128_0_1 : (⟨S100000x1, .f32⟩ : BufTy).Contents (Elt F) → (⟨S100000x128, .f32⟩ : BufTy).Contents (Elt F)),
    binary main_v143 main_v148 main_v149 (subf : (⟨S100000x128, .f32⟩ : BufTy).Contents (Elt F) → (⟨S100000x128, .f32⟩ : BufTy).Contents (Elt F) → (⟨S100000x128, .f32⟩ : BufTy).Contents (Elt F)),
    binary main_v149 main_v149 main_v150 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v150 main_cst_18 main_v151 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v151 main_v152 (broadcastInDim S100000x1 ![0] bcast_S100000_S100000x1_0 : (⟨S100000, .f32⟩ : BufTy).Contents (Elt F) → (⟨S100000x1, .f32⟩ : BufTy).Contents (Elt F)),
    nullary main_cst_19 (constant S_ .f32 0x43000000#32),
    unary main_cst_19 main_v153 (broadcastInDim S100000x1 ![] bcast_S_S100000x1 : (⟨S_, .f32⟩ : BufTy).Contents (Elt F) → (⟨S100000x1, .f32⟩ : BufTy).Contents (Elt F)),
    binary main_v152 main_v153 main_v154 (Host.divf : (⟨S100000x1, .f32⟩ : BufTy).Contents (Elt F) → (⟨S100000x1, .f32⟩ : BufTy).Contents (Elt F) → (⟨S100000x1, .f32⟩ : BufTy).Contents (Elt F)),
    unary main_v147 main_v155 (broadcastInDim S100000x128 ![0, 1] bcast_S100000x1_S100000x128_0_1 : (⟨S100000x1, .f32⟩ : BufTy).Contents (Elt F) → (⟨S100000x128, .f32⟩ : BufTy).Contents (Elt F)),
    binary main_v143 main_v155 main_v156 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x358637BD#32),
    unary main_cst_20 main_v157 (broadcastInDim S100000x1 ![] bcast_S_S100000x1 : (⟨S_, .f32⟩ : BufTy).Contents (Elt F) → (⟨S100000x1, .f32⟩ : BufTy).Contents (Elt F)),
    binary main_v154 main_v157 main_v158 (addf : (⟨S100000x1, .f32⟩ : BufTy).Contents (Elt F) → (⟨S100000x1, .f32⟩ : BufTy).Contents (Elt F) → (⟨S100000x1, .f32⟩ : BufTy).Contents (Elt F)),
    unary main_v158 main_v159 (Host.rsqrt : (⟨S100000x1, .f32⟩ : BufTy).Contents (Elt F) → (⟨S100000x1, .f32⟩ : BufTy).Contents (Elt F)),
    unary main_v159 main_v160 (broadcastInDim S100000x128 ![0, 1] bcast_S100000x1_S100000x128_0_1 : (⟨S100000x1, .f32⟩ : BufTy).Contents (Elt F) → (⟨S100000x128, .f32⟩ : BufTy).Contents (Elt F)),
    binary main_v156 main_v160 main_v161 (mulf : (⟨S100000x128, .f32⟩ : BufTy).Contents (Elt F) → (⟨S100000x128, .f32⟩ : BufTy).Contents (Elt F) → (⟨S100000x128, .f32⟩ : BufTy).Contents (Elt F)),
    unary main_v124 main_v162 (broadcastInDim S1x128 ![1] bcast_S128_S1x128_1 : (⟨S128, .f32⟩ : BufTy).Contents (Elt F) → (⟨S1x128, .f32⟩ : BufTy).Contents (Elt F)),
    unary main_v162 main_v163 (broadcastInDim S100000x128 ![0, 1] bcast_S1x128_S100000x128_0_1 : (⟨S1x128, .f32⟩ : BufTy).Contents (Elt F) → (⟨S100000x128, .f32⟩ : BufTy).Contents (Elt F)),
    binary main_v161 main_v163 main_v164 (mulf : (⟨S100000x128, .f32⟩ : BufTy).Contents (Elt F) → (⟨S100000x128, .f32⟩ : BufTy).Contents (Elt F) → (⟨S100000x128, .f32⟩ : BufTy).Contents (Elt F)),
    unary main_v126 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v164 main_v166 main_v167 (addf : (⟨S100000x128, .f32⟩ : BufTy).Contents (Elt F) → (⟨S100000x128, .f32⟩ : BufTy).Contents (Elt F) → (⟨S100000x128, .f32⟩ : BufTy).Contents (Elt F)),
    binary main_v167 main_v128 main_v168 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v130 main_v169 (broadcastInDim S1x128 ![1] bcast_S128_S1x128_1 : (⟨S128, .f32⟩ : BufTy).Contents (Elt F) → (⟨S1x128, .f32⟩ : BufTy).Contents (Elt F)),
    unary main_v169 main_v170 (broadcastInDim S100000x128 ![0, 1] bcast_S1x128_S100000x128_0_1 : (⟨S1x128, .f32⟩ : BufTy).Contents (Elt F) → (⟨S100000x128, .f32⟩ : BufTy).Contents (Elt F)),
    binary main_v168 main_v170 main_v171 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v171) (TRef.of (T := ⟨S100000x128, .f32⟩) main_call4_v0) (TRef.of (T := ⟨S100000x128, .f32⟩) main_v172) maximumf,
    nullary main_cst_21 (constant S_ .f32 0x00000000#32),
    binary main_v172 main_cst_21 main_v173 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v173 main_v174 (broadcastInDim S100000x1 ![0] bcast_S100000_S100000x1_0 : (⟨S100000, .f32⟩ : BufTy).Contents (Elt F) → (⟨S100000x1, .f32⟩ : BufTy).Contents (Elt F)),
    nullary main_cst_22 (constant S_ .f32 0x43000000#32),
    unary main_cst_22 main_v175 (broadcastInDim S100000x1 ![] bcast_S_S100000x1 : (⟨S_, .f32⟩ : BufTy).Contents (Elt F) → (⟨S100000x1, .f32⟩ : BufTy).Contents (Elt F)),
    binary main_v174 main_v175 main_v176 (Host.divf : (⟨S100000x1, .f32⟩ : BufTy).Contents (Elt F) → (⟨S100000x1, .f32⟩ : BufTy).Contents (Elt F) → (⟨S100000x1, .f32⟩ : BufTy).Contents (Elt F)),
    unary main_v176 main_v177 (broadcastInDim S100000x128 ![0, 1] bcast_S100000x1_S100000x128_0_1 : (⟨S100000x1, .f32⟩ : BufTy).Contents (Elt F) → (⟨S100000x128, .f32⟩ : BufTy).Contents (Elt F)),
    binary main_v172 main_v177 main_v178 (subf : (⟨S100000x128, .f32⟩ : BufTy).Contents (Elt F) → (⟨S100000x128, .f32⟩ : BufTy).Contents (Elt F) → (⟨S100000x128, .f32⟩ : BufTy).Contents (Elt F)),
    binary main_v178 main_v178 main_v179 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v179 main_cst_23 main_v180 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v180 main_v181 (broadcastInDim S100000x1 ![0] bcast_S100000_S100000x1_0 : (⟨S100000, .f32⟩ : BufTy).Contents (Elt F) → (⟨S100000x1, .f32⟩ : BufTy).Contents (Elt F)),
    nullary main_cst_24 (constant S_ .f32 0x43000000#32),
    unary main_cst_24 main_v182 (broadcastInDim S100000x1 ![] bcast_S_S100000x1 : (⟨S_, .f32⟩ : BufTy).Contents (Elt F) → (⟨S100000x1, .f32⟩ : BufTy).Contents (Elt F)),
    binary main_v181 main_v182 main_v183 (Host.divf : (⟨S100000x1, .f32⟩ : BufTy).Contents (Elt F) → (⟨S100000x1, .f32⟩ : BufTy).Contents (Elt F) → (⟨S100000x1, .f32⟩ : BufTy).Contents (Elt F)),
    unary main_v176 main_v184 (broadcastInDim S100000x128 ![0, 1] bcast_S100000x1_S100000x128_0_1 : (⟨S100000x1, .f32⟩ : BufTy).Contents (Elt F) → (⟨S100000x128, .f32⟩ : BufTy).Contents (Elt F)),
    binary main_v172 main_v184 main_v185 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x358637BD#32),
    unary main_cst_25 main_v186 (broadcastInDim S100000x1 ![] bcast_S_S100000x1 : (⟨S_, .f32⟩ : BufTy).Contents (Elt F) → (⟨S100000x1, .f32⟩ : BufTy).Contents (Elt F)),
    binary main_v183 main_v186 main_v187 (addf : (⟨S100000x1, .f32⟩ : BufTy).Contents (Elt F) → (⟨S100000x1, .f32⟩ : BufTy).Contents (Elt F) → (⟨S100000x1, .f32⟩ : BufTy).Contents (Elt F)),
    unary main_v187 main_v188 (Host.rsqrt : (⟨S100000x1, .f32⟩ : BufTy).Contents (Elt F) → (⟨S100000x1, .f32⟩ : BufTy).Contents (Elt F)),
    unary main_v188 main_v189 (broadcastInDim S100000x128 ![0, 1] bcast_S100000x1_S100000x128_0_1 : (⟨S100000x1, .f32⟩ : BufTy).Contents (Elt F) → (⟨S100000x128, .f32⟩ : BufTy).Contents (Elt F)),
    binary main_v185 main_v189 main_v190 (mulf : (⟨S100000x128, .f32⟩ : BufTy).Contents (Elt F) → (⟨S100000x128, .f32⟩ : BufTy).Contents (Elt F) → (⟨S100000x128, .f32⟩ : BufTy).Contents (Elt F)),
    unary main_v132 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v190 main_v192 main_v193 (mulf : (⟨S100000x128, .f32⟩ : BufTy).Contents (Elt F) → (⟨S100000x128, .f32⟩ : BufTy).Contents (Elt F) → (⟨S100000x128, .f32⟩ : BufTy).Contents (Elt F)),
    unary main_v134 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v193 main_v195 main_v196 (addf : (⟨S100000x128, .f32⟩ : BufTy).Contents (Elt F) → (⟨S100000x128, .f32⟩ : BufTy).Contents (Elt F) → (⟨S100000x128, .f32⟩ : BufTy).Contents (Elt F)),
    binary main_v196 main_v136 main_v197 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v138 main_v198 (broadcastInDim S1x128 ![1] bcast_S128_S1x128_1 : (⟨S128, .f32⟩ : BufTy).Contents (Elt F) → (⟨S1x128, .f32⟩ : BufTy).Contents (Elt F)),
    unary main_v198 main_v199 (broadcastInDim S100000x128 ![0, 1] bcast_S1x128_S100000x128_0_1 : (⟨S1x128, .f32⟩ : BufTy).Contents (Elt F) → (⟨S100000x128, .f32⟩ : BufTy).Contents (Elt F)),
    binary main_v197 main_v199 main_v200 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v200) (TRef.of (T := ⟨S100000x128, .f32⟩) main_call5_v0) (TRef.of (T := ⟨S100000x128, .f32⟩) main_v201) maximumf,
    unary main_v13 main_v202 (broadcastInDim S100000x128 ![0, 1] bcast_S100000x1_S100000x128_0_1 : (⟨S100000x1, .f32⟩ : BufTy).Contents (Elt F) → (⟨S100000x128, .f32⟩ : BufTy).Contents (Elt F)),
    binary main_v201 main_v202 main_v203 (mulf : (⟨S100000x128, .f32⟩ : BufTy).Contents (Elt F) → (⟨S100000x128, .f32⟩ : BufTy).Contents (Elt F) → (⟨S100000x128, .f32⟩ : BufTy).Contents (Elt F)) ]

def seg4 : List (HloOp τ sig (Elt F)) :=
  [ nullary main_c_26 (constantI S_ 32 0#32),
    unary main_c_26 main_v204 (broadcastInDim S725000 ![] bcast_S_S725000 : (⟨S_, .i32⟩ : BufTy).Contents (Elt F) → (⟨S725000, .i32⟩ : BufTy).Contents (Elt F)),
    binary main_v1 main_v204 main_v205 (cmpi .slt : (⟨S725000, .i32⟩ : BufTy).Contents (Elt F) → (⟨S725000, .i32⟩ : BufTy).Contents (Elt F) → (⟨S725000, .i1⟩ : BufTy).Contents (Elt F)),
    nullary main_c_27 (constantI S_ 32 100000#32),
    unary main_c_27 main_v206 (broadcastInDim S725000 ![] bcast_S_S725000 : (⟨S_, .i32⟩ : BufTy).Contents (Elt F) → (⟨S725000, .i32⟩ : BufTy).Contents (Elt F)),
    binary main_v1 main_v206 main_v207 (addi : (⟨S725000, .i32⟩ : BufTy).Contents (Elt F) → (⟨S725000, .i32⟩ : BufTy).Contents (Elt F) → (⟨S725000, .i32⟩ : BufTy).Contents (Elt F)),
    ternary main_v205 main_v207 main_v1 main_v208 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v208 main_v209 (broadcastInDim S725000x1 ![0] bcast_S725000_S725000x1_0 : (⟨S725000, .i32⟩ : BufTy).Contents (Elt F) → (⟨S725000x1, .i32⟩ : BufTy).Contents (Elt F)),
    binary main_v203 main_v209 main_v210 ((fun x i => Host.gather gather_S100000x128_S725000x1_S725000x128_1_0_n_n_0_1_1128 x i) : (⟨S100000x128, .f32⟩ : BufTy).Contents (Elt F) → (⟨S725000x1, .i32⟩ : BufTy).Contents (Elt F) → (⟨S725000x128, .f32⟩ : BufTy).Contents (Elt F)),
    nullary main_cst_28 (constant S_ .f32 0x00000000#32),
    unary main_cst_28 main_v211 (broadcastInDim S100000x128 ![] bcast_S_S100000x128 : (⟨S_, .f32⟩ : BufTy).Contents (Elt F) → (⟨S100000x128, .f32⟩ : BufTy).Contents (Elt F)),
    unary main_v2 main_v212 (broadcastInDim S725000x1 ![0] bcast_S725000_S725000x1_0 : (⟨S725000, .i32⟩ : BufTy).Contents (Elt F) → (⟨S725000x1, .i32⟩ : BufTy).Contents (Elt F)),
    ternary main_v211 main_v212 main_v210 main_v213 ((fun x i u => Host.scatterAdd scatter_S100000x128_S725000x1_S725000x128_1_0_0_1 x i u) : (⟨S100000x128, .f32⟩ : BufTy).Contents (Elt F) → (⟨S725000x1, .i32⟩ : BufTy).Contents (Elt F) → (⟨S725000x128, .f32⟩ : BufTy).Contents (Elt F) → (⟨S100000x128, .f32⟩ : BufTy).Contents (Elt F)),
    unary main_v17 main_v214 (broadcastInDim S100000x128 ![0, 1] bcast_S100000x1_S100000x128_0_1 : (⟨S100000x1, .f32⟩ : BufTy).Contents (Elt F) → (⟨S100000x128, .f32⟩ : BufTy).Contents (Elt F)),
    binary main_v213 main_v214 main_v215 (mulf : (⟨S100000x128, .f32⟩ : BufTy).Contents (Elt F) → (⟨S100000x128, .f32⟩ : BufTy).Contents (Elt F) → (⟨S100000x128, .f32⟩ : BufTy).Contents (Elt F)) ]

def seg5 : List (HloOp τ sig (Elt F)) :=
  [ unary main_arg6 main_v216 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v216 main_v217 rfl shapeCasts_S1x128x128_S128x128,
    unary main_arg7 main_v218 ((extractStridedSlice S1x128 ![2, 0] · slices_S3x128_S1x128_2_0) : (⟨S3x128, .f32⟩ : BufTy).Contents (Elt F) → (⟨S1x128, .f32⟩ : BufTy).Contents (Elt F)),
    reshape main_v218 main_v219 rfl shapeCasts_S1x128_S128,
    unary main_arg8 main_v220 ((extractStridedSlice S1x128 ![2, 0] · slices_S3x128_S1x128_2_0) : (⟨S3x128, .f32⟩ : BufTy).Contents (Elt F) → (⟨S1x128, .f32⟩ : BufTy).Contents (Elt F)),
    reshape main_v220 main_v221 rfl shapeCasts_S1x128_S128,
    unary main_arg9 main_v222 ((extractStridedSlice S1x128 ![2, 0] · slices_S3x128_S1x128_2_0) : (⟨S3x128, .f32⟩ : BufTy).Contents (Elt F) → (⟨S1x128, .f32⟩ : BufTy).Contents (Elt F)),
    reshape main_v222 main_v223 rfl shapeCasts_S1x128_S128,
    unary main_arg10 main_v224 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v224 main_v225 rfl shapeCasts_S1x128x128_S128x128,
    unary main_arg11 main_v226 ((extractStridedSlice S1x128 ![2, 0] · slices_S3x128_S1x128_2_0) : (⟨S3x128, .f32⟩ : BufTy).Contents (Elt F) → (⟨S1x128, .f32⟩ : BufTy).Contents (Elt F)),
    reshape main_v226 main_v227 rfl shapeCasts_S1x128_S128,
    unary main_arg12 main_v228 ((extractStridedSlice S1x128 ![2, 0] · slices_S3x128_S1x128_2_0) : (⟨S3x128, .f32⟩ : BufTy).Contents (Elt F) → (⟨S1x128, .f32⟩ : BufTy).Contents (Elt F)),
    reshape main_v228 main_v229 rfl shapeCasts_S1x128_S128,
    unary main_arg13 main_v230 ((extractStridedSlice S1x128 ![2, 0] · slices_S3x128_S1x128_2_0) : (⟨S3x128, .f32⟩ : BufTy).Contents (Elt F) → (⟨S1x128, .f32⟩ : BufTy).Contents (Elt F)),
    reshape main_v230 main_v231 rfl shapeCasts_S1x128_S128,
    unary main_arg14 main_v232 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v232 main_v233 rfl shapeCasts_S1x128x128_S128x128,
    unary main_arg15 main_v234 ((extractStridedSlice S1x128 ![2, 0] · slices_S3x128_S1x128_2_0) : (⟨S3x128, .f32⟩ : BufTy).Contents (Elt F) → (⟨S1x128, .f32⟩ : BufTy).Contents (Elt F)),
    reshape main_v234 main_v235 rfl shapeCasts_S1x128_S128,
    binary main_v215 main_v217 main_v236 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v219 main_v237 (broadcastInDim S1x128 ![1] bcast_S128_S1x128_1 : (⟨S128, .f32⟩ : BufTy).Contents (Elt F) → (⟨S1x128, .f32⟩ : BufTy).Contents (Elt F)),
    unary main_v237 main_v238 (broadcastInDim S100000x128 ![0, 1] bcast_S1x128_S100000x128_0_1 : (⟨S1x128, .f32⟩ : BufTy).Contents (Elt F) → (⟨S100000x128, .f32⟩ : BufTy).Contents (Elt F)),
    binary main_v236 main_v238 main_v239 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v239) (TRef.of (T := ⟨S100000x128, .f32⟩) main_call6_v0) (TRef.of (T := ⟨S100000x128, .f32⟩) main_v240) maximumf,
    nullary main_cst_29 (constant S_ .f32 0x00000000#32),
    binary main_v240 main_cst_29 main_v241 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v241 main_v242 (broadcastInDim S100000x1 ![0] bcast_S100000_S100000x1_0 : (⟨S100000, .f32⟩ : BufTy).Contents (Elt F) → (⟨S100000x1, .f32⟩ : BufTy).Contents (Elt F)),
    nullary main_cst_30 (constant S_ .f32 0x43000000#32),
    unary main_cst_30 main_v243 (broadcastInDim S100000x1 ![] bcast_S_S100000x1 : (⟨S_, .f32⟩ : BufTy).Contents (Elt F) → (⟨S100000x1, .f32⟩ : BufTy).Contents (Elt F)),
    binary main_v242 main_v243 main_v244 (Host.divf : (⟨S100000x1, .f32⟩ : BufTy).Contents (Elt F) → (⟨S100000x1, .f32⟩ : BufTy).Contents (Elt F) → (⟨S100000x1, .f32⟩ : BufTy).Contents (Elt F)),
    unary main_v244 main_v245 (broadcastInDim S100000x128 ![0, 1] bcast_S100000x1_S100000x128_0_1 : (⟨S100000x1, .f32⟩ : BufTy).Contents (Elt F) → (⟨S100000x128, .f32⟩ : BufTy).Contents (Elt F)),
    binary main_v240 main_v245 main_v246 (subf : (⟨S100000x128, .f32⟩ : BufTy).Contents (Elt F) → (⟨S100000x128, .f32⟩ : BufTy).Contents (Elt F) → (⟨S100000x128, .f32⟩ : BufTy).Contents (Elt F)),
    binary main_v246 main_v246 main_v247 (mulf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x00000000#32),
    binary main_v247 main_cst_31 main_v248 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v248 main_v249 (broadcastInDim S100000x1 ![0] bcast_S100000_S100000x1_0 : (⟨S100000, .f32⟩ : BufTy).Contents (Elt F) → (⟨S100000x1, .f32⟩ : BufTy).Contents (Elt F)),
    nullary main_cst_32 (constant S_ .f32 0x43000000#32),
    unary main_cst_32 main_v250 (broadcastInDim S100000x1 ![] bcast_S_S100000x1 : (⟨S_, .f32⟩ : BufTy).Contents (Elt F) → (⟨S100000x1, .f32⟩ : BufTy).Contents (Elt F)),
    binary main_v249 main_v250 main_v251 (Host.divf : (⟨S100000x1, .f32⟩ : BufTy).Contents (Elt F) → (⟨S100000x1, .f32⟩ : BufTy).Contents (Elt F) → (⟨S100000x1, .f32⟩ : BufTy).Contents (Elt F)),
    unary main_v244 main_v252 (broadcastInDim S100000x128 ![0, 1] bcast_S100000x1_S100000x128_0_1 : (⟨S100000x1, .f32⟩ : BufTy).Contents (Elt F) → (⟨S100000x128, .f32⟩ : BufTy).Contents (Elt F)),
    binary main_v240 main_v252 main_v253 (subf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x358637BD#32),
    unary main_cst_33 main_v254 (broadcastInDim S100000x1 ![] bcast_S_S100000x1 : (⟨S_, .f32⟩ : BufTy).Contents (Elt F) → (⟨S100000x1, .f32⟩ : BufTy).Contents (Elt F)),
    binary main_v251 main_v254 main_v255 (addf : (⟨S100000x1, .f32⟩ : BufTy).Contents (Elt F) → (⟨S100000x1, .f32⟩ : BufTy).Contents (Elt F) → (⟨S100000x1, .f32⟩ : BufTy).Contents (Elt F)),
    unary main_v255 main_v256 (Host.rsqrt : (⟨S100000x1, .f32⟩ : BufTy).Contents (Elt F) → (⟨S100000x1, .f32⟩ : BufTy).Contents (Elt F)),
    unary main_v256 main_v257 (broadcastInDim S100000x128 ![0, 1] bcast_S100000x1_S100000x128_0_1 : (⟨S100000x1, .f32⟩ : BufTy).Contents (Elt F) → (⟨S100000x128, .f32⟩ : BufTy).Contents (Elt F)),
    binary main_v253 main_v257 main_v258 (mulf : (⟨S100000x128, .f32⟩ : BufTy).Contents (Elt F) → (⟨S100000x128, .f32⟩ : BufTy).Contents (Elt F) → (⟨S100000x128, .f32⟩ : BufTy).Contents (Elt F)),
    unary main_v221 main_v259 (broadcastInDim S1x128 ![1] bcast_S128_S1x128_1 : (⟨S128, .f32⟩ : BufTy).Contents (Elt F) → (⟨S1x128, .f32⟩ : BufTy).Contents (Elt F)),
    unary main_v259 main_v260 (broadcastInDim S100000x128 ![0, 1] bcast_S1x128_S100000x128_0_1 : (⟨S1x128, .f32⟩ : BufTy).Contents (Elt F) → (⟨S100000x128, .f32⟩ : BufTy).Contents (Elt F)),
    binary main_v258 main_v260 main_v261 (mulf : (⟨S100000x128, .f32⟩ : BufTy).Contents (Elt F) → (⟨S100000x128, .f32⟩ : BufTy).Contents (Elt F) → (⟨S100000x128, .f32⟩ : BufTy).Contents (Elt F)),
    unary main_v223 main_v262 (broadcastInDim S1x128 ![1] bcast_S128_S1x128_1 : (⟨S128, .f32⟩ : BufTy).Contents (Elt F) → (⟨S1x128, .f32⟩ : BufTy).Contents (Elt F)),
    unary main_v262 main_v263 (broadcastInDim S100000x128 ![0, 1] bcast_S1x128_S100000x128_0_1 : (⟨S1x128, .f32⟩ : BufTy).Contents (Elt F) → (⟨S100000x128, .f32⟩ : BufTy).Contents (Elt F)),
    binary main_v261 main_v263 main_v264 (addf : (⟨S100000x128, .f32⟩ : BufTy).Contents (Elt F) → (⟨S100000x128, .f32⟩ : BufTy).Contents (Elt F) → (⟨S100000x128, .f32⟩ : BufTy).Contents (Elt F)),
    binary main_v264 main_v225 main_v265 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v227 main_v266 (broadcastInDim S1x128 ![1] bcast_S128_S1x128_1 : (⟨S128, .f32⟩ : BufTy).Contents (Elt F) → (⟨S1x128, .f32⟩ : BufTy).Contents (Elt F)),
    unary main_v266 main_v267 (broadcastInDim S100000x128 ![0, 1] bcast_S1x128_S100000x128_0_1 : (⟨S1x128, .f32⟩ : BufTy).Contents (Elt F) → (⟨S100000x128, .f32⟩ : BufTy).Contents (Elt F)),
    binary main_v265 main_v267 main_v268 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v268) (TRef.of (T := ⟨S100000x128, .f32⟩) main_call7_v0) (TRef.of (T := ⟨S100000x128, .f32⟩) main_v269) maximumf,
    nullary main_cst_34 (constant S_ .f32 0x00000000#32),
    binary main_v269 main_cst_34 main_v270 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v270 main_v271 (broadcastInDim S100000x1 ![0] bcast_S100000_S100000x1_0 : (⟨S100000, .f32⟩ : BufTy).Contents (Elt F) → (⟨S100000x1, .f32⟩ : BufTy).Contents (Elt F)),
    nullary main_cst_35 (constant S_ .f32 0x43000000#32),
    unary main_cst_35 main_v272 (broadcastInDim S100000x1 ![] bcast_S_S100000x1 : (⟨S_, .f32⟩ : BufTy).Contents (Elt F) → (⟨S100000x1, .f32⟩ : BufTy).Contents (Elt F)),
    binary main_v271 main_v272 main_v273 (Host.divf : (⟨S100000x1, .f32⟩ : BufTy).Contents (Elt F) → (⟨S100000x1, .f32⟩ : BufTy).Contents (Elt F) → (⟨S100000x1, .f32⟩ : BufTy).Contents (Elt F)),
    unary main_v273 main_v274 (broadcastInDim S100000x128 ![0, 1] bcast_S100000x1_S100000x128_0_1 : (⟨S100000x1, .f32⟩ : BufTy).Contents (Elt F) → (⟨S100000x128, .f32⟩ : BufTy).Contents (Elt F)),
    binary main_v269 main_v274 main_v275 (subf : (⟨S100000x128, .f32⟩ : BufTy).Contents (Elt F) → (⟨S100000x128, .f32⟩ : BufTy).Contents (Elt F) → (⟨S100000x128, .f32⟩ : BufTy).Contents (Elt F)),
    binary main_v275 main_v275 main_v276 (mulf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x00000000#32),
    binary main_v276 main_cst_36 main_v277 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v277 main_v278 (broadcastInDim S100000x1 ![0] bcast_S100000_S100000x1_0 : (⟨S100000, .f32⟩ : BufTy).Contents (Elt F) → (⟨S100000x1, .f32⟩ : BufTy).Contents (Elt F)),
    nullary main_cst_37 (constant S_ .f32 0x43000000#32),
    unary main_cst_37 main_v279 (broadcastInDim S100000x1 ![] bcast_S_S100000x1 : (⟨S_, .f32⟩ : BufTy).Contents (Elt F) → (⟨S100000x1, .f32⟩ : BufTy).Contents (Elt F)),
    binary main_v278 main_v279 main_v280 (Host.divf : (⟨S100000x1, .f32⟩ : BufTy).Contents (Elt F) → (⟨S100000x1, .f32⟩ : BufTy).Contents (Elt F) → (⟨S100000x1, .f32⟩ : BufTy).Contents (Elt F)),
    unary main_v273 main_v281 (broadcastInDim S100000x128 ![0, 1] bcast_S100000x1_S100000x128_0_1 : (⟨S100000x1, .f32⟩ : BufTy).Contents (Elt F) → (⟨S100000x128, .f32⟩ : BufTy).Contents (Elt F)),
    binary main_v269 main_v281 main_v282 (subf : (⟨S100000x128, .f32⟩ : BufTy).Contents (Elt F) → (⟨S100000x128, .f32⟩ : BufTy).Contents (Elt F) → (⟨S100000x128, .f32⟩ : BufTy).Contents (Elt F)),
    nullary main_cst_38 (constant S_ .f32 0x358637BD#32),
    unary main_cst_38 main_v283 (broadcastInDim S100000x1 ![] bcast_S_S100000x1 : (⟨S_, .f32⟩ : BufTy).Contents (Elt F) → (⟨S100000x1, .f32⟩ : BufTy).Contents (Elt F)),
    binary main_v280 main_v283 main_v284 (addf : (⟨S100000x1, .f32⟩ : BufTy).Contents (Elt F) → (⟨S100000x1, .f32⟩ : BufTy).Contents (Elt F) → (⟨S100000x1, .f32⟩ : BufTy).Contents (Elt F)),
    unary main_v284 main_v285 (Host.rsqrt : (⟨S100000x1, .f32⟩ : BufTy).Contents (Elt F) → (⟨S100000x1, .f32⟩ : BufTy).Contents (Elt F)),
    unary main_v285 main_v286 (broadcastInDim S100000x128 ![0, 1] bcast_S100000x1_S100000x128_0_1 : (⟨S100000x1, .f32⟩ : BufTy).Contents (Elt F) → (⟨S100000x128, .f32⟩ : BufTy).Contents (Elt F)),
    binary main_v282 main_v286 main_v287 (mulf : (⟨S100000x128, .f32⟩ : BufTy).Contents (Elt F) → (⟨S100000x128, .f32⟩ : BufTy).Contents (Elt F) → (⟨S100000x128, .f32⟩ : BufTy).Contents (Elt F)),
    unary main_v229 main_v288 (broadcastInDim S1x128 ![1] bcast_S128_S1x128_1 : (⟨S128, .f32⟩ : BufTy).Contents (Elt F) → (⟨S1x128, .f32⟩ : BufTy).Contents (Elt F)),
    unary main_v288 main_v289 (broadcastInDim S100000x128 ![0, 1] bcast_S1x128_S100000x128_0_1 : (⟨S1x128, .f32⟩ : BufTy).Contents (Elt F) → (⟨S100000x128, .f32⟩ : BufTy).Contents (Elt F)),
    binary main_v287 main_v289 main_v290 (mulf : (⟨S100000x128, .f32⟩ : BufTy).Contents (Elt F) → (⟨S100000x128, .f32⟩ : BufTy).Contents (Elt F) → (⟨S100000x128, .f32⟩ : BufTy).Contents (Elt F)),
    unary main_v231 main_v291 (broadcastInDim S1x128 ![1] bcast_S128_S1x128_1 : (⟨S128, .f32⟩ : BufTy).Contents (Elt F) → (⟨S1x128, .f32⟩ : BufTy).Contents (Elt F)),
    unary main_v291 main_v292 (broadcastInDim S100000x128 ![0, 1] bcast_S1x128_S100000x128_0_1 : (⟨S1x128, .f32⟩ : BufTy).Contents (Elt F) → (⟨S100000x128, .f32⟩ : BufTy).Contents (Elt F)),
    binary main_v290 main_v292 main_v293 (addf : (⟨S100000x128, .f32⟩ : BufTy).Contents (Elt F) → (⟨S100000x128, .f32⟩ : BufTy).Contents (Elt F) → (⟨S100000x128, .f32⟩ : BufTy).Contents (Elt F)),
    binary main_v293 main_v233 main_v294 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v235 main_v295 (broadcastInDim S1x128 ![1] bcast_S128_S1x128_1 : (⟨S128, .f32⟩ : BufTy).Contents (Elt F) → (⟨S1x128, .f32⟩ : BufTy).Contents (Elt F)),
    unary main_v295 main_v296 (broadcastInDim S100000x128 ![0, 1] bcast_S1x128_S100000x128_0_1 : (⟨S1x128, .f32⟩ : BufTy).Contents (Elt F) → (⟨S100000x128, .f32⟩ : BufTy).Contents (Elt F)),
    binary main_v294 main_v296 main_v297 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v297) (TRef.of (T := ⟨S100000x128, .f32⟩) main_call8_v0) (TRef.of (T := ⟨S100000x128, .f32⟩) main_v298) maximumf,
    unary main_v13 main_v299 (broadcastInDim S100000x128 ![0, 1] bcast_S100000x1_S100000x128_0_1 : (⟨S100000x1, .f32⟩ : BufTy).Contents (Elt F) → (⟨S100000x128, .f32⟩ : BufTy).Contents (Elt F)),
    binary main_v298 main_v299 main_v300 (mulf : (⟨S100000x128, .f32⟩ : BufTy).Contents (Elt F) → (⟨S100000x128, .f32⟩ : BufTy).Contents (Elt F) → (⟨S100000x128, .f32⟩ : BufTy).Contents (Elt F)) ]

def seg6 : List (HloOp τ sig (Elt F)) :=
  [ nullary main_c_39 (constantI S_ 32 0#32),
    unary main_c_39 main_v301 (broadcastInDim S725000 ![] bcast_S_S725000 : (⟨S_, .i32⟩ : BufTy).Contents (Elt F) → (⟨S725000, .i32⟩ : BufTy).Contents (Elt F)),
    binary main_v1 main_v301 main_v302 (cmpi .slt : (⟨S725000, .i32⟩ : BufTy).Contents (Elt F) → (⟨S725000, .i32⟩ : BufTy).Contents (Elt F) → (⟨S725000, .i1⟩ : BufTy).Contents (Elt F)),
    nullary main_c_40 (constantI S_ 32 100000#32),
    unary main_c_40 main_v303 (broadcastInDim S725000 ![] bcast_S_S725000 : (⟨S_, .i32⟩ : BufTy).Contents (Elt F) → (⟨S725000, .i32⟩ : BufTy).Contents (Elt F)),
    binary main_v1 main_v303 main_v304 (addi : (⟨S725000, .i32⟩ : BufTy).Contents (Elt F) → (⟨S725000, .i32⟩ : BufTy).Contents (Elt F) → (⟨S725000, .i32⟩ : BufTy).Contents (Elt F)),
    ternary main_v302 main_v304 main_v1 main_v305 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v305 main_v306 (broadcastInDim S725000x1 ![0] bcast_S725000_S725000x1_0 : (⟨S725000, .i32⟩ : BufTy).Contents (Elt F) → (⟨S725000x1, .i32⟩ : BufTy).Contents (Elt F)),
    binary main_v300 main_v306 main_v307 ((fun x i => Host.gather gather_S100000x128_S725000x1_S725000x128_1_0_n_n_0_1_1128 x i) : (⟨S100000x128, .f32⟩ : BufTy).Contents (Elt F) → (⟨S725000x1, .i32⟩ : BufTy).Contents (Elt F) → (⟨S725000x128, .f32⟩ : BufTy).Contents (Elt F)),
    nullary main_cst_41 (constant S_ .f32 0x00000000#32),
    unary main_cst_41 main_v308 (broadcastInDim S100000x128 ![] bcast_S_S100000x128 : (⟨S_, .f32⟩ : BufTy).Contents (Elt F) → (⟨S100000x128, .f32⟩ : BufTy).Contents (Elt F)),
    unary main_v2 main_v309 (broadcastInDim S725000x1 ![0] bcast_S725000_S725000x1_0 : (⟨S725000, .i32⟩ : BufTy).Contents (Elt F) → (⟨S725000x1, .i32⟩ : BufTy).Contents (Elt F)),
    ternary main_v308 main_v309 main_v307 main_v310 ((fun x i u => Host.scatterAdd scatter_S100000x128_S725000x1_S725000x128_1_0_0_1 x i u) : (⟨S100000x128, .f32⟩ : BufTy).Contents (Elt F) → (⟨S725000x1, .i32⟩ : BufTy).Contents (Elt F) → (⟨S725000x128, .f32⟩ : BufTy).Contents (Elt F) → (⟨S100000x128, .f32⟩ : BufTy).Contents (Elt F)),
    unary main_v17 main_v311 (broadcastInDim S100000x128 ![0, 1] bcast_S100000x1_S100000x128_0_1 : (⟨S100000x1, .f32⟩ : BufTy).Contents (Elt F) → (⟨S100000x128, .f32⟩ : BufTy).Contents (Elt F)),
    binary main_v310 main_v311 main_v312 (mulf : (⟨S100000x128, .f32⟩ : BufTy).Contents (Elt F) → (⟨S100000x128, .f32⟩ : BufTy).Contents (Elt F) → (⟨S100000x128, .f32⟩ : BufTy).Contents (Elt F)) ]

def seg7 : List (HloOp τ sig (Elt F)) :=
  [ nullary main_cst_42 (constant S_ .f32 0x00000000#32),
    unary main_cst_42 main_v313 (broadcastInDim S512x128 ![] bcast_S_S512x128 : (⟨S_, .f32⟩ : BufTy).Contents (Elt F) → (⟨S512x128, .f32⟩ : BufTy).Contents (Elt F)),
    unary main_arg3 main_v314 (broadcastInDim S100000x1 ![0] bcast_S100000_S100000x1_0 : (⟨S100000, .i32⟩ : BufTy).Contents (Elt F) → (⟨S100000x1, .i32⟩ : BufTy).Contents (Elt F)),
    ternary main_v313 main_v314 main_v312 main_v315 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_43 (constant S_ .f32 0x3F800000#32),
    unary main_cst_43 main_v316 (broadcastInDim S100000 ![] bcast_S_S100000 : (⟨S_, .f32⟩ : BufTy).Contents (Elt F) → (⟨S100000, .f32⟩ : BufTy).Contents (Elt F)),
    nullary main_cst_44 (constant S_ .f32 0x00000000#32),
    unary main_cst_44 main_v317 (broadcastInDim S512 ![] bcast_S_S512 : (⟨S_, .f32⟩ : BufTy).Contents (Elt F) → (⟨S512, .f32⟩ : BufTy).Contents (Elt F)),
    unary main_arg3 main_v318 (broadcastInDim S100000x1 ![0] bcast_S100000_S100000x1_0 : (⟨S100000, .i32⟩ : BufTy).Contents (Elt F) → (⟨S100000x1, .i32⟩ : BufTy).Contents (Elt F)),
    ternary main_v317 main_v318 main_v316 main_v319 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_45 (constant S_ .f32 0x3F800000#32),
    unary main_cst_45 main_v320 (broadcastInDim S512 ![] bcast_S_S512 : (⟨S_, .f32⟩ : BufTy).Contents (Elt F) → (⟨S512, .f32⟩ : BufTy).Contents (Elt F)),
    binary main_v319 main_v320 main_v321 (maximumf : (⟨S512, .f32⟩ : BufTy).Contents (Elt F) → (⟨S512, .f32⟩ : BufTy).Contents (Elt F) → (⟨S512, .f32⟩ : BufTy).Contents (Elt F)),
    unary main_v321 main_v322 (broadcastInDim S512x1 ![0] bcast_S512_S512x1_0 : (⟨S512, .f32⟩ : BufTy).Contents (Elt F) → (⟨S512x1, .f32⟩ : BufTy).Contents (Elt F)),
    unary main_v322 main_v323 (broadcastInDim S512x128 ![0, 1] bcast_S512x1_S512x128_0_1 : (⟨S512x1, .f32⟩ : BufTy).Contents (Elt F) → (⟨S512x128, .f32⟩ : BufTy).Contents (Elt F)),
    binary main_v315 main_v323 main_v324 (Host.divf : (⟨S512x128, .f32⟩ : BufTy).Contents (Elt F) → (⟨S512x128, .f32⟩ : BufTy).Contents (Elt F) → (⟨S512x128, .f32⟩ : BufTy).Contents (Elt F)),
    binary main_v324 main_arg16 main_v325 ((fun l r => Host.dotGeneral dot_S512x128_S128x8_S512x8_1_0_0_1_n_n none l r) : (⟨S512x128, .f32⟩ : BufTy).Contents (Elt F) → (⟨S128x8, .f32⟩ : BufTy).Contents (Elt F) → (⟨S512x8, .f32⟩ : BufTy).Contents (Elt F)),
    unary main_arg17 main_v326 (broadcastInDim S1x8 ![1] bcast_S8_S1x8_1 : (⟨S8, .f32⟩ : BufTy).Contents (Elt F) → (⟨S1x8, .f32⟩ : BufTy).Contents (Elt F)),
    unary main_v326 main_v327 (broadcastInDim S512x8 ![0, 1] bcast_S1x8_S512x8_0_1 : (⟨S1x8, .f32⟩ : BufTy).Contents (Elt F) → (⟨S512x8, .f32⟩ : BufTy).Contents (Elt F)),
    binary main_v325 main_v327 main_v328 (addf : (⟨S512x8, .f32⟩ : BufTy).Contents (Elt F) → (⟨S512x8, .f32⟩ : BufTy).Contents (Elt F) → (⟨S512x8, .f32⟩ : BufTy).Contents (Elt F)) ]

/-- The pieces, in order, are the program's line. -/
theorem ops_split : (Cert.ReferenceIdeal.ValueP.ops : List (HloOp τ sig (Elt F)))
    = seg0 ++ (seg1 ++ (seg2 ++ (seg3 ++ (seg4 ++ (seg5 ++ (seg6 ++ seg7)))))) := rfl

variable (m : (ℓ : Loc nD τ sig) → Buf (Elt F) ℓ) (c : Dev nD)

/-! ## The buffers after each piece -/

def X0 : Valuation τ sig (Elt F) := launchContents m c
def X1 : Valuation τ sig (Elt F) := after seg0 (X0 m c)
def X2 : Valuation τ sig (Elt F) := after seg1 (X1 m c)
def X3 : Valuation τ sig (Elt F) := after seg2 (X2 m c)
def X4 : Valuation τ sig (Elt F) := after seg3 (X3 m c)
def X5 : Valuation τ sig (Elt F) := after seg4 (X4 m c)
def X6 : Valuation τ sig (Elt F) := after seg5 (X5 m c)
def X7 : Valuation τ sig (Elt F) := after seg6 (X6 m c)
def X8 : Valuation τ sig (Elt F) := after seg7 (X7 m c)

/-- The fold of the whole line is the last of them. -/
theorem after_ops : after (Cert.ReferenceIdeal.ValueP.ops (F := F)) (launchContents m c) = X8 m c := by
  rw [ops_split]
  simp only [after_append]
  rfl

/-- Walk the fold at one buffer back through every piece to the operation that wrote it, and through its operands. -/
macro "wwalk" : tactic => `(tactic| (
  simp (disch := decide) only [X8, X7, X6, X5, X4, X3, X2, X1, seg0, seg1, seg2, seg3, seg4, seg5, seg6, seg7,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']))

/-! ## The shared buffers and the arguments, carried -/

theorem X1_v13 : X1 m c (no_index (Proc.devRef .tc main_v13)) = val_main_v13 (F := F) (m ((c.tc : Thread nD τ).loc main_arg1)) := by
  wwalk
  try rfl
theorem X1_arg6 : X1 m c (no_index (Proc.devRef .tc main_arg6)) = (m ((c.tc : Thread nD τ).loc main_arg6)) := by
  wwalk
  try rfl
theorem X1_arg7 : X1 m c (no_index (Proc.devRef .tc main_arg7)) = (m ((c.tc : Thread nD τ).loc main_arg7)) := by
  wwalk
  try rfl
theorem X1_arg8 : X1 m c (no_index (Proc.devRef .tc main_arg8)) = (m ((c.tc : Thread nD τ).loc main_arg8)) := by
  wwalk
  try rfl
theorem X1_arg9 : X1 m c (no_index (Proc.devRef .tc main_arg9)) = (m ((c.tc : Thread nD τ).loc main_arg9)) := by
  wwalk
  try rfl
theorem X1_arg10 : X1 m c (no_index (Proc.devRef .tc main_arg10)) = (m ((c.tc : Thread nD τ).loc main_arg10)) := by
  wwalk
  try rfl
theorem X1_arg11 : X1 m c (no_index (Proc.devRef .tc main_arg11)) = (m ((c.tc : Thread nD τ).loc main_arg11)) := by
  wwalk
  try rfl
theorem X1_arg12 : X1 m c (no_index (Proc.devRef .tc main_arg12)) = (m ((c.tc : Thread nD τ).loc main_arg12)) := by
  wwalk
  try rfl
theorem X1_arg13 : X1 m c (no_index (Proc.devRef .tc main_arg13)) = (m ((c.tc : Thread nD τ).loc main_arg13)) := by
  wwalk
  try rfl
theorem X1_arg14 : X1 m c (no_index (Proc.devRef .tc main_arg14)) = (m ((c.tc : Thread nD τ).loc main_arg14)) := by
  wwalk
  try rfl
theorem X1_arg15 : X1 m c (no_index (Proc.devRef .tc main_arg15)) = (m ((c.tc : Thread nD τ).loc main_arg15)) := by
  wwalk
  try rfl
theorem X3_v13 : X3 m c (no_index (Proc.devRef .tc main_v13)) = val_main_v13 (F := F) (m ((c.tc : Thread nD τ).loc main_arg1)) := by
  wwalk
  try rfl
theorem X3_arg6 : X3 m c (no_index (Proc.devRef .tc main_arg6)) = (m ((c.tc : Thread nD τ).loc main_arg6)) := by
  wwalk
  try rfl
theorem X3_arg7 : X3 m c (no_index (Proc.devRef .tc main_arg7)) = (m ((c.tc : Thread nD τ).loc main_arg7)) := by
  wwalk
  try rfl
theorem X3_arg8 : X3 m c (no_index (Proc.devRef .tc main_arg8)) = (m ((c.tc : Thread nD τ).loc main_arg8)) := by
  wwalk
  try rfl
theorem X3_arg9 : X3 m c (no_index (Proc.devRef .tc main_arg9)) = (m ((c.tc : Thread nD τ).loc main_arg9)) := by
  wwalk
  try rfl
theorem X3_arg10 : X3 m c (no_index (Proc.devRef .tc main_arg10)) = (m ((c.tc : Thread nD τ).loc main_arg10)) := by
  wwalk
  try rfl
theorem X3_arg11 : X3 m c (no_index (Proc.devRef .tc main_arg11)) = (m ((c.tc : Thread nD τ).loc main_arg11)) := by
  wwalk
  try rfl
theorem X3_arg12 : X3 m c (no_index (Proc.devRef .tc main_arg12)) = (m ((c.tc : Thread nD τ).loc main_arg12)) := by
  wwalk
  try rfl
theorem X3_arg13 : X3 m c (no_index (Proc.devRef .tc main_arg13)) = (m ((c.tc : Thread nD τ).loc main_arg13)) := by
  wwalk
  try rfl
theorem X3_arg14 : X3 m c (no_index (Proc.devRef .tc main_arg14)) = (m ((c.tc : Thread nD τ).loc main_arg14)) := by
  wwalk
  try rfl
theorem X3_arg15 : X3 m c (no_index (Proc.devRef .tc main_arg15)) = (m ((c.tc : Thread nD τ).loc main_arg15)) := by
  wwalk
  try rfl
theorem X5_v13 : X5 m c (no_index (Proc.devRef .tc main_v13)) = val_main_v13 (F := F) (m ((c.tc : Thread nD τ).loc main_arg1)) := by
  wwalk
  try rfl
theorem X5_arg6 : X5 m c (no_index (Proc.devRef .tc main_arg6)) = (m ((c.tc : Thread nD τ).loc main_arg6)) := by
  wwalk
  try rfl
theorem X5_arg7 : X5 m c (no_index (Proc.devRef .tc main_arg7)) = (m ((c.tc : Thread nD τ).loc main_arg7)) := by
  wwalk
  try rfl
theorem X5_arg8 : X5 m c (no_index (Proc.devRef .tc main_arg8)) = (m ((c.tc : Thread nD τ).loc main_arg8)) := by
  wwalk
  try rfl
theorem X5_arg9 : X5 m c (no_index (Proc.devRef .tc main_arg9)) = (m ((c.tc : Thread nD τ).loc main_arg9)) := by
  wwalk
  try rfl
theorem X5_arg10 : X5 m c (no_index (Proc.devRef .tc main_arg10)) = (m ((c.tc : Thread nD τ).loc main_arg10)) := by
  wwalk
  try rfl
theorem X5_arg11 : X5 m c (no_index (Proc.devRef .tc main_arg11)) = (m ((c.tc : Thread nD τ).loc main_arg11)) := by
  wwalk
  try rfl
theorem X5_arg12 : X5 m c (no_index (Proc.devRef .tc main_arg12)) = (m ((c.tc : Thread nD τ).loc main_arg12)) := by
  wwalk
  try rfl
theorem X5_arg13 : X5 m c (no_index (Proc.devRef .tc main_arg13)) = (m ((c.tc : Thread nD τ).loc main_arg13)) := by
  wwalk
  try rfl
theorem X5_arg14 : X5 m c (no_index (Proc.devRef .tc main_arg14)) = (m ((c.tc : Thread nD τ).loc main_arg14)) := by
  wwalk
  try rfl
theorem X5_arg15 : X5 m c (no_index (Proc.devRef .tc main_arg15)) = (m ((c.tc : Thread nD τ).loc main_arg15)) := by
  wwalk
  try rfl
theorem X2_v1 : X2 m c (no_index (Proc.devRef .tc main_v1)) = val_main_v1 (F := F) (m ((c.tc : Thread nD τ).loc main_arg1)) := by
  wwalk
  try rfl
theorem X2_v2 : X2 m c (no_index (Proc.devRef .tc main_v2)) = val_main_v2 (F := F) (m ((c.tc : Thread nD τ).loc main_arg2)) := by
  wwalk
  try rfl
theorem X2_v17 : X2 m c (no_index (Proc.devRef .tc main_v17)) = val_main_v17 (F := F) (m ((c.tc : Thread nD τ).loc main_arg2)) := by
  wwalk
  try rfl
theorem X4_v1 : X4 m c (no_index (Proc.devRef .tc main_v1)) = val_main_v1 (F := F) (m ((c.tc : Thread nD τ).loc main_arg1)) := by
  wwalk
  try rfl
theorem X4_v2 : X4 m c (no_index (Proc.devRef .tc main_v2)) = val_main_v2 (F := F) (m ((c.tc : Thread nD τ).loc main_arg2)) := by
  wwalk
  try rfl
theorem X4_v17 : X4 m c (no_index (Proc.devRef .tc main_v17)) = val_main_v17 (F := F) (m ((c.tc : Thread nD τ).loc main_arg2)) := by
  wwalk
  try rfl
theorem X6_v1 : X6 m c (no_index (Proc.devRef .tc main_v1)) = val_main_v1 (F := F) (m ((c.tc : Thread nD τ).loc main_arg1)) := by
  wwalk
  try rfl
theorem X6_v2 : X6 m c (no_index (Proc.devRef .tc main_v2)) = val_main_v2 (F := F) (m ((c.tc : Thread nD τ).loc main_arg2)) := by
  wwalk
  try rfl
theorem X6_v17 : X6 m c (no_index (Proc.devRef .tc main_v17)) = val_main_v17 (F := F) (m ((c.tc : Thread nD τ).loc main_arg2)) := by
  wwalk
  try rfl
theorem X7_arg3 : X7 m c (no_index (Proc.devRef .tc main_arg3)) = (m ((c.tc : Thread nD τ).loc main_arg3)) := by
  wwalk
  try rfl
theorem X7_arg16 : X7 m c (no_index (Proc.devRef .tc main_arg16)) = (m ((c.tc : Thread nD τ).loc main_arg16)) := by
  wwalk
  try rfl
theorem X7_arg17 : X7 m c (no_index (Proc.devRef .tc main_arg17)) = (m ((c.tc : Thread nD τ).loc main_arg17)) := by
  wwalk
  try rfl

/-! ## The stages -/

/-- The embedding stage: the fold's value at the embedding buffer is the stage's term of the arguments. -/
theorem R0 : X1 m c (no_index (Proc.devRef .tc main_v21)) = val_main_v21 (F := F) (m ((c.tc : Thread nD τ).loc main_arg0)) (m ((c.tc : Thread nD τ).loc main_arg4)) (m ((c.tc : Thread nD τ).loc main_arg5)) := by
  simp (disch := decide) only [X1, seg0, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  try rfl
/-- The first update. -/
theorem R1 : X2 m c (no_index (Proc.devRef .tc main_v106)) = val_main_v106 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X2, seg1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R0 m c, X1_v13 m c, X1_arg6 m c, X1_arg7 m c, X1_arg8 m c, X1_arg9 m c, X1_arg10 m c, X1_arg11 m c, X1_arg12 m c, X1_arg13 m c, X1_arg14 m c, X1_arg15 m c]
  try rfl
/-- The first aggregation. -/
theorem R2 : X3 m c (no_index (Proc.devRef .tc main_v118)) = val_main_v118 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X3, seg2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R1 m c, X2_v1 m c, X2_v2 m c, X2_v17 m c]
  try rfl
/-- The second update. -/
theorem R3 : X4 m c (no_index (Proc.devRef .tc main_v203)) = val_main_v203 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X4, seg3, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R2 m c, X3_v13 m c, X3_arg6 m c, X3_arg7 m c, X3_arg8 m c, X3_arg9 m c, X3_arg10 m c, X3_arg11 m c, X3_arg12 m c, X3_arg13 m c, X3_arg14 m c, X3_arg15 m c]
  try rfl
/-- The second aggregation. -/
theorem R4 : X5 m c (no_index (Proc.devRef .tc main_v215)) = val_main_v215 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X5, seg4, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R3 m c, X4_v1 m c, X4_v2 m c, X4_v17 m c]
  try rfl
/-- The third update. -/
theorem R5 : X6 m c (no_index (Proc.devRef .tc main_v300)) = val_main_v300 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X6, seg5, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R4 m c, X5_v13 m c, X5_arg6 m c, X5_arg7 m c, X5_arg8 m c, X5_arg9 m c, X5_arg10 m c, X5_arg11 m c, X5_arg12 m c, X5_arg13 m c, X5_arg14 m c, X5_arg15 m c]
  try rfl
/-- The third aggregation. -/
theorem R6 : X7 m c (no_index (Proc.devRef .tc main_v312)) = val_main_v312 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp (disch := decide) only [X7, seg6, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R5 m c, X6_v1 m c, X6_v2 m c, X6_v17 m c]
  try rfl
/-- The pooling and the read-out. -/
theorem R7 : X8 m c (no_index (Proc.devRef .tc main_v328)) = val_main_v328 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  simp (disch := decide) only [X8, seg7, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    R6 m c, X7_arg3 m c, X7_arg16 m c, X7_arg17 m c]
  try rfl

/-- THE RESULT of the reference's run: the fold of its line at the result buffer is the last stage's term of the arguments. -/
theorem result : after (Cert.ReferenceIdeal.ValueP.ops (F := F)) (launchContents m c) (Proc.devRef .tc main_v328)
    = val_main_v328 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [after_ops]
  exact R7 m c

end Cert.ReferenceIdeal.Fold

end
-- ==== Proof.KernelRun.lean ====
/-
  The idealized kernel's run with its result named.

  The program is four launches among five stretches of host operations.  Its run ends with every buffer of the
  TensorCore holding the fold of the stretches and of the launches' write-backs over the launch memory; the result
  buffer holds that fold's value there, and every argument holds what it held at launch.
-/
import proofs.«144831_j23313082483287_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the fold's value and the arguments
    as launched. -/
theorem run : θ_run defs (onTc (τ := τ) (main (F := F))) ⟨m, fun _ => 0, ρ⟩ (fun r => ∀ c : Dev nD,
      r.2.mem ((c.tc : Thread nD τ).loc main_v155) = W9 m ρ c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v155 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Fold

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«144831_j23313082483287_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibBroadcastReads.lean ====
/-
  The host's `broadcast_in_dim` in the few arrangements a node-by-feature computation uses, read at an index.

  * a vector [n] laid out as a column [n, 1] reads, at (r, 0), the vector at r;
  * a column [n, 1] broadcast over c lanes reads, at (r, k), the column at (r, 0);
  * a vector [c] laid out as a row [1, c] reads, at (0, k), the vector at k;
  * a row [1, c] broadcast over n rows reads, at (r, k), the row at (0, k);
  * a scalar broadcast to any shape reads, everywhere, the scalar.
-/
import Idealize.ShloMosaic.Lib.ValueIdx
import Idealize.ShloMosaic.Lib.Pipeline.Value

noncomputable section

namespace BroadcastReads

open Idealize.ShloMosaic Idealize.ShloMosaic.ValueIdx

variable {α : Type} {n c : Nat}

/-- In an axis of length n read at r: either n = 1 and r = 0, or the coordinate is r. -/
theorem coord_or_unit (r : Fin n) : r.val = if n = 1 then 0 else r.val := by
  by_cases h : n = 1
  · rw [if_pos h]; have := r.isLt; omega
  · rw [if_neg h]

/-- A vector laid out as a column. -/
theorem vec_to_col (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) :=
  broadcastInDim_apply ![0] h v (ix2 r u) (ix1 r) (fun a => match a with
    | ⟨0, _⟩ => by show r.val = if n = 1 then 0 else r.val; exact coord_or_unit r)

/-- A column broadcast over the lanes. -/
theorem col_to_lanes (v : (⟨2, ![n, 1]⟩ : Shape).Idx → α) (h : (⟨2, ![n, 1]⟩ : Shape).BroadcastsInDim ⟨2, ![n, c]⟩ ![0, 1])
    (r : Fin n) (k : Fin c) : broadcastInDim ⟨2, ![n, c]⟩ ![0, 1] h v (ix2 r k) = v (ix2 r (0 : Fin 1)) :=
  broadcastInDim_apply ![0, 1] h v (ix2 r k) (ix2 r (0 : Fin 1)) (fun a => match a with
    | ⟨0, _⟩ => by show r.val = if n = 1 then 0 else r.val; exact coord_or_unit r
    | ⟨1, _⟩ => by show 0 = if (1 : Nat) = 1 then 0 else k.val; rw [if_pos rfl])

/-- A vector laid out as a row. -/
theorem vec_to_row (v : (⟨1, ![c]⟩ : Shape).Idx → α) (h : (⟨1, ![c]⟩ : Shape).BroadcastsInDim ⟨2, ![1, c]⟩ ![1])
    (u : Fin 1) (k : Fin c) : broadcastInDim ⟨2, ![1, c]⟩ ![1] h v (ix2 u k) = v (ix1 k) :=
  broadcastInDim_apply ![1] h v (ix2 u k) (ix1 k) (fun a => match a with
    | ⟨0, _⟩ => by show k.val = if c = 1 then 0 else k.val; exact coord_or_unit k)

/-- A row broadcast over the rows. -/
theorem row_to_rows (v : (⟨2, ![1, c]⟩ : Shape).Idx → α) (h : (⟨2, ![1, c]⟩ : Shape).BroadcastsInDim ⟨2, ![n, c]⟩ ![0, 1])
    (r : Fin n) (k : Fin c) : broadcastInDim ⟨2, ![n, c]⟩ ![0, 1] h v (ix2 r k) = v (ix2 (0 : Fin 1) k) :=
  broadcastInDim_apply ![0, 1] h v (ix2 r k) (ix2 (0 : Fin 1) k) (fun a => match a with
    | ⟨0, _⟩ => by show 0 = if (1 : Nat) = 1 then 0 else r.val; rw [if_pos rfl]
    | ⟨1, _⟩ => by show k.val = if c = 1 then 0 else k.val; exact coord_or_unit k)

/-- A scalar broadcast to a shape. -/
theorem scalar_to (s : Shape) (z : (⟨0, ![]⟩ : Shape).Idx → α) (h : (⟨0, ![]⟩ : Shape).BroadcastsInDim s ![]) (i : s.Idx) :
    broadcastInDim s ![] h z i = z ix0 :=
  broadcastInDim_apply ![] h z i ix0 (fun a => a.elim0)

end BroadcastReads

end
-- ==== Proof.LibNormLayer.lean ====
/-
  Layer normalisation along the lanes of a [P, Q] array, and the node update of a graph-convolution step built from it,
  as whole-array functions over the extended reals.

  For a [P, Q] array y, a divisor c and an offset e,
      rowMean c y p   = (∑ k, y (p, k)) / c,
      centred c y     = y - rowMean (entry (p, q) minus the mean of row p),
      rowVar c y p    = (∑ k, centred (p, k) · centred (p, k)) / c,
      lnorm c e y g b (p, q) = centred (p, q) · rsqrt (rowVar p + e) · g q + b q.
  The node update is three dense layers, each followed by max(·, 0), with a normalisation after the first two, and the
  result scaled row by row:
      step … (p, q) = max (dense (layer (layer h W₁ b₁ g₁ β₁) W₂ b₂ g₂ β₂) W₃ b₃ (p, q), 0) · s p,
      layer x W b g β = lnorm (max (dense x W b, 0)) g β.
  Nothing here uses a law of arithmetic: a kernel that computes the update on a block of rows and a host program that
  computes it on the whole array apply the SAME operations in the same order, and the only content is that every
  entry (p, q) depends on row p of the input alone (the `_congr` lemmas).  The kernel spells a row sum as a lane
  reduction cast to a column and broadcast back over the lanes; the host spells it as a reduce, two broadcasts and a
  divide.  At the ideal instance both are the plain finite sum.
-/
import Idealize.ShloMosaic.Lib.ValueIdx
import Idealize.ShloMosaic.Lib.ValueLayout
import Idealize.ShloMosaic.Lib.Pipeline.Value
import Idealize.ShloMosaic.PureOps.Ideal.Laws
import proofs.«144831_j23313082483287_1_alg».proof.Proof.LibPlainDot
import proofs.«144831_j23313082483287_1_alg».proof.Proof.LibDenseLayer
import proofs.«144831_j23313082483287_1_alg».proof.Proof.LibKeepDims
import proofs.«144831_j23313082483287_1_alg».proof.Proof.LibBroadcastReads

noncomputable section

namespace NormLayer

open Idealize.ShloMosaic Idealize.ShloMosaic.ValueIdx DenseLayer

variable {P P' K Q : Nat}

/-! ## The functions -/

/-- max(y, 0), entry by entry. -/
def relu {s : Shape} (y : s.Idx → EReal) : s.Idx → EReal := fun i => max (y i) 0

/-- The mean of row p: the row's sum divided by c. -/
def rowMean (c : EReal) (y : (⟨2, ![P, Q]⟩ : Shape).Idx → EReal) (p : Fin P) : EReal :=
  Ideal.div (∑ k : Fin Q, y (ix2 p k)) c

/-- Every entry minus the mean of its row. -/
def centred (c : EReal) (y : (⟨2, ![P, Q]⟩ : Shape).Idx → EReal) : (⟨2, ![P, Q]⟩ : Shape).Idx → EReal :=
  fun i => y i - rowMean c y (i 0)

/-- The mean of the squares of row p's centred entries. -/
def rowVar (c : EReal) (y : (⟨2, ![P, Q]⟩ : Shape).Idx → EReal) (p : Fin P) : EReal :=
  Ideal.div (∑ k : Fin Q, centred c y (ix2 p k) * centred c y (ix2 p k)) c

/-- Layer normalisation along the lanes, with gain g and offset b. -/
def lnorm (c e : EReal) (y : (⟨2, ![P, Q]⟩ : Shape).Idx → EReal) (g b : Fin Q → EReal) : (⟨2, ![P, Q]⟩ : Shape).Idx → EReal :=
  fun i => centred c y i * Ideal.rsqrt (rowVar c y (i 0) + e) * g (i 1) + b (i 1)

/-- A dense layer, max(·, 0), and a normalisation. -/
def layer (c e : EReal) (x : (⟨2, ![P, K]⟩ : Shape).Idx → EReal) (W : (⟨2, ![K, Q]⟩ : Shape).Idx → EReal) (b g β : Fin Q → EReal) :
    (⟨2, ![P, Q]⟩ : Shape).Idx → EReal :=
  lnorm c e (relu (dense x W b)) g β

/-- The node update: two normalised layers, a third dense layer with max(·, 0), and the scaling of row p by s p. -/
def step (c e : EReal) (h : (⟨2, ![P, Q]⟩ : Shape).Idx → EReal) (s : Fin P → EReal)
    (W₁ : (⟨2, ![Q, Q]⟩ : Shape).Idx → EReal) (b₁ g₁ β₁ : Fin Q → EReal)
    (W₂ : (⟨2, ![Q, Q]⟩ : Shape).Idx → EReal) (b₂ g₂ β₂ : Fin Q → EReal)
    (W₃ : (⟨2, ![Q, Q]⟩ : Shape).Idx → EReal) (b₃ : Fin Q → EReal) : (⟨2, ![P, Q]⟩ : Shape).Idx → EReal :=
  fun i => relu (dense (layer c e (layer c e h W₁ b₁ g₁ β₁) W₂ b₂ g₂ β₂) W₃ b₃) i * s (i 0)

/-! ## Every entry reads its own row only -/

theorem relu_congr {s s' : Shape} {y : s.Idx → EReal} {y' : s'.Idx → EReal} {i : s.Idx} {i' : s'.Idx} (h : y i = y' i') :
    relu y i = relu y' i' := congrArg (max · 0) h

theorem rowMean_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) : rowMean c y p = rowMean c y' p' :=
  congrArg (Ideal.div · c) (Finset.sum_congr rfl fun k _ => hy k)

theorem centred_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) (q : Fin Q) :
    centred c y (ix2 p q) = centred c y' (ix2 p' q) := by
  show y (ix2 p q) - rowMean c y p = y' (ix2 p' q) - rowMean c y' p'
  rw [hy q, rowMean_congr hy]

theorem rowVar_congr {c : EReal} {y : (⟨2, ![P, Q]⟩ : Shape).Idx → EReal} {y' : (⟨2, ![P', Q]⟩ : Shape).Idx → EReal}
    {p : Fin P} {p' : Fin P'} (hy : ∀ k, y (ix2 p k) = y' (ix2 p' k)) : rowVar c y p = rowVar c y' p' :=
  congrArg (Ideal.div · c) (Finset.sum_congr rfl fun k _ => by rw [centred_congr hy k])

theorem lnorm_congr {c e : EReal} {y : (⟨2, ![P, Q]⟩ : Shape).Idx → EReal} {y' : (⟨2, ![P', Q]⟩ : Shape).Idx → EReal}
    {g g' b b' : Fin Q → EReal} {p : Fin P} {p' : Fin P'} {q : Fin Q}
    (hy : ∀ k, y (ix2 p k) = y' (ix2 p' k)) (hg : g q = g' q) (hb : b q = b' q) :
    lnorm c e y g b (ix2 p q) = lnorm c e y' g' b' (ix2 p' q) := by
  show centred c y (ix2 p q) * Ideal.rsqrt (rowVar c y p + e) * g q + b q
      = centred c y' (ix2 p' q) * Ideal.rsqrt (rowVar c y' p' + e) * g' q + b' q
  rw [centred_congr hy q, rowVar_congr hy, hg, hb]

theorem layer_congr {c e : EReal} {x : (⟨2, ![P, K]⟩ : Shape).Idx → EReal} {x' : (⟨2, ![P', K]⟩ : Shape).Idx → EReal}
    {W W' : (⟨2, ![K, Q]⟩ : Shape).Idx → EReal} {b b' g g' β β' : Fin Q → EReal} {p : Fin P} {p' : Fin P'}
    (hx : ∀ k, x (ix2 p k) = x' (ix2 p' k)) (hW : ∀ k q, W (ix2 k q) = W' (ix2 k q)) (hb : ∀ q, b q = b' q)
    (hg : ∀ q, g q = g' q) (hβ : ∀ q, β q = β' q) (q : Fin Q) :
    layer c e x W b g β (ix2 p q) = layer c e x' W' b' g' β' (ix2 p' q) :=
  lnorm_congr (fun k => relu_congr (dense_congr hx (fun j => hW j k) (hb k))) (hg q) (hβ q)

theorem step_congr {c e : EReal} {h : (⟨2, ![P, Q]⟩ : Shape).Idx → EReal} {h' : (⟨2, ![P', Q]⟩ : Shape).Idx → EReal}
    {s : Fin P → EReal} {s' : Fin P' → EReal}
    {W₁ W₁' W₂ W₂' W₃ W₃' : (⟨2, ![Q, Q]⟩ : Shape).Idx → EReal} {b₁ b₁' g₁ g₁' β₁ β₁' b₂ b₂' g₂ g₂' β₂ β₂' b₃ b₃' : Fin Q → EReal}
    {p : Fin P} {p' : Fin P'}
    (hh : ∀ k, h (ix2 p k) = h' (ix2 p' k)) (hs : s p = s' p')
    (hW₁ : ∀ k q, W₁ (ix2 k q) = W₁' (ix2 k q)) (hb₁ : ∀ q, b₁ q = b₁' q) (hg₁ : ∀ q, g₁ q = g₁' q) (hβ₁ : ∀ q, β₁ q = β₁' q)
    (hW₂ : ∀ k q, W₂ (ix2 k q) = W₂' (ix2 k q)) (hb₂ : ∀ q, b₂ q = b₂' q) (hg₂ : ∀ q, g₂ q = g₂' q) (hβ₂ : ∀ q, β₂ q = β₂' q)
    (hW₃ : ∀ k q, W₃ (ix2 k q) = W₃' (ix2 k q)) (hb₃ : ∀ q, b₃ q = b₃' q) (q : Fin Q) :
    step c e h s W₁ b₁ g₁ β₁ W₂ b₂ g₂ β₂ W₃ b₃ (ix2 p q) = step c e h' s' W₁' b₁' g₁' β₁' W₂' b₂' g₂' β₂' W₃' b₃' (ix2 p' q) := by
  show relu (dense (layer c e (layer c e h W₁ b₁ g₁ β₁) W₂ b₂ g₂ β₂) W₃ b₃) (ix2 p q) * s p
      = relu (dense (layer c e (layer c e h' W₁' b₁' g₁' β₁') W₂' b₂' g₂' β₂') W₃' b₃') (ix2 p' q) * s' p'
  rw [hs]
  exact congrArg (· * s' p') (relu_congr (dense_congr
    (fun k => layer_congr (fun j => layer_congr hh hW₁ hb₁ hg₁ hβ₁ j) hW₂ hb₂ hg₂ hβ₂ k) (fun k => hW₃ k q) (hb₃ q)))

/-! ## The kernel's spelling -/

/-- A [1, Q] block broadcast over P rows reads, at (p, q), the block at (0, q). -/
theorem row_read {α : Type} (v : (⟨2, ![1, Q]⟩ : Shape).Idx → α) (h : (⟨2, ![1, Q]⟩ : Shape).Broadcasts ⟨2, ![P, Q]⟩)
    (p : Fin P) (q : Fin Q) : broadcastTo ⟨2, ![P, Q]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)

/-- A dense layer whose bias block is broadcast over the rows as it is: the product of the operands rounded to bf16,
    accumulated into zero, plus the [1, Q] block. -/
theorem kernel_dense' {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ b hbc)
    = dense x W (fun q => b (ix2 (0 : Fin 1) q)) := by
  funext j
  obtain ⟨p, q, rfl⟩ : ∃ (p : Fin P) (q : Fin Q), j = ix2 p q := ⟨j 0, j 1, eq_ix2 j⟩
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, row_read b hbc p q]
  rfl

/-- max with a splat zero. -/
theorem kernel_relu {s : Shape} (y : FVec Ideal s .f32) :
    maximumf y (broadcast s (FloatOps.ofBits (F := Ideal) .f32 0x00000000#32)) = relu y := by
  funext i
  show max (y i) (Ideal.ofBits .f32 0x00000000#32) = max (y i) 0
  rw [Ideal.ofBits_zero_f32]

/-- A lane sum cast to a column and divided by a splat c is the column of row means. -/
theorem kernel_meanCol (c : Ideal .f32) (y : FVec Ideal ⟨2, ![P, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (p : Fin P) (u : Fin 1) :
    divf (shapeCast ⟨2, ![P, 1]⟩ (multiReduction .add [1] ⟨1, ![P]⟩ y 0x00000000#32 hred hφ hacc) hsc)
      (broadcast ⟨2, ![P, 1]⟩ c) (ix2 p u) = rowMean c y p := by
  show Ideal.div (shapeCast ⟨2, ![P, 1]⟩ (multiReduction .add [1] ⟨1, ![P]⟩ y 0x00000000#32 hred hφ hacc) hsc (ix2 p u)) c = _
  rw [KeepDims.shapeCast_a_a1_apply, KeepDims.laneSum_apply]
  rfl

/-- The array minus its column of row means broadcast over the lanes is the centred array. -/
theorem kernel_centred (c : Ideal .f32) (y : FVec Ideal ⟨2, ![P, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (hcol : (⟨2, ![P, 1]⟩ : Shape).Broadcasts ⟨2, ![P, Q]⟩) :
    subf y (broadcastTo ⟨2, ![P, Q]⟩
      (divf (shapeCast ⟨2, ![P, 1]⟩ (multiReduction .add [1] ⟨1, ![P]⟩ y 0x00000000#32 hred hφ hacc) hsc)
        (broadcast ⟨2, ![P, 1]⟩ c)) hcol) = centred c y := by
  funext j
  obtain ⟨p, q, rfl⟩ : ∃ (p : Fin P) (q : Fin Q), j = ix2 p q := ⟨j 0, j 1, eq_ix2 j⟩
  show y (ix2 p q) - broadcastTo ⟨2, ![P, Q]⟩ _ hcol (ix2 p q) = y (ix2 p q) - rowMean c y p
  rw [KeepDims.broadcastTo_a1_ab_apply, kernel_meanCol]

/-- THE KERNEL'S SPELLING of the normalisation: lane sums kept as columns, the divisor and the offset splat, the gain and
    the offset [1, Q] blocks broadcast over the rows. -/
theorem kernel_lnorm (c e : Ideal .f32) (y : FVec Ideal ⟨2, ![P, Q]⟩ .f32) (g b : FVec Ideal ⟨2, ![1, Q]⟩ .f32)
    (hred : (⟨2, ![P, Q]⟩ : Shape).Reduces [1] ⟨1, ![P]⟩) (hφ : FKind.Formats .f32)
    (hacc : (0x00000000#32 : BitVec 32) = 0x00000000#32) (hsc : (⟨1, ![P]⟩ : Shape).ShapeCasts ⟨2, ![P, 1]⟩)
    (hcol : (⟨2, ![P, 1]⟩ : Shape).Broadcasts ⟨2, ![P, Q]⟩) (hrow : (⟨2, ![1, Q]⟩ : Shape).Broadcasts ⟨2, ![P, Q]⟩) :
    addf (mulf (mulf
        (subf y (broadcastTo ⟨2, ![P, Q]⟩
          (divf (shapeCast ⟨2, ![P, 1]⟩ (multiReduction .add [1] ⟨1, ![P]⟩ y 0x00000000#32 hred hφ hacc) hsc)
            (broadcast ⟨2, ![P, 1]⟩ c)) hcol))
        (broadcastTo ⟨2, ![P, Q]⟩ (rsqrt (addf
          (divf (shapeCast ⟨2, ![P, 1]⟩ (multiReduction .add [1] ⟨1, ![P]⟩
              (mulf (subf y (broadcastTo ⟨2, ![P, Q]⟩
                  (divf (shapeCast ⟨2, ![P, 1]⟩ (multiReduction .add [1] ⟨1, ![P]⟩ y 0x00000000#32 hred hφ hacc) hsc)
                    (broadcast ⟨2, ![P, 1]⟩ c)) hcol))
                (subf y (broadcastTo ⟨2, ![P, Q]⟩
                  (divf (shapeCast ⟨2, ![P, 1]⟩ (multiReduction .add [1] ⟨1, ![P]⟩ y 0x00000000#32 hred hφ hacc) hsc)
                    (broadcast ⟨2, ![P, 1]⟩ c)) hcol)))
              0x00000000#32 hred hφ hacc) hsc)
            (broadcast ⟨2, ![P, 1]⟩ c))
          (broadcast ⟨2, ![P, 1]⟩ e))) hcol))
        (broadcastTo ⟨2, ![P, Q]⟩ g hrow))
      (broadcastTo ⟨2, ![P, Q]⟩ b hrow)
    = lnorm c e y (fun q => g (ix2 (0 : Fin 1) q)) (fun q => b (ix2 (0 : Fin 1) q)) := by
  rw [kernel_centred c y hred hφ hacc hsc hcol]
  funext j
  obtain ⟨p, q, rfl⟩ : ∃ (p : Fin P) (q : Fin Q), j = ix2 p q := ⟨j 0, j 1, eq_ix2 j⟩
  show centred c y (ix2 p q) * broadcastTo ⟨2, ![P, Q]⟩ _ hcol (ix2 p q) * broadcastTo ⟨2, ![P, Q]⟩ g hrow (ix2 p q)
      + broadcastTo ⟨2, ![P, Q]⟩ b hrow (ix2 p q)
    = centred c y (ix2 p q) * Ideal.rsqrt (rowVar c y p + e) * g (ix2 (0 : Fin 1) q) + b (ix2 (0 : Fin 1) q)
  rw [KeepDims.broadcastTo_a1_ab_apply, row_read g hrow p q, row_read b hrow p q]
  show centred c y (ix2 p q) * Ideal.rsqrt (Ideal.div (shapeCast ⟨2, ![P, 1]⟩ _ hsc (ix2 p (0 : Fin 1))) c + e) * _ + _ = _
  rw [KeepDims.shapeCast_a_a1_apply, KeepDims.laneSum_apply]
  rfl

/-! ## The host's spelling -/

/-- max with a broadcast zero constant. -/
theorem host_relu {s : Shape} (y : FVec Ideal s .f32) (h : (⟨0, ![]⟩ : Shape).BroadcastsInDim s ![]) :
    maximumf y (broadcastInDim s ![] h (constant (F := Ideal) ⟨0, ![]⟩ .f32 0x00000000#32)) = relu y := by
  funext i
  show max (y i) (broadcastInDim s ![] h (constant (F := Ideal) ⟨0, ![]⟩ .f32 0x00000000#32) i) = max (y i) 0
  rw [BroadcastReads.scalar_to]
  show max (y i) (Ideal.ofBits .f32 0x00000000#32) = _
  rw [Ideal.ofBits_zero_f32]

end NormLayer

end
-- ==== Proof.Region0.lean ====
/-
  Launch 0, the node embedding.  The grid has 50 points; point t reads rows 2000·t … 2000·t + 1999 of the node features,
  the whole weight matrix and the whole bias row, and writes those rows of x · W + b.  The blocks written are the
  restrictions of ONE function of the arrays as the launch finds them — entry (r, q) of a dense layer reads row r of
  its input only — and the 50 blocks tile the 100000 rows, so the output array ends as that function.
-/
import proofs.«144831_j23313082483287_1_alg».proof.Proof.Gen.KernelIdeal.Frame
import proofs.«144831_j23313082483287_1_alg».proof.Proof.LibNormLayer
import Idealize.ShloMosaic.Lib.Pipeline.Value

set_option maxRecDepth 16384

noncomputable section

namespace Cert.KernelIdeal.Embed

open Cert.KernelIdeal Cert.KernelIdeal.Gen Idealize.ShloMosaic Idealize.ShloMosaic.ValueIdx Idealize.ShloMosaic.TcCoe Idealize.SL.Sem
open Idealize.ShloMosaic.Pipeline (Dat Cfg Window)
open DenseLayer NormLayer

variable (V : (c : Dev nD) → (b : Ref sig .tc) → Buf (Elt Ideal) ((c : Thread nD τ).loc b))

theorem hz : (![0, 0] : Fin 2 → Nat) = fun _ => 0 := funext fun a => by fin_cases a <;> rfl

/-- x · W + b over all 100000 rows, of the arrays as the launch finds them. -/
def G (c : Dev nD) : S100000x128.Idx → EReal :=
  dense (V c main_arg0 : S100000x64.Idx → EReal) (V c main_arg4 : S64x128.Idx → EReal)
    (fun q => (V c main_v18 : S1x128.Idx → EReal) (ix2 (0 : Fin 1) q))

/-- The body's arithmetic on a block of 2000 rows is the dense layer of that block. -/
theorem pay_eq (x0 : FVec Ideal S2000x64 .f32) (x1 : FVec Ideal S64x128 .f32) (x2 : FVec Ideal S1x128 .f32) :
    k0_pay1 (F := Ideal) x0 x1 x2 = dense x0 x1 (fun q => x2 (ix2 (0 : Fin 1) q)) := by
  unfold k0_pay1
  exact kernel_dense ⟨rfl, rfl, rfl, rfl, rfl, rfl⟩ x0 x1 x2 _ _ _

/-- The printed index maps over the grid: the feature block and the output block move together along the rows, the
    weights and the bias stay put, and the output's block number is the grid point's. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 49 :=
  (by decide +kernel : ∀ t : Fin grid0.N, _)

/-- Every block of rows is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x64) hz, View.ld_unit_zero (S := S64x128) hz, View.ld_unit_zero (S := S1x128) hz]
  rw [pay_eq]
  obtain ⟨e0, e1, e2, e3, e4, e5, e6, e7⟩ := idx_facts t
  funext j
  obtain ⟨r, q, rfl⟩ : ∃ (r : Fin 2000) (q : Fin 128), j = ix2 r q := ⟨j 0, j 1, eq_ix2 j⟩
  have hrow : (win0_3.index t (0 : Fin 2)) * 2000 + r.val < 100000 := by have := r.isLt; omega
  show dense (iblk0 V c 0 t) (iblk0 V c 1 t) (fun q => iblk0 V c 2 t (ix2 (0 : Fin 1) q)) (ix2 r q)
      = G V c (((cfg0.win 3).blk t).view.emb (ix2 r q))
  have hemb : ((cfg0.win 3).blk t).view.emb (ix2 r q)
      = ix2 (⟨win0_3.index t (0 : Fin 2) * 2000 + r.val, hrow⟩ : Fin 100000) q := by
    funext a; apply Fin.ext
    match a with
    | ⟨0, _⟩ => show win0_3.index t (0 : Fin 2) * 2000 + 1 * r.val = win0_3.index t (0 : Fin 2) * 2000 + r.val; omega
    | ⟨1, _⟩ => show win0_3.index t (1 : Fin 2) * 128 + 1 * q.val = q.val; omega
  rw [hemb]
  unfold G
  refine dense_congr (fun k => ?_) (fun k => ?_) ?_
  · show V c main_arg0 (((cfg0.win 0).blk t).view.emb (ix2 r k)) = V c main_arg0 (ix2 _ k)
    refine congrArg (V c main_arg0) (funext fun a => Fin.ext ?_)
    match a with
    | ⟨0, _⟩ => show win0_0.index t (0 : Fin 2) * 2000 + 1 * r.val = win0_3.index t (0 : Fin 2) * 2000 + r.val; omega
    | ⟨1, _⟩ => show win0_0.index t (1 : Fin 2) * 64 + 1 * k.val = k.val; omega
  · show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega
  · show V c main_v18 (((cfg0.win 2).blk t).view.emb (ix2 (0 : Fin 1) q)) = V c main_v18 (ix2 (0 : Fin 1) q)
    refine congrArg (V c main_v18) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the output array is in point t's block iff each coordinate is in the block's range. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v19).slice (win0_3.rect t)).set ↔ _
  rw [View.set_slice_whole, Rect.mem_set_unit]
  exact Iff.rfl

/-- The 50 blocks of 2000 rows cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the launch is the embedding of the arrays as the launch found them. -/
theorem final (c : Dev nD) : (dat0 V c).arrAt 3 cfg0.N = G V c :=
  (dat0 V c).arrAt_eq_of_cover 3 (G V c) (fun t _ => flushed_eq V c t) (cover)

end Cert.KernelIdeal.Embed

end
-- ==== Proof.Region1.lean ====
/-
  Launch 1, the node update of graph-convolution step 1.  The grid has 50 points; point t reads rows 2000·t … 2000·t + 1999
  of the node features and of the column of sender norms, the three weight matrices and the seven parameter rows whole,
  and writes those rows of the update.  Every entry (r, q) of the update reads row r of the features and entry r of the
  norms only, so the blocks written are the restrictions of ONE function of the arrays as the launch finds them, and
  the 50 blocks tile the 100000 rows: the output array ends as that function.
-/
import proofs.«144831_j23313082483287_1_alg».proof.Proof.Gen.KernelIdeal.Frame
import proofs.«144831_j23313082483287_1_alg».proof.Proof.LibNormLayer
import Idealize.ShloMosaic.Lib.Pipeline.Value

set_option maxRecDepth 16384

noncomputable section

namespace Cert.KernelIdeal.Update1

open Cert.KernelIdeal Cert.KernelIdeal.Gen Idealize.ShloMosaic Idealize.ShloMosaic.ValueIdx Idealize.ShloMosaic.TcCoe Idealize.SL.Sem
open Idealize.ShloMosaic.Pipeline (Dat Cfg Window)
open DenseLayer NormLayer

variable (V : (c : Dev nD) → (b : Ref sig .tc) → Buf (Elt Ideal) ((c : Thread nD τ).loc b))

theorem hz : (![0, 0] : Fin 2 → Nat) = fun _ => 0 := funext fun a => by fin_cases a <;> rfl

/-- The divisor 128 and the offset 1e-6 of the normalisations, as the program's float words denote them. -/
abbrev C : EReal := Ideal.ofBits .f32 0x43000000#32
abbrev E : EReal := Ideal.ofBits .f32 0x358637BD#32

/-- The node update over all 100000 rows, of the arrays as the launch finds them. -/
def G (c : Dev nD) : S100000x128.Idx → EReal :=
  step C E (V c main_v19 : S100000x128.Idx → EReal)
    (fun p => (V c main_v13 : S100000x1.Idx → EReal) (ix2 p (0 : Fin 1)))
    (V c main_v21 : S128x128.Idx → EReal)
    (fun q => (V c main_v40 : S1x128.Idx → EReal) (ix2 (0 : Fin 1) q))
    (fun q => (V c main_v41 : S1x128.Idx → EReal) (ix2 (0 : Fin 1) q))
    (fun q => (V c main_v42 : S1x128.Idx → EReal) (ix2 (0 : Fin 1) q))
    (V c main_v29 : S128x128.Idx → EReal)
    (fun q => (V c main_v43 : S1x128.Idx → EReal) (ix2 (0 : Fin 1) q))
    (fun q => (V c main_v44 : S1x128.Idx → EReal) (ix2 (0 : Fin 1) q))
    (fun q => (V c main_v45 : S1x128.Idx → EReal) (ix2 (0 : Fin 1) q))
    (V c main_v37 : S128x128.Idx → EReal)
    (fun q => (V c main_v46 : S1x128.Idx → EReal) (ix2 (0 : Fin 1) q))

/-- The body's arithmetic on a block of 2000 rows is the node update of that block. -/
theorem pay_eq (x0 : FVec Ideal S2000x128 .f32) (x1 : FVec Ideal S2000x1 .f32) (x2 : FVec Ideal S128x128 .f32)
    (x3 x4 x5 : FVec Ideal S1x128 .f32) (x6 : FVec Ideal S128x128 .f32) (x7 x8 x9 : FVec Ideal S1x128 .f32)
    (x10 : FVec Ideal S128x128 .f32) (x11 : FVec Ideal S1x128 .f32) :
    k1_pay1 (F := Ideal) (k1_pay3 (k1_pay2 x0 x2 x3 x4 x5) x6 x7 x8 x9 x10) x11 x1
      = step C E x0 (fun p => x1 (ix2 p (0 : Fin 1))) x2 (fun q => x3 (ix2 (0 : Fin 1) q)) (fun q => x4 (ix2 (0 : Fin 1) q)) (fun q => x5 (ix2 (0 : Fin 1) q))
          x6 (fun q => x7 (ix2 (0 : Fin 1) q)) (fun q => x8 (ix2 (0 : Fin 1) q)) (fun q => x9 (ix2 (0 : Fin 1) q)) x10 (fun q => x11 (ix2 (0 : Fin 1) q)) := by
  have l1 : k1_pay2 (F := Ideal) x0 x2 x3 x4 x5 = layer C E x0 x2 (fun q => x3 (ix2 (0 : Fin 1) q)) (fun q => x4 (ix2 (0 : Fin 1) q)) (fun q => x5 (ix2 (0 : Fin 1) q)) := by
    unfold k1_pay2
    simp only [shapeCast_self]
    rw [kernel_dense' ⟨rfl, rfl, rfl, rfl, rfl, rfl⟩ x0 x2 x3, kernel_relu, kernel_lnorm]
    rfl
  have l2 : ∀ y1 : FVec Ideal S2000x128 .f32, k1_pay3 (F := Ideal) y1 x6 x7 x8 x9 x10
      = matmul dot_S2000x128_S128x128_S2000x128_1_0_0_1_n_n none
          (truncf .bf16 (layer C E y1 x6 (fun q => x7 (ix2 (0 : Fin 1) q)) (fun q => x8 (ix2 (0 : Fin 1) q)) (fun q => x9 (ix2 (0 : Fin 1) q))) bitsLt_bf16_f32)
          (truncf .bf16 x10 bitsLt_bf16_f32) (constant S2000x128 .f32 0x00000000#32) := by
    intro y1
    unfold k1_pay3
    simp only [shapeCast_self]
    rw [kernel_dense' ⟨rfl, rfl, rfl, rfl, rfl, rfl⟩ y1 x6 x7, kernel_relu, kernel_lnorm]
    rfl
  have l3 : ∀ y2 : FVec Ideal S2000x128 .f32,
      k1_pay1 (F := Ideal) (matmul dot_S2000x128_S128x128_S2000x128_1_0_0_1_n_n none
          (truncf .bf16 y2 bitsLt_bf16_f32) (truncf .bf16 x10 bitsLt_bf16_f32) (constant S2000x128 .f32 0x00000000#32)) x11 x1
        = fun j => relu (dense y2 x10 (fun q => x11 (ix2 (0 : Fin 1) q))) j * x1 (ix2 (j 0) (0 : Fin 1)) := by
    intro y2
    unfold k1_pay1
    simp only [shapeCast_self]
    rw [kernel_dense' ⟨rfl, rfl, rfl, rfl, rfl, rfl⟩ y2 x10 x11, kernel_relu]
    funext j
    obtain ⟨p, q, rfl⟩ : ∃ (p : Fin 2000) (q : Fin 128), j = ix2 p q := ⟨j 0, j 1, eq_ix2 j⟩
    show relu (dense y2 x10 (fun q => x11 (ix2 (0 : Fin 1) q))) (ix2 p q) * broadcastTo S2000x128 x1 broadcasts_S2000x1_S2000x128 (ix2 p q) = _
    rw [KeepDims.broadcastTo_a1_ab_apply]
  rw [l1, l2, l3]
  rfl

/-- The printed index maps over the grid: the feature block, the norm block and the output block move together along
    the rows; the weights and the parameter rows stay put; the output's block number is at most 49. -/
theorem idx_rows : ∀ t : Fin cfg1.N, win1_0.index t (0 : Fin 2) = win1_12.index t (0 : Fin 2)
    ∧ win1_0.index t (1 : Fin 2) = 0
    ∧ win1_1.index t (0 : Fin 2) = win1_12.index t (0 : Fin 2) ∧ win1_1.index t (1 : Fin 2) = 0
    ∧ win1_12.index t (1 : Fin 2) = 0 ∧ win1_12.index t (0 : Fin 2) ≤ 49 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w7 : ∀ t : Fin cfg1.N, win1_7.index t (0 : Fin 2) = 0 ∧ win1_7.index t (1 : Fin 2) = 0 :=
  (by decide +kernel : ∀ t : Fin grid1.N, _)
theorem idx_w8 : ∀ t : Fin cfg1.N, win1_8.index t (0 : Fin 2) = 0 ∧ win1_8.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)
theorem idx_w10 : ∀ t : Fin cfg1.N, win1_10.index t (0 : Fin 2) = 0 ∧ win1_10.index t (1 : Fin 2) = 0 :=
  (by decide +kernel : ∀ t : Fin grid1.N, _)
theorem idx_w11 : ∀ t : Fin cfg1.N, win1_11.index t (0 : Fin 2) = 0 ∧ win1_11.index t (1 : Fin 2) = 0 :=
  (by decide +kernel : ∀ t : Fin grid1.N, _)

/-- Every block of rows is some point's. -/
theorem idx_onto : ∀ q0 : Fin 50, ∃ t : Fin cfg1.N, win1_12.index t = ![q0.val, 0] :=
  (by decide +kernel : ∀ q0 : Fin 50, ∃ t : Fin grid1.N, win1_12.index t = ![q0.val, 0])

set_option maxHeartbeats 1000000 in
/-- What point t writes back is block t of G. -/
theorem flushed_eq (c : Dev nD) (t : Fin cfg1.N) :
    (dat1 V c).flushed 12 t = ((cfg1.win 12).blk t).view.read (Elt Ideal) (G V c) := by
  show (cfg1.win 12).cut (grid1.coords t) ((dat1 V c).after 12 t) = _
  rw [after1_12]
  unfold out1_12
  rw [View.canon_unit_zero hz]
  simp only [View.ld_unit_zero (S := S2000x128) hz, View.ld_unit_zero (S := S2000x1) hz, View.ld_unit_zero (S := S128x128) hz, View.ld_unit_zero (S := S1x128) hz]
  rw [pay_eq]
  obtain ⟨e0, e1, e2, e3, e4, e5⟩ := idx_rows t
  funext j
  obtain ⟨r, q, rfl⟩ : ∃ (r : Fin 2000) (q : Fin 128), j = ix2 r q := ⟨j 0, j 1, eq_ix2 j⟩
  have hrow : (win1_12.index t (0 : Fin 2)) * 2000 + r.val < 100000 := by have := r.isLt; omega
  have hemb : ((cfg1.win 12).blk t).view.emb (ix2 r q)
      = ix2 (⟨win1_12.index t (0 : Fin 2) * 2000 + r.val, hrow⟩ : Fin 100000) q := by
    funext a; apply Fin.ext
    match a with
    | ⟨0, _⟩ => show win1_12.index t (0 : Fin 2) * 2000 + 1 * r.val = win1_12.index t (0 : Fin 2) * 2000 + r.val; omega
    | ⟨1, _⟩ => show win1_12.index t (1 : Fin 2) * 128 + 1 * q.val = q.val; omega
  show step C E (iblk1 V c 0 t) (fun p => iblk1 V c 1 t (ix2 p (0 : Fin 1))) (iblk1 V c 2 t)
      (fun q => iblk1 V c 3 t (ix2 (0 : Fin 1) q)) (fun q => iblk1 V c 4 t (ix2 (0 : Fin 1) q)) (fun q => iblk1 V c 5 t (ix2 (0 : Fin 1) q))
      (iblk1 V c 6 t) (fun q => iblk1 V c 7 t (ix2 (0 : Fin 1) q)) (fun q => iblk1 V c 8 t (ix2 (0 : Fin 1) q)) (fun q => iblk1 V c 9 t (ix2 (0 : Fin 1) q))
      (iblk1 V c 10 t) (fun q => iblk1 V c 11 t (ix2 (0 : Fin 1) q)) (ix2 r q)
    = G V c (((cfg1.win 12).blk t).view.emb (ix2 r q))
  rw [hemb]
  unfold G
  refine step_congr (fun k => ?_) ?_ ?_ ?_ ?_ ?_ ?_ ?_ ?_ ?_ ?_ ?_ q
  · show V c main_v19 (((cfg1.win 0).blk t).view.emb (ix2 r k)) = V c main_v19 (ix2 _ k)
    refine congrArg (V c main_v19) (funext fun a => Fin.ext ?_)
    match a with
    | ⟨0, _⟩ => show win1_0.index t (0 : Fin 2) * 2000 + 1 * r.val = win1_12.index t (0 : Fin 2) * 2000 + r.val; omega
    | ⟨1, _⟩ => show win1_0.index t (1 : Fin 2) * 128 + 1 * k.val = k.val; omega
  · show V c main_v13 (((cfg1.win 1).blk t).view.emb (ix2 r (0 : Fin 1))) = V c main_v13 (ix2 _ (0 : Fin 1))
    refine congrArg (V c main_v13) (funext fun a => Fin.ext ?_)
    match a with
    | ⟨0, _⟩ => show win1_1.index t (0 : Fin 2) * 2000 + 1 * r.val = win1_12.index t (0 : Fin 2) * 2000 + r.val; omega
    | ⟨1, _⟩ => show win1_1.index t (1 : Fin 2) * 1 + 1 * 0 = 0; omega
  · intro k q
    show V c main_v21 (((cfg1.win 2).blk t).view.emb (ix2 k q)) = V c main_v21 (ix2 k q)
    obtain ⟨f0, f1⟩ := idx_w2 t
    refine congrArg (V c main_v21) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro q
    show V c main_v40 (((cfg1.win 3).blk t).view.emb (ix2 (0 : Fin 1) q)) = V c main_v40 (ix2 (0 : Fin 1) q)
    obtain ⟨f0, f1⟩ := idx_w3 t
    refine congrArg (V c main_v40) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c main_v41 (((cfg1.win 4).blk t).view.emb (ix2 (0 : Fin 1) q)) = V c main_v41 (ix2 (0 : Fin 1) q)
    obtain ⟨f0, f1⟩ := idx_w4 t
    refine congrArg (V c main_v41) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · intro q
    show V c main_v42 (((cfg1.win 5).blk t).view.emb (ix2 (0 : Fin 1) q)) = V c main_v42 (ix2 (0 : Fin 1) q)
    obtain ⟨f0, f1⟩ := idx_w5 t
    refine congrArg (V c main_v42) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  · intro k q
    show V c main_v29 (((cfg1.win 6).blk t).view.emb (ix2 k q)) = V c main_v29 (ix2 k q)
    obtain ⟨f0, f1⟩ := idx_w6 t
    refine congrArg (V c main_v29) (funext fun a => Fin.ext ?_)
    match a with
    | ⟨0, _⟩ => show win1_6.index t (0 : Fin 2) * 128 + 1 * k.val = k.val; omega
    | ⟨1, _⟩ => show win1_6.index t (1 : Fin 2) * 128 + 1 * q.val = q.val; omega
  · intro q
    show V c main_v43 (((cfg1.win 7).blk t).view.emb (ix2 (0 : Fin 1) q)) = V c main_v43 (ix2 (0 : Fin 1) q)
    obtain ⟨f0, f1⟩ := idx_w7 t
    refine congrArg (V c main_v43) (funext fun a => Fin.ext ?_)
    match a with
    | ⟨0, _⟩ => show win1_7.index t (0 : Fin 2) * 1 + 1 * 0 = 0; omega
    | ⟨1, _⟩ => show win1_7.index t (1 : Fin 2) * 128 + 1 * q.val = q.val; omega
  · intro q
    show V c main_v44 (((cfg1.win 8).blk t).view.emb (ix2 (0 : Fin 1) q)) = V c main_v44 (ix2 (0 : Fin 1) q)
    obtain ⟨f0, f1⟩ := idx_w8 t
    refine congrArg (V c main_v44) (funext fun a => Fin.ext ?_)
    match a with
    | ⟨0, _⟩ => show win1_8.index t (0 : Fin 2) * 1 + 1 * 0 = 0; omega
    | ⟨1, _⟩ => show win1_8.index t (1 : Fin 2) * 128 + 1 * q.val = q.val; omega
  · intro q
    show V c main_v45 (((cfg1.win 9).blk t).view.emb (ix2 (0 : Fin 1) q)) = V c main_v45 (ix2 (0 : Fin 1) q)
    obtain ⟨f0, f1⟩ := idx_w9 t
    refine congrArg (V c main_v45) (funext fun a => Fin.ext ?_)
    match a with
    | ⟨0, _⟩ => show win1_9.index t (0 : Fin 2) * 1 + 1 * 0 = 0; omega
    | ⟨1, _⟩ => show win1_9.index t (1 : Fin 2) * 128 + 1 * q.val = q.val; omega
  · intro k q
    show V c main_v37 (((cfg1.win 10).blk t).view.emb (ix2 k q)) = V c main_v37 (ix2 k q)
    obtain ⟨f0, f1⟩ := idx_w10 t
    refine congrArg (V c main_v37) (funext fun a => Fin.ext ?_)
    match a with
    | ⟨0, _⟩ => show win1_10.index t (0 : Fin 2) * 128 + 1 * k.val = k.val; omega
    | ⟨1, _⟩ => show win1_10.index t (1 : Fin 2) * 128 + 1 * q.val = q.val; omega
  · intro q
    show V c main_v46 (((cfg1.win 11).blk t).view.emb (ix2 (0 : Fin 1) q)) = V c main_v46 (ix2 (0 : Fin 1) q)
    obtain ⟨f0, f1⟩ := idx_w11 t
    refine congrArg (V c main_v46) (funext fun a => Fin.ext ?_)
    match a with
    | ⟨0, _⟩ => show win1_11.index t (0 : Fin 2) * 1 + 1 * 0 = 0; omega
    | ⟨1, _⟩ => show win1_11.index t (1 : Fin 2) * 128 + 1 * q.val = q.val; omega

/-- An index of the output array is in point t's block iff each coordinate is in the block's range. -/
theorem mem_blk (t : Fin cfg1.N) (i : S100000x128.Idx) :
    i ∈ ((cfg1.win 12).blk t).view.set ↔ ∀ a : Fin 2, win1_12.index t a * S2000x128.size a ≤ (i a).val
      ∧ (i a).val < win1_12.index t a * S2000x128.size a + S2000x128.size a := by
  show i ∈ ((View.whole main_v47).slice (win1_12.rect t)).set ↔ _
  rw [View.set_slice_whole, Rect.mem_set_unit]
  exact Iff.rfl

/-- The 50 blocks of 2000 rows cover the array. -/
theorem cover (i : S100000x128.Idx) :
    ∃ t : Fin cfg1.N, (cfg1.win 12).flush t = true ∧ i ∈ ((cfg1.win 12).blk t).view.set := by
  have hi0 : (i 0).val < 100000 := (i 0).isLt
  have hi1 : (i 1).val < 128 := (i 1).isLt
  obtain ⟨t, ht⟩ := idx_onto ⟨(i 0).val / 2000, by omega⟩
  have q0 : win1_12.index t (0 : Fin 2) = (i 0).val / 2000 := congrFun ht 0
  have q1 : win1_12.index t (1 : Fin 2) = 0 := congrFun ht 1
  refine ⟨t, flush1_12 t, ?_⟩
  rw [mem_blk]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 128 ≤ (i 1).val ∧ (i 1).val < win1_12.index t (1 : Fin 2) * 128 + 128; omega

/-- The output array after the launch is the node update of the arrays as the launch found them. -/
theorem final (c : Dev nD) : (dat1 V c).arrAt 12 cfg1.N = G V c :=
  (dat1 V c).arrAt_eq_of_cover 12 (G V c) (fun t _ => flushed_eq V c t) (cover)

end Cert.KernelIdeal.Update1

end
-- ==== Proof.Region2.lean ====
/-
  Launch 2, the node update of graph-convolution step 2.  The grid has 50 points; point t reads rows 2000·t … 2000·t + 1999
  of the node features and of the column of sender norms, the three weight matrices and the seven parameter rows whole,
  and writes those rows of the update.  Every entry (r, q) of the update reads row r of the features and entry r of the
  norms only, so the blocks written are the restrictions of ONE function of the arrays as the launch finds them, and
  the 50 blocks tile the 100000 rows: the output array ends as that function.
-/
import proofs.«144831_j23313082483287_1_alg».proof.Proof.Gen.KernelIdeal.Frame
import proofs.«144831_j23313082483287_1_alg».proof.Proof.LibNormLayer
import Idealize.ShloMosaic.Lib.Pipeline.Value

set_option maxRecDepth 16384

noncomputable section

namespace Cert.KernelIdeal.Update2

open Cert.KernelIdeal Cert.KernelIdeal.Gen Idealize.ShloMosaic Idealize.ShloMosaic.ValueIdx Idealize.ShloMosaic.TcCoe Idealize.SL.Sem
open Idealize.ShloMosaic.Pipeline (Dat Cfg Window)
open DenseLayer NormLayer

variable (V : (c : Dev nD) → (b : Ref sig .tc) → Buf (Elt Ideal) ((c : Thread nD τ).loc b))

theorem hz : (![0, 0] : Fin 2 → Nat) = fun _ => 0 := funext fun a => by fin_cases a <;> rfl

/-- The divisor 128 and the offset 1e-6 of the normalisations, as the program's float words denote them. -/
abbrev C : EReal := Ideal.ofBits .f32 0x43000000#32
abbrev E : EReal := Ideal.ofBits .f32 0x358637BD#32

/-- The node update over all 100000 rows, of the arrays as the launch finds them. -/
def G (c : Dev nD) : S100000x128.Idx → EReal :=
  step C E (V c main_v59 : S100000x128.Idx → EReal)
    (fun p => (V c main_v13 : S100000x1.Idx → EReal) (ix2 p (0 : Fin 1)))
    (V c main_v61 : S128x128.Idx → EReal)
    (fun q => (V c main_v80 : S1x128.Idx → EReal) (ix2 (0 : Fin 1) q))
    (fun q => (V c main_v81 : S1x128.Idx → EReal) (ix2 (0 : Fin 1) q))
    (fun q => (V c main_v82 : S1x128.Idx → EReal) (ix2 (0 : Fin 1) q))
    (V c main_v69 : S128x128.Idx → EReal)
    (fun q => (V c main_v83 : S1x128.Idx → EReal) (ix2 (0 : Fin 1) q))
    (fun q => (V c main_v84 : S1x128.Idx → EReal) (ix2 (0 : Fin 1) q))
    (fun q => (V c main_v85 : S1x128.Idx → EReal) (ix2 (0 : Fin 1) q))
    (V c main_v77 : S128x128.Idx → EReal)
    (fun q => (V c main_v86 : S1x128.Idx → EReal) (ix2 (0 : Fin 1) q))

/-- The body's arithmetic on a block of 2000 rows is the node update of that block. -/
theorem pay_eq (x0 : FVec Ideal S2000x128 .f32) (x1 : FVec Ideal S2000x1 .f32) (x2 : FVec Ideal S128x128 .f32)
    (x3 x4 x5 : FVec Ideal S1x128 .f32) (x6 : FVec Ideal S128x128 .f32) (x7 x8 x9 : FVec Ideal S1x128 .f32)
    (x10 : FVec Ideal S128x128 .f32) (x11 : FVec Ideal S1x128 .f32) :
    k2_pay1 (F := Ideal) (k2_pay3 (k2_pay2 x0 x2 x3 x4 x5) x6 x7 x8 x9 x10) x11 x1
      = step C E x0 (fun p => x1 (ix2 p (0 : Fin 1))) x2 (fun q => x3 (ix2 (0 : Fin 1) q)) (fun q => x4 (ix2 (0 : Fin 1) q)) (fun q => x5 (ix2 (0 : Fin 1) q))
          x6 (fun q => x7 (ix2 (0 : Fin 1) q)) (fun q => x8 (ix2 (0 : Fin 1) q)) (fun q => x9 (ix2 (0 : Fin 1) q)) x10 (fun q => x11 (ix2 (0 : Fin 1) q)) := by
  have l1 : k2_pay2 (F := Ideal) x0 x2 x3 x4 x5 = layer C E x0 x2 (fun q => x3 (ix2 (0 : Fin 1) q)) (fun q => x4 (ix2 (0 : Fin 1) q)) (fun q => x5 (ix2 (0 : Fin 1) q)) := by
    unfold k2_pay2
    simp only [shapeCast_self]
    rw [kernel_dense' ⟨rfl, rfl, rfl, rfl, rfl, rfl⟩ x0 x2 x3, kernel_relu, kernel_lnorm]
    rfl
  have l2 : ∀ y1 : FVec Ideal S2000x128 .f32, k2_pay3 (F := Ideal) y1 x6 x7 x8 x9 x10
      = matmul dot_S2000x128_S128x128_S2000x128_1_0_0_1_n_n none
          (truncf .bf16 (layer C E y1 x6 (fun q => x7 (ix2 (0 : Fin 1) q)) (fun q => x8 (ix2 (0 : Fin 1) q)) (fun q => x9 (ix2 (0 : Fin 1) q))) bitsLt_bf16_f32)
          (truncf .bf16 x10 bitsLt_bf16_f32) (constant S2000x128 .f32 0x00000000#32) := by
    intro y1
    unfold k2_pay3
    simp only [shapeCast_self]
    rw [kernel_dense' ⟨rfl, rfl, rfl, rfl, rfl, rfl⟩ y1 x6 x7, kernel_relu, kernel_lnorm]
    rfl
  have l3 : ∀ y2 : FVec Ideal S2000x128 .f32,
      k2_pay1 (F := Ideal) (matmul dot_S2000x128_S128x128_S2000x128_1_0_0_1_n_n none
          (truncf .bf16 y2 bitsLt_bf16_f32) (truncf .bf16 x10 bitsLt_bf16_f32) (constant S2000x128 .f32 0x00000000#32)) x11 x1
        = fun j => relu (dense y2 x10 (fun q => x11 (ix2 (0 : Fin 1) q))) j * x1 (ix2 (j 0) (0 : Fin 1)) := by
    intro y2
    unfold k2_pay1
    simp only [shapeCast_self]
    rw [kernel_dense' ⟨rfl, rfl, rfl, rfl, rfl, rfl⟩ y2 x10 x11, kernel_relu]
    funext j
    obtain ⟨p, q, rfl⟩ : ∃ (p : Fin 2000) (q : Fin 128), j = ix2 p q := ⟨j 0, j 1, eq_ix2 j⟩
    show relu (dense y2 x10 (fun q => x11 (ix2 (0 : Fin 1) q))) (ix2 p q) * broadcastTo S2000x128 x1 broadcasts_S2000x1_S2000x128 (ix2 p q) = _
    rw [KeepDims.broadcastTo_a1_ab_apply]
  rw [l1, l2, l3]
  rfl

/-- The printed index maps over the grid: the feature block, the norm block and the output block move together along
    the rows; the weights and the parameter rows stay put; the output's block number is at most 49. -/
theorem idx_rows : ∀ t : Fin cfg2.N, win2_0.index t (0 : Fin 2) = win2_12.index t (0 : Fin 2)
    ∧ win2_0.index t (1 : Fin 2) = 0
    ∧ win2_1.index t (0 : Fin 2) = win2_12.index t (0 : Fin 2) ∧ win2_1.index t (1 : Fin 2) = 0
    ∧ win2_12.index t (1 : Fin 2) = 0 ∧ win2_12.index t (0 : Fin 2) ≤ 49 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 2) = 0 ∧ win2_7.index t (1 : Fin 2) = 0 :=
  (by decide +kernel : ∀ t : Fin grid2.N, _)
theorem idx_w8 : ∀ t : Fin cfg2.N, win2_8.index t (0 : Fin 2) = 0 ∧ win2_8.index t (1 : Fin 2) = 0 :=
  (by decide +kernel : ∀ t : Fin grid2.N, _)
theorem idx_w9 : ∀ t : Fin cfg2.N, win2_9.index t (0 : Fin 2) = 0 ∧ win2_9.index t (1 : Fin 2) = 0 :=
  (by decide +kernel : ∀ t : Fin grid2.N, _)
theorem idx_w10 : ∀ t : Fin cfg2.N, win2_10.index t (0 : Fin 2) = 0 ∧ win2_10.index t (1 : Fin 2) = 0 :=
  (by decide +kernel : ∀ t : Fin grid2.N, _)
theorem idx_w11 : ∀ t : Fin cfg2.N, win2_11.index t (0 : Fin 2) = 0 ∧ win2_11.index t (1 : Fin 2) = 0 :=
  (by decide +kernel : ∀ t : Fin grid2.N, _)

/-- Every block of rows is some point's. -/
theorem idx_onto : ∀ q0 : Fin 50, ∃ t : Fin cfg2.N, win2_12.index t = ![q0.val, 0] :=
  (by decide +kernel : ∀ q0 : Fin 50, ∃ t : Fin grid2.N, win2_12.index t = ![q0.val, 0])

set_option maxHeartbeats 1000000 in
/-- What point t writes back is block t of G. -/
theorem flushed_eq (c : Dev nD) (t : Fin cfg2.N) :
    (dat2 V c).flushed 12 t = ((cfg2.win 12).blk t).view.read (Elt Ideal) (G V c) := by
  show (cfg2.win 12).cut (grid2.coords t) ((dat2 V c).after 12 t) = _
  rw [after2_12]
  unfold out2_12
  rw [View.canon_unit_zero hz]
  simp only [View.ld_unit_zero (S := S2000x128) hz, View.ld_unit_zero (S := S2000x1) hz, View.ld_unit_zero (S := S128x128) hz, View.ld_unit_zero (S := S1x128) hz]
  rw [pay_eq]
  obtain ⟨e0, e1, e2, e3, e4, e5⟩ := idx_rows t
  funext j
  obtain ⟨r, q, rfl⟩ : ∃ (r : Fin 2000) (q : Fin 128), j = ix2 r q := ⟨j 0, j 1, eq_ix2 j⟩
  have hrow : (win2_12.index t (0 : Fin 2)) * 2000 + r.val < 100000 := by have := r.isLt; omega
  have hemb : ((cfg2.win 12).blk t).view.emb (ix2 r q)
      = ix2 (⟨win2_12.index t (0 : Fin 2) * 2000 + r.val, hrow⟩ : Fin 100000) q := by
    funext a; apply Fin.ext
    match a with
    | ⟨0, _⟩ => show win2_12.index t (0 : Fin 2) * 2000 + 1 * r.val = win2_12.index t (0 : Fin 2) * 2000 + r.val; omega
    | ⟨1, _⟩ => show win2_12.index t (1 : Fin 2) * 128 + 1 * q.val = q.val; omega
  show step C E (iblk2 V c 0 t) (fun p => iblk2 V c 1 t (ix2 p (0 : Fin 1))) (iblk2 V c 2 t)
      (fun q => iblk2 V c 3 t (ix2 (0 : Fin 1) q)) (fun q => iblk2 V c 4 t (ix2 (0 : Fin 1) q)) (fun q => iblk2 V c 5 t (ix2 (0 : Fin 1) q))
      (iblk2 V c 6 t) (fun q => iblk2 V c 7 t (ix2 (0 : Fin 1) q)) (fun q => iblk2 V c 8 t (ix2 (0 : Fin 1) q)) (fun q => iblk2 V c 9 t (ix2 (0 : Fin 1) q))
      (iblk2 V c 10 t) (fun q => iblk2 V c 11 t (ix2 (0 : Fin 1) q)) (ix2 r q)
    = G V c (((cfg2.win 12).blk t).view.emb (ix2 r q))
  rw [hemb]
  unfold G
  refine step_congr (fun k => ?_) ?_ ?_ ?_ ?_ ?_ ?_ ?_ ?_ ?_ ?_ ?_ q
  · show V c main_v59 (((cfg2.win 0).blk t).view.emb (ix2 r k)) = V c main_v59 (ix2 _ k)
    refine congrArg (V c main_v59) (funext fun a => Fin.ext ?_)
    match a with
    | ⟨0, _⟩ => show win2_0.index t (0 : Fin 2) * 2000 + 1 * r.val = win2_12.index t (0 : Fin 2) * 2000 + r.val; omega
    | ⟨1, _⟩ => show win2_0.index t (1 : Fin 2) * 128 + 1 * k.val = k.val; omega
  · show V c main_v13 (((cfg2.win 1).blk t).view.emb (ix2 r (0 : Fin 1))) = V c main_v13 (ix2 _ (0 : Fin 1))
    refine congrArg (V c main_v13) (funext fun a => Fin.ext ?_)
    match a with
    | ⟨0, _⟩ => show win2_1.index t (0 : Fin 2) * 2000 + 1 * r.val = win2_12.index t (0 : Fin 2) * 2000 + r.val; omega
    | ⟨1, _⟩ => show win2_1.index t (1 : Fin 2) * 1 + 1 * 0 = 0; omega
  · intro k q
    show V c main_v61 (((cfg2.win 2).blk t).view.emb (ix2 k q)) = V c main_v61 (ix2 k q)
    obtain ⟨f0, f1⟩ := idx_w2 t
    refine congrArg (V c main_v61) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro q
    show V c main_v80 (((cfg2.win 3).blk t).view.emb (ix2 (0 : Fin 1) q)) = V c main_v80 (ix2 (0 : Fin 1) q)
    obtain ⟨f0, f1⟩ := idx_w3 t
    refine congrArg (V c main_v80) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · intro q
    show V c main_v81 (((cfg2.win 4).blk t).view.emb (ix2 (0 : Fin 1) q)) = V c main_v81 (ix2 (0 : Fin 1) q)
    obtain ⟨f0, f1⟩ := idx_w4 t
    refine congrArg (V c main_v81) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · intro q
    show V c main_v82 (((cfg2.win 5).blk t).view.emb (ix2 (0 : Fin 1) q)) = V c main_v82 (ix2 (0 : Fin 1) q)
    obtain ⟨f0, f1⟩ := idx_w5 t
    refine congrArg (V c main_v82) (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  · intro k q
    show V c main_v69 (((cfg2.win 6).blk t).view.emb (ix2 k q)) = V c main_v69 (ix2 k q)
    obtain ⟨f0, f1⟩ := idx_w6 t
    refine congrArg (V c main_v69) (funext fun a => Fin.ext ?_)
    match a with
    | ⟨0, _⟩ => show win2_6.index t (0 : Fin 2) * 128 + 1 * k.val = k.val; omega
    | ⟨1, _⟩ => show win2_6.index t (1 : Fin 2) * 128 + 1 * q.val = q.val; omega
  · intro q
    show V c main_v83 (((cfg2.win 7).blk t).view.emb (ix2 (0 : Fin 1) q)) = V c main_v83 (ix2 (0 : Fin 1) q)
    obtain ⟨f0, f1⟩ := idx_w7 t
    refine congrArg (V c main_v83) (funext fun a => Fin.ext ?_)
    match a with
    | ⟨0, _⟩ => show win2_7.index t (0 : Fin 2) * 1 + 1 * 0 = 0; omega
    | ⟨1, _⟩ => show win2_7.index t (1 : Fin 2) * 128 + 1 * q.val = q.val; omega
  · intro q
    show V c main_v84 (((cfg2.win 8).blk t).view.emb (ix2 (0 : Fin 1) q)) = V c main_v84 (ix2 (0 : Fin 1) q)
    obtain ⟨f0, f1⟩ := idx_w8 t
    refine congrArg (V c main_v84) (funext fun a => Fin.ext ?_)
    match a with
    | ⟨0, _⟩ => show win2_8.index t (0 : Fin 2) * 1 + 1 * 0 = 0; omega
    | ⟨1, _⟩ => show win2_8.index t (1 : Fin 2) * 128 + 1 * q.val = q.val; omega
  · intro q
    show V c main_v85 (((cfg2.win 9).blk t).view.emb (ix2 (0 : Fin 1) q)) = V c main_v85 (ix2 (0 : Fin 1) q)
    obtain ⟨f0, f1⟩ := idx_w9 t
    refine congrArg (V c main_v85) (funext fun a => Fin.ext ?_)
    match a with
    | ⟨0, _⟩ => show win2_9.index t (0 : Fin 2) * 1 + 1 * 0 = 0; omega
    | ⟨1, _⟩ => show win2_9.index t (1 : Fin 2) * 128 + 1 * q.val = q.val; omega
  · intro k q
    show V c main_v77 (((cfg2.win 10).blk t).view.emb (ix2 k q)) = V c main_v77 (ix2 k q)
    obtain ⟨f0, f1⟩ := idx_w10 t
    refine congrArg (V c main_v77) (funext fun a => Fin.ext ?_)
    match a with
    | ⟨0, _⟩ => show win2_10.index t (0 : Fin 2) * 128 + 1 * k.val = k.val; omega
    | ⟨1, _⟩ => show win2_10.index t (1 : Fin 2) * 128 + 1 * q.val = q.val; omega
  · intro q
    show V c main_v86 (((cfg2.win 11).blk t).view.emb (ix2 (0 : Fin 1) q)) = V c main_v86 (ix2 (0 : Fin 1) q)
    obtain ⟨f0, f1⟩ := idx_w11 t
    refine congrArg (V c main_v86) (funext fun a => Fin.ext ?_)
    match a with
    | ⟨0, _⟩ => show win2_11.index t (0 : Fin 2) * 1 + 1 * 0 = 0; omega
    | ⟨1, _⟩ => show win2_11.index t (1 : Fin 2) * 128 + 1 * q.val = q.val; omega

/-- An index of the output array is in point t's block iff each coordinate is in the block's range. -/
theorem mem_blk (t : Fin cfg2.N) (i : S100000x128.Idx) :
    i ∈ ((cfg2.win 12).blk t).view.set ↔ ∀ a : Fin 2, win2_12.index t a * S2000x128.size a ≤ (i a).val
      ∧ (i a).val < win2_12.index t a * S2000x128.size a + S2000x128.size a := by
  show i ∈ ((View.whole main_v87).slice (win2_12.rect t)).set ↔ _
  rw [View.set_slice_whole, Rect.mem_set_unit]
  exact Iff.rfl

/-- The 50 blocks of 2000 rows cover the array. -/
theorem cover (i : S100000x128.Idx) :
    ∃ t : Fin cfg2.N, (cfg2.win 12).flush t = true ∧ i ∈ ((cfg2.win 12).blk t).view.set := by
  have hi0 : (i 0).val < 100000 := (i 0).isLt
  have hi1 : (i 1).val < 128 := (i 1).isLt
  obtain ⟨t, ht⟩ := idx_onto ⟨(i 0).val / 2000, by omega⟩
  have q0 : win2_12.index t (0 : Fin 2) = (i 0).val / 2000 := congrFun ht 0
  have q1 : win2_12.index t (1 : Fin 2) = 0 := congrFun ht 1
  refine ⟨t, flush2_12 t, ?_⟩
  rw [mem_blk]
  intro a
  match a with
  | ⟨0, _⟩ => show win2_12.index t (0 : Fin 2) * 2000 ≤ (i 0).val ∧ (i 0).val < win2_12.index t (0 : Fin 2) * 2000 + 2000; omega
  | ⟨1, _⟩ => show win2_12.index t (1 : Fin 2) * 128 ≤ (i 1).val ∧ (i 1).val < win2_12.index t (1 : Fin 2) * 128 + 128; omega

/-- The output array after the launch is the node update of the arrays as the launch found them. -/
theorem final (c : Dev nD) : (dat2 V c).arrAt 12 cfg2.N = G V c :=
  (dat2 V c).arrAt_eq_of_cover 12 (G V c) (fun t _ => flushed_eq V c t) (cover)

end Cert.KernelIdeal.Update2

end
-- ==== Proof.Region3.lean ====
/-
  Launch 3, the node update of graph-convolution step 3.  The grid has 50 points; point t reads rows 2000·t … 2000·t + 1999
  of the node features and of the column of sender norms, the three weight matrices and the seven parameter rows whole,
  and writes those rows of the update.  Every entry (r, q) of the update reads row r of the features and entry r of the
  norms only, so the blocks written are the restrictions of ONE function of the arrays as the launch finds them, and
  the 50 blocks tile the 100000 rows: the output array ends as that function.
-/
import proofs.«144831_j23313082483287_1_alg».proof.Proof.Gen.KernelIdeal.Frame
import proofs.«144831_j23313082483287_1_alg».proof.Proof.LibNormLayer
import Idealize.ShloMosaic.Lib.Pipeline.Value

set_option maxRecDepth 16384

noncomputable section

namespace Cert.KernelIdeal.Update3

open Cert.KernelIdeal Cert.KernelIdeal.Gen Idealize.ShloMosaic Idealize.ShloMosaic.ValueIdx Idealize.ShloMosaic.TcCoe Idealize.SL.Sem
open Idealize.ShloMosaic.Pipeline (Dat Cfg Window)
open DenseLayer NormLayer

variable (V : (c : Dev nD) → (b : Ref sig .tc) → Buf (Elt Ideal) ((c : Thread nD τ).loc b))

theorem hz : (![0, 0] : Fin 2 → Nat) = fun _ => 0 := funext fun a => by fin_cases a <;> rfl

/-- The divisor 128 and the offset 1e-6 of the normalisations, as the program's float words denote them. -/
abbrev C : EReal := Ideal.ofBits .f32 0x43000000#32
abbrev E : EReal := Ideal.ofBits .f32 0x358637BD#32

/-- The node update over all 100000 rows, of the arrays as the launch finds them. -/
def G (c : Dev nD) : S100000x128.Idx → EReal :=
  step C E (V c main_v99 : S100000x128.Idx → EReal)
    (fun p => (V c main_v13 : S100000x1.Idx → EReal) (ix2 p (0 : Fin 1)))
    (V c main_v101 : S128x128.Idx → EReal)
    (fun q => (V c main_v120 : S1x128.Idx → EReal) (ix2 (0 : Fin 1) q))
    (fun q => (V c main_v121 : S1x128.Idx → EReal) (ix2 (0 : Fin 1) q))
    (fun q => (V c main_v122 : S1x128.Idx → EReal) (ix2 (0 : Fin 1) q))
    (V c main_v109 : S128x128.Idx → EReal)
    (fun q => (V c main_v123 : S1x128.Idx → EReal) (ix2 (0 : Fin 1) q))
    (fun q => (V c main_v124 : S1x128.Idx → EReal) (ix2 (0 : Fin 1) q))
    (fun q => (V c main_v125 : S1x128.Idx → EReal) (ix2 (0 : Fin 1) q))
    (V c main_v117 : S128x128.Idx → EReal)
    (fun q => (V c main_v126 : S1x128.Idx → EReal) (ix2 (0 : Fin 1) q))

/-- The body's arithmetic on a block of 2000 rows is the node update of that block. -/
theorem pay_eq (x0 : FVec Ideal S2000x128 .f32) (x1 : FVec Ideal S2000x1 .f32) (x2 : FVec Ideal S128x128 .f32)
    (x3 x4 x5 : FVec Ideal S1x128 .f32) (x6 : FVec Ideal S128x128 .f32) (x7 x8 x9 : FVec Ideal S1x128 .f32)
    (x10 : FVec Ideal S128x128 .f32) (x11 : FVec Ideal S1x128 .f32) :
    k3_pay1 (F := Ideal) (k3_pay3 (k3_pay2 x0 x2 x3 x4 x5) x6 x7 x8 x9 x10) x11 x1
      = step C E x0 (fun p => x1 (ix2 p (0 : Fin 1))) x2 (fun q => x3 (ix2 (0 : Fin 1) q)) (fun q => x4 (ix2 (0 : Fin 1) q)) (fun q => x5 (ix2 (0 : Fin 1) q))
          x6 (fun q => x7 (ix2 (0 : Fin 1) q)) (fun q => x8 (ix2 (0 : Fin 1) q)) (fun q => x9 (ix2 (0 : Fin 1) q)) x10 (fun q => x11 (ix2 (0 : Fin 1) q)) := by
  have l1 : k3_pay2 (F := Ideal) x0 x2 x3 x4 x5 = layer C E x0 x2 (fun q => x3 (ix2 (0 : Fin 1) q)) (fun q => x4 (ix2 (0 : Fin 1) q)) (fun q => x5 (ix2 (0 : Fin 1) q)) := by
    unfold k3_pay2
    simp only [shapeCast_self]
    rw [kernel_dense' ⟨rfl, rfl, rfl, rfl, rfl, rfl⟩ x0 x2 x3, kernel_relu, kernel_lnorm]
    rfl
  have l2 : ∀ y1 : FVec Ideal S2000x128 .f32, k3_pay3 (F := Ideal) y1 x6 x7 x8 x9 x10
      = matmul dot_S2000x128_S128x128_S2000x128_1_0_0_1_n_n none
          (truncf .bf16 (layer C E y1 x6 (fun q => x7 (ix2 (0 : Fin 1) q)) (fun q => x8 (ix2 (0 : Fin 1) q)) (fun q => x9 (ix2 (0 : Fin 1) q))) bitsLt_bf16_f32)
          (truncf .bf16 x10 bitsLt_bf16_f32) (constant S2000x128 .f32 0x00000000#32) := by
    intro y1
    unfold k3_pay3
    simp only [shapeCast_self]
    rw [kernel_dense' ⟨rfl, rfl, rfl, rfl, rfl, rfl⟩ y1 x6 x7, kernel_relu, kernel_lnorm]
    rfl
  have l3 : ∀ y2 : FVec Ideal S2000x128 .f32,
      k3_pay1 (F := Ideal) (matmul dot_S2000x128_S128x128_S2000x128_1_0_0_1_n_n none
          (truncf .bf16 y2 bitsLt_bf16_f32) (truncf .bf16 x10 bitsLt_bf16_f32) (constant S2000x128 .f32 0x00000000#32)) x11 x1
        = fun j => relu (dense y2 x10 (fun q => x11 (ix2 (0 : Fin 1) q))) j * x1 (ix2 (j 0) (0 : Fin 1)) := by
    intro y2
    unfold k3_pay1
    simp only [shapeCast_self]
    rw [kernel_dense' ⟨rfl, rfl, rfl, rfl, rfl, rfl⟩ y2 x10 x11, kernel_relu]
    funext j
    obtain ⟨p, q, rfl⟩ : ∃ (p : Fin 2000) (q : Fin 128), j = ix2 p q := ⟨j 0, j 1, eq_ix2 j⟩
    show relu (dense y2 x10 (fun q => x11 (ix2 (0 : Fin 1) q))) (ix2 p q) * broadcastTo S2000x128 x1 broadcasts_S2000x1_S2000x128 (ix2 p q) = _
    rw [KeepDims.broadcastTo_a1_ab_apply]
  rw [l1, l2, l3]
  rfl

/-- The printed index maps over the grid: the feature block, the norm block and the output block move together along
    the rows; the weights and the parameter rows stay put; the output's block number is at most 49. -/
theorem idx_rows : ∀ t : Fin cfg3.N, win3_0.index t (0 : Fin 2) = win3_12.index t (0 : Fin 2)
    ∧ win3_0.index t (1 : Fin 2) = 0
    ∧ win3_1.index t (0 : Fin 2) = win3_12.index t (0 : Fin 2) ∧ win3_1.index t (1 : Fin 2) = 0
    ∧ win3_12.index t (1 : Fin 2) = 0 ∧ win3_12.index t (0 : Fin 2) ≤ 49 :=
  (by decide +kernel : ∀ t : Fin grid3.N, _)
theorem idx_w2 : ∀ t : Fin cfg3.N, win3_2.index t (0 : Fin 2) = 0 ∧ win3_2.index t (1 : Fin 2) = 0 :=
  (by decide +kernel : ∀ t : Fin grid3.N, _)
theorem idx_w3 : ∀ t : Fin cfg3.N, win3_3.index t (0 : Fin 2) = 0 ∧ win3_3.index t (1 : Fin 2) = 0 :=
  (by decide +kernel : ∀ t : Fin grid3.N, _)
theorem idx_w4 : ∀ t : Fin cfg3.N, win3_4.index t (0 : Fin 2) = 0 ∧ win3_4.index t (1 : Fin 2) = 0 :=
  (by decide +kernel : ∀ t : Fin grid3.N, _)
theorem idx_w5 : ∀ t : Fin cfg3.N, win3_5.index t (0 : Fin 2) = 0 ∧ win3_5.index t (1 : Fin 2) = 0 :=
  (by decide +kernel : ∀ t : Fin grid3.N, _)
theorem idx_w6 : ∀ t : Fin cfg3.N, win3_6.index t (0 : Fin 2) = 0 ∧ win3_6.index t (1 : Fin 2) = 0 :=
  (by decide +kernel : ∀ t : Fin grid3.N, _)
theorem idx_w7 : ∀ t : Fin cfg3.N, win3_7.index t (0 : Fin 2) = 0 ∧ win3_7.index t (1 : Fin 2) = 0 :=
  (by decide +kernel : ∀ t : Fin grid3.N, _)
theorem idx_w8 : ∀ t : Fin cfg3.N, win3_8.index t (0 : Fin 2) = 0 ∧ win3_8.index t (1 : Fin 2) = 0 :=
  (by decide +kernel : ∀ t : Fin grid3.N, _)
theorem idx_w9 : ∀ t : Fin cfg3.N, win3_9.index t (0 : Fin 2) = 0 ∧ win3_9.index t (1 : Fin 2) = 0 :=
  (by decide +kernel : ∀ t : Fin grid3.N, _)
theorem idx_w10 : ∀ t : Fin cfg3.N, win3_10.index t (0 : Fin 2) = 0 ∧ win3_10.index t (1 : Fin 2) = 0 :=
  (by decide +kernel : ∀ t : Fin grid3.N, _)
theorem idx_w11 : ∀ t : Fin cfg3.N, win3_11.index t (0 : Fin 2) = 0 ∧ win3_11.index t (1 : Fin 2) = 0 :=
  (by decide +kernel : ∀ t : Fin grid3.N, _)

/-- Every block of rows is some point's. -/
theorem idx_onto : ∀ q0 : Fin 50, ∃ t : Fin cfg3.N, win3_12.index t = ![q0.val, 0] :=
  (by decide +kernel : ∀ q0 : Fin 50, ∃ t : Fin grid3.N, win3_12.index t = ![q0.val, 0])

set_option maxHeartbeats 1000000 in
/-- What point t writes back is block t of G. -/
theorem flushed_eq (c : Dev nD) (t : Fin cfg3.N) :
    (dat3 V c).flushed 12 t = ((cfg3.win 12).blk t).view.read (Elt Ideal) (G V c) := by
  show (cfg3.win 12).cut (grid3.coords t) ((dat3 V c).after 12 t) = _
  rw [after3_12]
  unfold out3_12
  rw [View.canon_unit_zero hz]
  simp only [View.ld_unit_zero (S := S2000x128) hz, View.ld_unit_zero (S := S2000x1) hz, View.ld_unit_zero (S := S128x128) hz, View.ld_unit_zero (S := S1x128) hz]
  rw [pay_eq]
  obtain ⟨e0, e1, e2, e3, e4, e5⟩ := idx_rows t
  funext j
  obtain ⟨r, q, rfl⟩ : ∃ (r : Fin 2000) (q : Fin 128), j = ix2 r q := ⟨j 0, j 1, eq_ix2 j⟩
  have hrow : (win3_12.index t (0 : Fin 2)) * 2000 + r.val < 100000 := by have := r.isLt; omega
  have hemb : ((cfg3.win 12).blk t).view.emb (ix2 r q)
      = ix2 (⟨win3_12.index t (0 : Fin 2) * 2000 + r.val, hrow⟩ : Fin 100000) q := by
    funext a; apply Fin.ext
    match a with
    | ⟨0, _⟩ => show win3_12.index t (0 : Fin 2) * 2000 + 1 * r.val = win3_12.index t (0 : Fin 2) * 2000 + r.val; omega
    | ⟨1, _⟩ => show win3_12.index t (1 : Fin 2) * 128 + 1 * q.val = q.val; omega
  show step C E (iblk3 V c 0 t) (fun p => iblk3 V c 1 t (ix2 p (0 : Fin 1))) (iblk3 V c 2 t)
      (fun q => iblk3 V c 3 t (ix2 (0 : Fin 1) q)) (fun q => iblk3 V c 4 t (ix2 (0 : Fin 1) q)) (fun q => iblk3 V c 5 t (ix2 (0 : Fin 1) q))
      (iblk3 V c 6 t) (fun q => iblk3 V c 7 t (ix2 (0 : Fin 1) q)) (fun q => iblk3 V c 8 t (ix2 (0 : Fin 1) q)) (fun q => iblk3 V c 9 t (ix2 (0 : Fin 1) q))
      (iblk3 V c 10 t) (fun q => iblk3 V c 11 t (ix2 (0 : Fin 1) q)) (ix2 r q)
    = G V c (((cfg3.win 12).blk t).view.emb (ix2 r q))
  rw [hemb]
  unfold G
  refine step_congr (fun k => ?_) ?_ ?_ ?_ ?_ ?_ ?_ ?_ ?_ ?_ ?_ ?_ q
  · show V c main_v99 (((cfg3.win 0).blk t).view.emb (ix2 r k)) = V c main_v99 (ix2 _ k)
    refine congrArg (V c main_v99) (funext fun a => Fin.ext ?_)
    match a with
    | ⟨0, _⟩ => show win3_0.index t (0 : Fin 2) * 2000 + 1 * r.val = win3_12.index t (0 : Fin 2) * 2000 + r.val; omega
    | ⟨1, _⟩ => show win3_0.index t (1 : Fin 2) * 128 + 1 * k.val = k.val; omega
  · show V c main_v13 (((cfg3.win 1).blk t).view.emb (ix2 r (0 : Fin 1))) = V c main_v13 (ix2 _ (0 : Fin 1))
    refine congrArg (V c main_v13) (funext fun a => Fin.ext ?_)
    match a with
    | ⟨0, _⟩ => show win3_1.index t (0 : Fin 2) * 2000 + 1 * r.val = win3_12.index t (0 : Fin 2) * 2000 + r.val; omega
    | ⟨1, _⟩ => show win3_1.index t (1 : Fin 2) * 1 + 1 * 0 = 0; omega
  · intro k q
    show V c main_v101 (((cfg3.win 2).blk t).view.emb (ix2 k q)) = V c main_v101 (ix2 k q)
    obtain ⟨f0, f1⟩ := idx_w2 t
    refine congrArg (V c main_v101) (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · intro q
    show V c main_v120 (((cfg3.win 3).blk t).view.emb (ix2 (0 : Fin 1) q)) = V c main_v120 (ix2 (0 : Fin 1) q)
    obtain ⟨f0, f1⟩ := idx_w3 t
    refine congrArg (V c main_v120) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · intro q
    show V c main_v121 (((cfg3.win 4).blk t).view.emb (ix2 (0 : Fin 1) q)) = V c main_v121 (ix2 (0 : Fin 1) q)
    obtain ⟨f0, f1⟩ := idx_w4 t
    refine congrArg (V c main_v121) (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  · intro q
    show V c main_v122 (((cfg3.win 5).blk t).view.emb (ix2 (0 : Fin 1) q)) = V c main_v122 (ix2 (0 : Fin 1) q)
    obtain ⟨f0, f1⟩ := idx_w5 t
    refine congrArg (V c main_v122) (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega
  · intro k q
    show V c main_v109 (((cfg3.win 6).blk t).view.emb (ix2 k q)) = V c main_v109 (ix2 k q)
    obtain ⟨f0, f1⟩ := idx_w6 t
    refine congrArg (V c main_v109) (funext fun a => Fin.ext ?_)
    match a with
    | ⟨0, _⟩ => show win3_6.index t (0 : Fin 2) * 128 + 1 * k.val = k.val; omega
    | ⟨1, _⟩ => show win3_6.index t (1 : Fin 2) * 128 + 1 * q.val = q.val; omega
  · intro q
    show V c main_v123 (((cfg3.win 7).blk t).view.emb (ix2 (0 : Fin 1) q)) = V c main_v123 (ix2 (0 : Fin 1) q)
    obtain ⟨f0, f1⟩ := idx_w7 t
    refine congrArg (V c main_v123) (funext fun a => Fin.ext ?_)
    match a with
    | ⟨0, _⟩ => show win3_7.index t (0 : Fin 2) * 1 + 1 * 0 = 0; omega
    | ⟨1, _⟩ => show win3_7.index t (1 : Fin 2) * 128 + 1 * q.val = q.val; omega
  · intro q
    show V c main_v124 (((cfg3.win 8).blk t).view.emb (ix2 (0 : Fin 1) q)) = V c main_v124 (ix2 (0 : Fin 1) q)
    obtain ⟨f0, f1⟩ := idx_w8 t
    refine congrArg (V c main_v124) (funext fun a => Fin.ext ?_)
    match a with
    | ⟨0, _⟩ => show win3_8.index t (0 : Fin 2) * 1 + 1 * 0 = 0; omega
    | ⟨1, _⟩ => show win3_8.index t (1 : Fin 2) * 128 + 1 * q.val = q.val; omega
  · intro q
    show V c main_v125 (((cfg3.win 9).blk t).view.emb (ix2 (0 : Fin 1) q)) = V c main_v125 (ix2 (0 : Fin 1) q)
    obtain ⟨f0, f1⟩ := idx_w9 t
    refine congrArg (V c main_v125) (funext fun a => Fin.ext ?_)
    match a with
    | ⟨0, _⟩ => show win3_9.index t (0 : Fin 2) * 1 + 1 * 0 = 0; omega
    | ⟨1, _⟩ => show win3_9.index t (1 : Fin 2) * 128 + 1 * q.val = q.val; omega
  · intro k q
    show V c main_v117 (((cfg3.win 10).blk t).view.emb (ix2 k q)) = V c main_v117 (ix2 k q)
    obtain ⟨f0, f1⟩ := idx_w10 t
    refine congrArg (V c main_v117) (funext fun a => Fin.ext ?_)
    match a with
    | ⟨0, _⟩ => show win3_10.index t (0 : Fin 2) * 128 + 1 * k.val = k.val; omega
    | ⟨1, _⟩ => show win3_10.index t (1 : Fin 2) * 128 + 1 * q.val = q.val; omega
  · intro q
    show V c main_v126 (((cfg3.win 11).blk t).view.emb (ix2 (0 : Fin 1) q)) = V c main_v126 (ix2 (0 : Fin 1) q)
    obtain ⟨f0, f1⟩ := idx_w11 t
    refine congrArg (V c main_v126) (funext fun a => Fin.ext ?_)
    match a with
    | ⟨0, _⟩ => show win3_11.index t (0 : Fin 2) * 1 + 1 * 0 = 0; omega
    | ⟨1, _⟩ => show win3_11.index t (1 : Fin 2) * 128 + 1 * q.val = q.val; omega

/-- An index of the output array is in point t's block iff each coordinate is in the block's range. -/
theorem mem_blk (t : Fin cfg3.N) (i : S100000x128.Idx) :
    i ∈ ((cfg3.win 12).blk t).view.set ↔ ∀ a : Fin 2, win3_12.index t a * S2000x128.size a ≤ (i a).val
      ∧ (i a).val < win3_12.index t a * S2000x128.size a + S2000x128.size a := by
  show i ∈ ((View.whole main_v127).slice (win3_12.rect t)).set ↔ _
  rw [View.set_slice_whole, Rect.mem_set_unit]
  exact Iff.rfl

/-- The 50 blocks of 2000 rows cover the array. -/
theorem cover (i : S100000x128.Idx) :
    ∃ t : Fin cfg3.N, (cfg3.win 12).flush t = true ∧ i ∈ ((cfg3.win 12).blk t).view.set := by
  have hi0 : (i 0).val < 100000 := (i 0).isLt
  have hi1 : (i 1).val < 128 := (i 1).isLt
  obtain ⟨t, ht⟩ := idx_onto ⟨(i 0).val / 2000, by omega⟩
  have q0 : win3_12.index t (0 : Fin 2) = (i 0).val / 2000 := congrFun ht 0
  have q1 : win3_12.index t (1 : Fin 2) = 0 := congrFun ht 1
  refine ⟨t, flush3_12 t, ?_⟩
  rw [mem_blk]
  intro a
  match a with
  | ⟨0, _⟩ => show win3_12.index t (0 : Fin 2) * 2000 ≤ (i 0).val ∧ (i 0).val < win3_12.index t (0 : Fin 2) * 2000 + 2000; omega
  | ⟨1, _⟩ => show win3_12.index t (1 : Fin 2) * 128 ≤ (i 1).val ∧ (i 1).val < win3_12.index t (1 : Fin 2) * 128 + 128; omega

/-- The output array after the launch is the node update of the arrays as the launch found them. -/
theorem final (c : Dev nD) : (dat3 V c).arrAt 12 cfg3.N = G V c :=
  (dat3 V c).arrAt_eq_of_cover 12 (G V c) (fun t _ => flushed_eq V c t) (cover)

end Cert.KernelIdeal.Update3

end
-- ==== Proof.LibNormHost.lean ====
/-
  The host program's spelling of layer normalisation along the lanes of a [P, Q] array, read as the whole-array
  function lnorm.

  The host computes a row sum as a reduce over the lanes from a zero initial value; it lays the length-P vector of
  sums out as a [P, 1] column, divides the column by a constant broadcast to [P, 1], and broadcasts the result over the
  lanes to subtract it from the array.  The variance is the same spelling applied to the squares of the centred
  entries; the offset is added to the variance column, the reciprocal square root is taken on the column, and the
  column is broadcast over the lanes.  The gain and the offset vector of length Q are laid out as [1, Q] rows and
  broadcast over the rows.  At the ideal instance the reduce from zero is the plain finite sum, every broadcast is a
  read of the operand at the matching index, and the elementwise operations are the operations of the extended reals,
  so the spelling is lnorm entry by entry with nothing left to prove about arithmetic.
-/
import Idealize.ShloMosaic.Lib.ValueIdx
import Idealize.ShloMosaic.Lib.ValueLayout
import Idealize.ShloMosaic.Lib.Pipeline.Value
import Idealize.ShloMosaic.PureOps.Ideal.Laws
import proofs.«144831_j23313082483287_1_alg».proof.Proof.LibNormLayer

noncomputable section

namespace NormLayer

open Idealize.ShloMosaic Idealize.ShloMosaic.ValueIdx DenseLayer

variable {P Q : Nat}

/-- A reduce over the lanes from the zero initial value reads, at row p, the sum of row p. -/
theorem host_rowSum (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel) (p : Fin P) :
    Host.reduceAdd (F := Ideal) y (constant (F := Ideal) ⟨0, ![]⟩ .f32 0x00000000#32) hred hS (ix1 p)
      = ∑ k : Fin Q, y (ix2 p k) := by
  simp only [Host.reduceAdd, Ideal.hostReduceAdd_def]
  rw [Ideal.hostReduceAdd_single hred hred']
  show Ideal.ofBits .f32 0x00000000#32 + _ = _
  rw [Ideal.ofBits_zero_f32, zero_add]
  refine Finset.sum_congr rfl fun k _ => congrArg y (funext fun ax => Fin.ext ?_)
  match ax with
  | ⟨0, _⟩ => rfl
  | ⟨1, _⟩ => rfl

/-- The row sums laid out as a column and divided by a broadcast constant read, at (p, 0), the mean of row p. -/
theorem host_meanCol (w : BitVec 32) (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (p : Fin P) (u : Fin 1) :
    Host.divf (F := Ideal)
        (broadcastInDim ⟨2, ![P, 1]⟩ ![0] h1
          (Host.reduceAdd (F := Ideal) y (constant (F := Ideal) ⟨0, ![]⟩ .f32 0x00000000#32) hred hS))
        (broadcastInDim ⟨2, ![P, 1]⟩ ![] h0 (constant (F := Ideal) ⟨0, ![]⟩ .f32 w)) (ix2 p u)
      = rowMean (Ideal.ofBits .f32 w) y p := by
  show Ideal.div (broadcastInDim (s := ⟨1, ![P]⟩) ⟨2, ![P, 1]⟩ ![0] h1 _ (ix2 p u))
      (broadcastInDim (s := ⟨0, ![]⟩) ⟨2, ![P, 1]⟩ ![] h0 _ (ix2 p u)) = _
  rw [BroadcastReads.vec_to_col _ h1 p u, BroadcastReads.scalar_to _ _ h0, host_rowSum y hred hred' hS p]
  rfl

/-- The array minus its column of row means broadcast over the lanes is the centred array. -/
theorem host_centred (w : BitVec 32) (y : FVec Ideal ⟨2, ![P, Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (h2 : (⟨2, ![P, 1]⟩ : Shape).BroadcastsInDim ⟨2, ![P, Q]⟩ ![0, 1]) :
    subf y (broadcastInDim ⟨2, ![P, Q]⟩ ![0, 1] h2
      (Host.divf (F := Ideal)
        (broadcastInDim ⟨2, ![P, 1]⟩ ![0] h1
          (Host.reduceAdd (F := Ideal) y (constant (F := Ideal) ⟨0, ![]⟩ .f32 0x00000000#32) hred hS))
        (broadcastInDim ⟨2, ![P, 1]⟩ ![] h0 (constant (F := Ideal) ⟨0, ![]⟩ .f32 w))))
      = centred (Ideal.ofBits .f32 w) y := by
  funext j
  obtain ⟨p, q, rfl⟩ : ∃ (p : Fin P) (q : Fin Q), j = ix2 p q := ⟨j 0, j 1, eq_ix2 j⟩
  show y (ix2 p q) - broadcastInDim (s := ⟨2, ![P, 1]⟩) ⟨2, ![P, Q]⟩ ![0, 1] h2 _ (ix2 p q)
      = y (ix2 p q) - rowMean (Ideal.ofBits .f32 w) y p
  rw [BroadcastReads.col_to_lanes _ h2 p q, host_meanCol w y hred hred' hS h1 h0 p 0]

/-- THE HOST'S SPELLING of the normalisation: each row sum is a reduce from zero, laid out as a column and divided by
    a broadcast constant; the column of means is broadcast over the lanes and subtracted; the column of
    1 / sqrt (variance + offset) is broadcast over the lanes; the gain and the offset are length-Q vectors laid out
    as rows and broadcast over the rows. -/
theorem host_lnorm (cw ew : BitVec 32) (y : FVec Ideal ⟨2, ![P, Q]⟩ .f32) (g b : FVec Ideal ⟨1, ![Q]⟩ .f32)
    (hred : (⟨2, ![P, Q]⟩ : Shape).ReducesTo [1] ⟨1, ![P]⟩) (hred' : (⟨2, ![P, Q]⟩ : Shape).Reduces [1] ⟨1, ![P]⟩)
    (hS : 0 < (⟨0, ![]⟩ : Shape).numel)
    (h1 : (⟨1, ![P]⟩ : Shape).BroadcastsInDim ⟨2, ![P, 1]⟩ ![0])
    (h0 : (⟨0, ![]⟩ : Shape).BroadcastsInDim ⟨2, ![P, 1]⟩ ![])
    (h2 : (⟨2, ![P, 1]⟩ : Shape).BroadcastsInDim ⟨2, ![P, Q]⟩ ![0, 1])
    (h3 : (⟨1, ![Q]⟩ : Shape).BroadcastsInDim ⟨2, ![1, Q]⟩ ![1])
    (h4 : (⟨2, ![1, Q]⟩ : Shape).BroadcastsInDim ⟨2, ![P, Q]⟩ ![0, 1]) :
    addf (mulf (mulf
        (subf y (broadcastInDim ⟨2, ![P, Q]⟩ ![0, 1] h2
          (Host.divf (F := Ideal)
            (broadcastInDim ⟨2, ![P, 1]⟩ ![0] h1
              (Host.reduceAdd (F := Ideal) y (constant (F := Ideal) ⟨0, ![]⟩ .f32 0x00000000#32) hred hS))
            (broadcastInDim ⟨2, ![P, 1]⟩ ![] h0 (constant (F := Ideal) ⟨0, ![]⟩ .f32 cw)))))
        (broadcastInDim ⟨2, ![P, Q]⟩ ![0, 1] h2 (Host.rsqrt (F := Ideal) (addf
          (Host.divf (F := Ideal)
            (broadcastInDim ⟨2, ![P, 1]⟩ ![0] h1
              (Host.reduceAdd (F := Ideal)
                (mulf
                  (subf y (broadcastInDim ⟨2, ![P, Q]⟩ ![0, 1] h2
                    (Host.divf (F := Ideal)
                      (broadcastInDim ⟨2, ![P, 1]⟩ ![0] h1
                        (Host.reduceAdd (F := Ideal) y (constant (F := Ideal) ⟨0, ![]⟩ .f32 0x00000000#32) hred hS))
                      (broadcastInDim ⟨2, ![P, 1]⟩ ![] h0 (constant (F := Ideal) ⟨0, ![]⟩ .f32 cw)))))
                  (subf y (broadcastInDim ⟨2, ![P, Q]⟩ ![0, 1] h2
                    (Host.divf (F := Ideal)
                      (broadcastInDim ⟨2, ![P, 1]⟩ ![0] h1
                        (Host.reduceAdd (F := Ideal) y (constant (F := Ideal) ⟨0, ![]⟩ .f32 0x00000000#32) hred hS))
                      (broadcastInDim ⟨2, ![P, 1]⟩ ![] h0 (constant (F := Ideal) ⟨0, ![]⟩ .f32 cw))))))
                (constant (F := Ideal) ⟨0, ![]⟩ .f32 0x00000000#32) hred hS))
            (broadcastInDim ⟨2, ![P, 1]⟩ ![] h0 (constant (F := Ideal) ⟨0, ![]⟩ .f32 cw)))
          (broadcastInDim ⟨2, ![P, 1]⟩ ![] h0 (constant (F := Ideal) ⟨0, ![]⟩ .f32 ew))))))
        (broadcastInDim ⟨2, ![P, Q]⟩ ![0, 1] h4 (broadcastInDim ⟨2, ![1, Q]⟩ ![1] h3 g)))
      (broadcastInDim ⟨2, ![P, Q]⟩ ![0, 1] h4 (broadcastInDim ⟨2, ![1, Q]⟩ ![1] h3 b))
    = lnorm (Ideal.ofBits .f32 cw) (Ideal.ofBits .f32 ew) y (fun q => g (ix1 q)) (fun q => b (ix1 q)) := by
  rw [host_centred cw y hred hred' hS h1 h0 h2]
  funext j
  obtain ⟨p, q, rfl⟩ : ∃ (p : Fin P) (q : Fin Q), j = ix2 p q := ⟨j 0, j 1, eq_ix2 j⟩
  show centred (Ideal.ofBits .f32 cw) y (ix2 p q) * broadcastInDim (s := ⟨2, ![P, 1]⟩) ⟨2, ![P, Q]⟩ ![0, 1] h2 _ (ix2 p q)
        * broadcastInDim ⟨2, ![P, Q]⟩ ![0, 1] h4 (broadcastInDim ⟨2, ![1, Q]⟩ ![1] h3 g) (ix2 p q)
      + broadcastInDim ⟨2, ![P, Q]⟩ ![0, 1] h4 (broadcastInDim ⟨2, ![1, Q]⟩ ![1] h3 b) (ix2 p q)
    = centred (Ideal.ofBits .f32 cw) y (ix2 p q)
        * Ideal.rsqrt (rowVar (Ideal.ofBits .f32 cw) y p + Ideal.ofBits .f32 ew) * g (ix1 q) + b (ix1 q)
  rw [BroadcastReads.col_to_lanes _ h2 p q, BroadcastReads.row_to_rows _ h4 p q, BroadcastReads.row_to_rows _ h4 p q,
    BroadcastReads.vec_to_row g h3 0 q, BroadcastReads.vec_to_row b h3 0 q]
  show centred (Ideal.ofBits .f32 cw) y (ix2 p q)
        * Ideal.rsqrt (Ideal.div (broadcastInDim (s := ⟨1, ![P]⟩) ⟨2, ![P, 1]⟩ ![0] h1 _ (ix2 p (0 : Fin 1)))
              (broadcastInDim ⟨2, ![P, 1]⟩ ![] h0 (constant (F := Ideal) ⟨0, ![]⟩ .f32 cw) (ix2 p (0 : Fin 1)))
            + broadcastInDim ⟨2, ![P, 1]⟩ ![] h0 (constant (F := Ideal) ⟨0, ![]⟩ .f32 ew) (ix2 p (0 : Fin 1)))
        * g (ix1 q) + b (ix1 q) = _
  rw [BroadcastReads.vec_to_col _ h1 p 0, BroadcastReads.scalar_to _ _ h0, BroadcastReads.scalar_to _ _ h0,
    host_rowSum _ hred hred' hS p]
  rfl

/-- A column broadcast over the lanes and multiplied in scales row p by the column's entry (p, 0). -/
theorem host_rowScale (z : FVec Ideal ⟨2, ![P, Q]⟩ .f32) (s : FVec Ideal ⟨2, ![P, 1]⟩ .f32)
    (h2 : (⟨2, ![P, 1]⟩ : Shape).BroadcastsInDim ⟨2, ![P, Q]⟩ ![0, 1]) :
    mulf z (broadcastInDim ⟨2, ![P, Q]⟩ ![0, 1] h2 s) = fun i => z i * s (ix2 (n0 := P) (i 0) (0 : Fin 1)) := by
  funext j
  obtain ⟨p, q, rfl⟩ : ∃ (p : Fin P) (q : Fin Q), j = ix2 p q := ⟨j 0, j 1, eq_ix2 j⟩
  show z (ix2 p q) * broadcastInDim ⟨2, ![P, Q]⟩ ![0, 1] h2 s (ix2 p q) = z (ix2 p q) * s (ix2 p (0 : Fin 1))
  rw [BroadcastReads.col_to_lanes s h2 p q]

end NormLayer

end
-- ==== Proof.RefStages.lean ====
/-
  Four stages of the reference program, read as whole-array functions.

  The reference program is a graph convolution: an embedding of the node features (a dense layer), then three node
  updates, each followed by a gather/scatter aggregation over the edges, then a pooling.  A node update is three dense
  layers, each followed by max(·, 0), with a layer normalisation after the first two, and a final scaling of row p by
  the source normaliser's entry p.  The program spells each of these with reduces, broadcasts and elementwise
  operations on [100000, 128] arrays; here the embedding is shown to be the function dense of its operands, and each of
  the three node updates to be the function step of its input array, the source normaliser, and its ten weight
  slices.  Every proof unfolds only the operations between two stages and applies the host-spelling lemma of the
  stage to the previous stage left folded; the update is then the chain of its nine stages.
-/
import proofs.«144831_j23313082483287_1_alg».proof.Proof.RefRead
import proofs.«144831_j23313082483287_1_alg».proof.Proof.LibNormLayer
import proofs.«144831_j23313082483287_1_alg».proof.Proof.LibNormHost

noncomputable section

namespace Cert.ReferenceIdeal.Stages

open Cert.ReferenceIdeal Cert.ReferenceIdeal.Gen Cert.ReferenceIdeal.Read NormLayer DenseLayer Idealize.ShloMosaic
  Idealize.ShloMosaic.ValueIdx

/-- The divisor of the row means: the float word of 128. -/
abbrev C : EReal := Ideal.ofBits .f32 0x43000000#32
/-- The offset added to the row variances: the float word of 1e-6. -/
abbrev E : EReal := Ideal.ofBits .f32 0x358637BD#32

variable (x0 : (⟨S100000x64, .f32⟩ : BufTy).Contents (Elt Ideal))
variable (x1 x2 : (⟨S625000, .i32⟩ : BufTy).Contents (Elt Ideal))
variable (x4 : (⟨S64x128, .f32⟩ : BufTy).Contents (Elt Ideal))
variable (x5 : (⟨S128, .f32⟩ : BufTy).Contents (Elt Ideal))
variable (x6 : (⟨S3x128x128, .f32⟩ : BufTy).Contents (Elt Ideal))
variable (x7 x8 x9 : (⟨S3x128, .f32⟩ : BufTy).Contents (Elt Ideal))
variable (x10 : (⟨S3x128x128, .f32⟩ : BufTy).Contents (Elt Ideal))
variable (x11 x12 x13 : (⟨S3x128, .f32⟩ : BufTy).Contents (Elt Ideal))
variable (x14 : (⟨S3x128x128, .f32⟩ : BufTy).Contents (Elt Ideal))
variable (x15 : (⟨S3x128, .f32⟩ : BufTy).Contents (Elt Ideal))

/-- The embedding's product, [100000, 64] by [64, 128], is a plain matrix product. -/
theorem plain_embed : PlainDot.IsPlain dot_S100000x64_S64x128_S100000x128_1_0_0_1_n_n := ⟨rfl, rfl, rfl, rfl, rfl, rfl⟩

/-- Every layer's product, [100000, 128] by [128, 128], is a plain matrix product. -/
theorem plain_layer : PlainDot.IsPlain dot_S100000x128_S128x128_S100000x128_1_0_0_1_n_n := ⟨rfl, rfl, rfl, rfl, rfl, rfl⟩

/-! ## The embedding -/

/-- The embedding is the dense layer of the node features. -/
theorem h0_eq : val_main_v21 (F := Ideal) x0 x4 x5 = dense x0 x4 (fun q => x5 (ix1 q)) := by
  unfold val_main_v21 val_main_v20 val_main_v19 val_main_v18
  exact DenseLayer.host_dense plain_embed x0 x4 x5 _ _

/-! ## The first node update -/

/-- First layer, the product and bias. -/
theorem s0_dense1 : val_main_v45 (F := Ideal) x0 x4 x5 x6 x7
    = dense (val_main_v21 (F := Ideal) x0 x4 x5) (val_main_v23 (F := Ideal) x6) (fun q => val_main_v25 (F := Ideal) x7 (ix1 q)) := by
  unfold val_main_v45 val_main_v44 val_main_v43 val_main_v42
  exact DenseLayer.host_dense plain_layer _ _ _ _ _

/-- First layer, max(·, 0). -/
theorem s0_relu1 : val_main_v46 (F := Ideal) x0 x4 x5 x6 x7
    = relu (val_main_v45 (F := Ideal) x0 x4 x5 x6 x7) := by
  unfold val_main_v46 val_main_call0_v0 val_main_call0_cst
  exact host_relu _ _

/-- First layer, the normalisation. -/
theorem s0_norm1 : val_main_v70 (F := Ideal) x0 x4 x5 x6 x7 x8 x9
    = lnorm C E (val_main_v46 (F := Ideal) x0 x4 x5 x6 x7) (fun q => val_main_v27 (F := Ideal) x8 (ix1 q))
        (fun q => val_main_v29 (F := Ideal) x9 (ix1 q)) := by
  unfold val_main_v70 val_main_v69 val_main_v68 val_main_v67 val_main_v66 val_main_v65 val_main_v64 val_main_v63 val_main_v62
    val_main_v61 val_main_v60 val_main_v59 val_main_v58 val_main_v57 val_main_v56 val_main_v55 val_main_v54 val_main_v53
    val_main_v52 val_main_v51 val_main_v50 val_main_v49 val_main_v48 val_main_v47
    val_main_cst_4 val_main_cst_5 val_main_cst_6 val_main_cst_7 val_main_cst_8
  exact host_lnorm 0x43000000#32 0x358637BD#32 (val_main_v46 (F := Ideal) x0 x4 x5 x6 x7)
    (val_main_v27 (F := Ideal) x8) (val_main_v29 (F := Ideal) x9) _ (by decide) _ _ _ _ _ _

/-- Second layer, the product and bias. -/
theorem s0_dense2 : val_main_v74 (F := Ideal) x0 x4 x5 x6 x7 x8 x9 x10 x11
    = dense (val_main_v70 (F := Ideal) x0 x4 x5 x6 x7 x8 x9) (val_main_v31 (F := Ideal) x10)
        (fun q => val_main_v33 (F := Ideal) x11 (ix1 q)) := by
  unfold val_main_v74 val_main_v73 val_main_v72 val_main_v71
  exact DenseLayer.host_dense plain_layer _ _ _ _ _

/-- Second layer, max(·, 0). -/
theorem s0_relu2 : val_main_v75 (F := Ideal) x0 x4 x5 x6 x7 x8 x9 x10 x11
    = relu (val_main_v74 (F := Ideal) x0 x4 x5 x6 x7 x8 x9 x10 x11) := by
  unfold val_main_v75 val_main_call1_v0 val_main_call1_cst
  exact host_relu _ _

/-- Second layer, the normalisation. -/
theorem s0_norm2 : val_main_v99 (F := Ideal) x0 x4 x5 x6 x7 x8 x9 x10 x11 x12 x13
    = lnorm C E (val_main_v75 (F := Ideal) x0 x4 x5 x6 x7 x8 x9 x10 x11) (fun q => val_main_v35 (F := Ideal) x12 (ix1 q))
        (fun q => val_main_v37 (F := Ideal) x13 (ix1 q)) := by
  unfold val_main_v99 val_main_v98 val_main_v97 val_main_v96 val_main_v95 val_main_v94 val_main_v93 val_main_v92 val_main_v91
    val_main_v90 val_main_v89 val_main_v88 val_main_v87 val_main_v86 val_main_v85 val_main_v84 val_main_v83 val_main_v82
    val_main_v81 val_main_v80 val_main_v79 val_main_v78 val_main_v77 val_main_v76
    val_main_cst_9 val_main_cst_10 val_main_cst_11 val_main_cst_12 val_main_cst_13
  exact host_lnorm 0x43000000#32 0x358637BD#32 (val_main_v75 (F := Ideal) x0 x4 x5 x6 x7 x8 x9 x10 x11)
    (val_main_v35 (F := Ideal) x12) (val_main_v37 (F := Ideal) x13) _ (by decide) _ _ _ _ _ _

/-- Third layer, the product and bias. -/
theorem s0_dense3 : val_main_v103 (F := Ideal) x0 x4 x5 x6 x7 x8 x9 x10 x11 x12 x13 x14 x15
    = dense (val_main_v99 (F := Ideal) x0 x4 x5 x6 x7 x8 x9 x10 x11 x12 x13) (val_main_v39 (F := Ideal) x14)
        (fun q => val_main_v41 (F := Ideal) x15 (ix1 q)) := by
  unfold val_main_v103 val_main_v102 val_main_v101 val_main_v100
  exact DenseLayer.host_dense plain_layer _ _ _ _ _

/-- Third layer, max(·, 0). -/
theorem s0_relu3 : val_main_v104 (F := Ideal) x0 x4 x5 x6 x7 x8 x9 x10 x11 x12 x13 x14 x15
    = relu (val_main_v103 (F := Ideal) x0 x4 x5 x6 x7 x8 x9 x10 x11 x12 x13 x14 x15) := by
  unfold val_main_v104 val_main_call2_v0 val_main_call2_cst
  exact host_relu _ _

/-- The scaling of row p by the source normaliser's entry (p, 0). -/
theorem s0_scale : val_main_v106 (F := Ideal) x0 x1 x4 x5 x6 x7 x8 x9 x10 x11 x12 x13 x14 x15
    = fun i => val_main_v104 (F := Ideal) x0 x4 x5 x6 x7 x8 x9 x10 x11 x12 x13 x14 x15 i
        * val_main_v13 (F := Ideal) x1 (ix2 (n0 := 100000) (i 0) (0 : Fin 1)) := by
  unfold val_main_v106 val_main_v105
  exact host_rowScale _ _ _

/-- THE FIRST NODE UPDATE: the scaled output of the three layers is step of the embedding and the first slices of
    the weights. -/
theorem u_eq_0 : val_main_v106 (F := Ideal) x0 x1 x4 x5 x6 x7 x8 x9 x10 x11 x12 x13 x14 x15
    = step C E (val_main_v21 (F := Ideal) x0 x4 x5) (fun p => val_main_v13 (F := Ideal) x1 (ix2 p (0 : Fin 1)))
        (val_main_v23 (F := Ideal) x6) (fun q => val_main_v25 (F := Ideal) x7 (ix1 q))
        (fun q => val_main_v27 (F := Ideal) x8 (ix1 q)) (fun q => val_main_v29 (F := Ideal) x9 (ix1 q))
        (val_main_v31 (F := Ideal) x10) (fun q => val_main_v33 (F := Ideal) x11 (ix1 q))
        (fun q => val_main_v35 (F := Ideal) x12 (ix1 q)) (fun q => val_main_v37 (F := Ideal) x13 (ix1 q))
        (val_main_v39 (F := Ideal) x14) (fun q => val_main_v41 (F := Ideal) x15 (ix1 q)) := by
  rw [s0_scale, s0_relu3, s0_dense3, s0_norm2, s0_relu2, s0_dense2, s0_norm1, s0_relu1, s0_dense1]
  rfl

/-! ## The second node update -/

/-- First layer, the product and bias. -/
theorem s1_dense1 : val_main_v142 (F := Ideal) x0 x1 x2 x4 x5 x6 x7 x8 x9 x10 x11 x12 x13 x14 x15
    = dense (val_main_v118 (F := Ideal) x0 x1 x2 x4 x5 x6 x7 x8 x9 x10 x11 x12 x13 x14 x15) (val_main_v120 (F := Ideal) x6)
        (fun q => val_main_v122 (F := Ideal) x7 (ix1 q)) := by
  unfold val_main_v142 val_main_v141 val_main_v140 val_main_v139
  exact DenseLayer.host_dense plain_layer _ _ _ _ _

/-- First layer, max(·, 0). -/
theorem s1_relu1 : val_main_v143 (F := Ideal) x0 x1 x2 x4 x5 x6 x7 x8 x9 x10 x11 x12 x13 x14 x15
    = relu (val_main_v142 (F := Ideal) x0 x1 x2 x4 x5 x6 x7 x8 x9 x10 x11 x12 x13 x14 x15) := by
  unfold val_main_v143 val_main_call3_v0 val_main_call3_cst
  exact host_relu _ _

/-- First layer, the normalisation. -/
theorem s1_norm1 : val_main_v167 (F := Ideal) x0 x1 x2 x4 x5 x6 x7 x8 x9 x10 x11 x12 x13 x14 x15
    = lnorm C E (val_main_v143 (F := Ideal) x0 x1 x2 x4 x5 x6 x7 x8 x9 x10 x11 x12 x13 x14 x15)
        (fun q => val_main_v124 (F := Ideal) x8 (ix1 q))
        (fun q => val_main_v126 (F := Ideal) x9 (ix1 q)) := by
  unfold val_main_v167 val_main_v166 val_main_v165 val_main_v164 val_main_v163 val_main_v162 val_main_v161 val_main_v160 val_main_v159
    val_main_v158 val_main_v157 val_main_v156 val_main_v155 val_main_v154 val_main_v153 val_main_v152 val_main_v151 val_main_v150
    val_main_v149 val_main_v148 val_main_v147 val_main_v146 val_main_v145 val_main_v144
    val_main_cst_16 val_main_cst_17 val_main_cst_18 val_main_cst_19 val_main_cst_20
  exact host_lnorm 0x43000000#32 0x358637BD#32 (val_main_v143 (F := Ideal) x0 x1 x2 x4 x5 x6 x7 x8 x9 x10 x11 x12 x13 x14 x15)
    (val_main_v124 (F := Ideal) x8) (val_main_v126 (F := Ideal) x9) _ (by decide) _ _ _ _ _ _

/-- Second layer, the product and bias. -/
theorem s1_dense2 : val_main_v171 (F := Ideal) x0 x1 x2 x4 x5 x6 x7 x8 x9 x10 x11 x12 x13 x14 x15
    = dense (val_main_v167 (F := Ideal) x0 x1 x2 x4 x5 x6 x7 x8 x9 x10 x11 x12 x13 x14 x15) (val_main_v128 (F := Ideal) x10)
        (fun q => val_main_v130 (F := Ideal) x11 (ix1 q)) := by
  unfold val_main_v171 val_main_v170 val_main_v169 val_main_v168
  exact DenseLayer.host_dense plain_layer _ _ _ _ _

/-- Second layer, max(·, 0). -/
theorem s1_relu2 : val_main_v172 (F := Ideal) x0 x1 x2 x4 x5 x6 x7 x8 x9 x10 x11 x12 x13 x14 x15
    = relu (val_main_v171 (F := Ideal) x0 x1 x2 x4 x5 x6 x7 x8 x9 x10 x11 x12 x13 x14 x15) := by
  unfold val_main_v172 val_main_call4_v0 val_main_call4_cst
  exact host_relu _ _

/-- Second layer, the normalisation. -/
theorem s1_norm2 : val_main_v196 (F := Ideal) x0 x1 x2 x4 x5 x6 x7 x8 x9 x10 x11 x12 x13 x14 x15
    = lnorm C E (val_main_v172 (F := Ideal) x0 x1 x2 x4 x5 x6 x7 x8 x9 x10 x11 x12 x13 x14 x15)
        (fun q => val_main_v132 (F := Ideal) x12 (ix1 q))
        (fun q => val_main_v134 (F := Ideal) x13 (ix1 q)) := by
  unfold val_main_v196 val_main_v195 val_main_v194 val_main_v193 val_main_v192 val_main_v191 val_main_v190 val_main_v189 val_main_v188
    val_main_v187 val_main_v186 val_main_v185 val_main_v184 val_main_v183 val_main_v182 val_main_v181 val_main_v180 val_main_v179
    val_main_v178 val_main_v177 val_main_v176 val_main_v175 val_main_v174 val_main_v173
    val_main_cst_21 val_main_cst_22 val_main_cst_23 val_main_cst_24 val_main_cst_25
  exact host_lnorm 0x43000000#32 0x358637BD#32 (val_main_v172 (F := Ideal) x0 x1 x2 x4 x5 x6 x7 x8 x9 x10 x11 x12 x13 x14 x15)
    (val_main_v132 (F := Ideal) x12) (val_main_v134 (F := Ideal) x13) _ (by decide) _ _ _ _ _ _

/-- Third layer, the product and bias. -/
theorem s1_dense3 : val_main_v200 (F := Ideal) x0 x1 x2 x4 x5 x6 x7 x8 x9 x10 x11 x12 x13 x14 x15
    = dense (val_main_v196 (F := Ideal) x0 x1 x2 x4 x5 x6 x7 x8 x9 x10 x11 x12 x13 x14 x15) (val_main_v136 (F := Ideal) x14)
        (fun q => val_main_v138 (F := Ideal) x15 (ix1 q)) := by
  unfold val_main_v200 val_main_v199 val_main_v198 val_main_v197
  exact DenseLayer.host_dense plain_layer _ _ _ _ _

/-- Third layer, max(·, 0). -/
theorem s1_relu3 : val_main_v201 (F := Ideal) x0 x1 x2 x4 x5 x6 x7 x8 x9 x10 x11 x12 x13 x14 x15
    = relu (val_main_v200 (F := Ideal) x0 x1 x2 x4 x5 x6 x7 x8 x9 x10 x11 x12 x13 x14 x15) := by
  unfold val_main_v201 val_main_call5_v0 val_main_call5_cst
  exact host_relu _ _

/-- The scaling of row p by the source normaliser's entry (p, 0). -/
theorem s1_scale : val_main_v203 (F := Ideal) x0 x1 x2 x4 x5 x6 x7 x8 x9 x10 x11 x12 x13 x14 x15
    = fun i => val_main_v201 (F := Ideal) x0 x1 x2 x4 x5 x6 x7 x8 x9 x10 x11 x12 x13 x14 x15 i
        * val_main_v13 (F := Ideal) x1 (ix2 (n0 := 100000) (i 0) (0 : Fin 1)) := by
  unfold val_main_v203 val_main_v202
  exact host_rowScale _ _ _

/-- THE SECOND NODE UPDATE: the scaled output of the three layers is step of the first aggregation and the second
    slices of the weights. -/
theorem u_eq_1 : val_main_v203 (F := Ideal) x0 x1 x2 x4 x5 x6 x7 x8 x9 x10 x11 x12 x13 x14 x15
    = step C E (val_main_v118 (F := Ideal) x0 x1 x2 x4 x5 x6 x7 x8 x9 x10 x11 x12 x13 x14 x15)
        (fun p => val_main_v13 (F := Ideal) x1 (ix2 p (0 : Fin 1)))
        (val_main_v120 (F := Ideal) x6) (fun q => val_main_v122 (F := Ideal) x7 (ix1 q))
        (fun q => val_main_v124 (F := Ideal) x8 (ix1 q)) (fun q => val_main_v126 (F := Ideal) x9 (ix1 q))
        (val_main_v128 (F := Ideal) x10) (fun q => val_main_v130 (F := Ideal) x11 (ix1 q))
        (fun q => val_main_v132 (F := Ideal) x12 (ix1 q)) (fun q => val_main_v134 (F := Ideal) x13 (ix1 q))
        (val_main_v136 (F := Ideal) x14) (fun q => val_main_v138 (F := Ideal) x15 (ix1 q)) := by
  rw [s1_scale, s1_relu3, s1_dense3, s1_norm2, s1_relu2, s1_dense2, s1_norm1, s1_relu1, s1_dense1]
  rfl

/-! ## The third node update -/

/-- First layer, the product and bias. -/
theorem s2_dense1 : val_main_v239 (F := Ideal) x0 x1 x2 x4 x5 x6 x7 x8 x9 x10 x11 x12 x13 x14 x15
    = dense (val_main_v215 (F := Ideal) x0 x1 x2 x4 x5 x6 x7 x8 x9 x10 x11 x12 x13 x14 x15) (val_main_v217 (F := Ideal) x6)
        (fun q => val_main_v219 (F := Ideal) x7 (ix1 q)) := by
  unfold val_main_v239 val_main_v238 val_main_v237 val_main_v236
  exact DenseLayer.host_dense plain_layer _ _ _ _ _

/-- First layer, max(·, 0). -/
theorem s2_relu1 : val_main_v240 (F := Ideal) x0 x1 x2 x4 x5 x6 x7 x8 x9 x10 x11 x12 x13 x14 x15
    = relu (val_main_v239 (F := Ideal) x0 x1 x2 x4 x5 x6 x7 x8 x9 x10 x11 x12 x13 x14 x15) := by
  unfold val_main_v240 val_main_call6_v0 val_main_call6_cst
  exact host_relu _ _

/-- First layer, the normalisation. -/
theorem s2_norm1 : val_main_v264 (F := Ideal) x0 x1 x2 x4 x5 x6 x7 x8 x9 x10 x11 x12 x13 x14 x15
    = lnorm C E (val_main_v240 (F := Ideal) x0 x1 x2 x4 x5 x6 x7 x8 x9 x10 x11 x12 x13 x14 x15)
        (fun q => val_main_v221 (F := Ideal) x8 (ix1 q))
        (fun q => val_main_v223 (F := Ideal) x9 (ix1 q)) := by
  unfold val_main_v264 val_main_v263 val_main_v262 val_main_v261 val_main_v260 val_main_v259 val_main_v258 val_main_v257 val_main_v256
    val_main_v255 val_main_v254 val_main_v253 val_main_v252 val_main_v251 val_main_v250 val_main_v249 val_main_v248 val_main_v247
    val_main_v246 val_main_v245 val_main_v244 val_main_v243 val_main_v242 val_main_v241
    val_main_cst_29 val_main_cst_30 val_main_cst_31 val_main_cst_32 val_main_cst_33
  exact host_lnorm 0x43000000#32 0x358637BD#32 (val_main_v240 (F := Ideal) x0 x1 x2 x4 x5 x6 x7 x8 x9 x10 x11 x12 x13 x14 x15)
    (val_main_v221 (F := Ideal) x8) (val_main_v223 (F := Ideal) x9) _ (by decide) _ _ _ _ _ _

/-- Second layer, the product and bias. -/
theorem s2_dense2 : val_main_v268 (F := Ideal) x0 x1 x2 x4 x5 x6 x7 x8 x9 x10 x11 x12 x13 x14 x15
    = dense (val_main_v264 (F := Ideal) x0 x1 x2 x4 x5 x6 x7 x8 x9 x10 x11 x12 x13 x14 x15) (val_main_v225 (F := Ideal) x10)
        (fun q => val_main_v227 (F := Ideal) x11 (ix1 q)) := by
  unfold val_main_v268 val_main_v267 val_main_v266 val_main_v265
  exact DenseLayer.host_dense plain_layer _ _ _ _ _

/-- Second layer, max(·, 0). -/
theorem s2_relu2 : val_main_v269 (F := Ideal) x0 x1 x2 x4 x5 x6 x7 x8 x9 x10 x11 x12 x13 x14 x15
    = relu (val_main_v268 (F := Ideal) x0 x1 x2 x4 x5 x6 x7 x8 x9 x10 x11 x12 x13 x14 x15) := by
  unfold val_main_v269 val_main_call7_v0 val_main_call7_cst
  exact host_relu _ _

/-- Second layer, the normalisation. -/
theorem s2_norm2 : val_main_v293 (F := Ideal) x0 x1 x2 x4 x5 x6 x7 x8 x9 x10 x11 x12 x13 x14 x15
    = lnorm C E (val_main_v269 (F := Ideal) x0 x1 x2 x4 x5 x6 x7 x8 x9 x10 x11 x12 x13 x14 x15)
        (fun q => val_main_v229 (F := Ideal) x12 (ix1 q))
        (fun q => val_main_v231 (F := Ideal) x13 (ix1 q)) := by
  unfold val_main_v293 val_main_v292 val_main_v291 val_main_v290 val_main_v289 val_main_v288 val_main_v287 val_main_v286 val_main_v285
    val_main_v284 val_main_v283 val_main_v282 val_main_v281 val_main_v280 val_main_v279 val_main_v278 val_main_v277 val_main_v276
    val_main_v275 val_main_v274 val_main_v273 val_main_v272 val_main_v271 val_main_v270
    val_main_cst_34 val_main_cst_35 val_main_cst_36 val_main_cst_37 val_main_cst_38
  exact host_lnorm 0x43000000#32 0x358637BD#32 (val_main_v269 (F := Ideal) x0 x1 x2 x4 x5 x6 x7 x8 x9 x10 x11 x12 x13 x14 x15)
    (val_main_v229 (F := Ideal) x12) (val_main_v231 (F := Ideal) x13) _ (by decide) _ _ _ _ _ _

/-- Third layer, the product and bias. -/
theorem s2_dense3 : val_main_v297 (F := Ideal) x0 x1 x2 x4 x5 x6 x7 x8 x9 x10 x11 x12 x13 x14 x15
    = dense (val_main_v293 (F := Ideal) x0 x1 x2 x4 x5 x6 x7 x8 x9 x10 x11 x12 x13 x14 x15) (val_main_v233 (F := Ideal) x14)
        (fun q => val_main_v235 (F := Ideal) x15 (ix1 q)) := by
  unfold val_main_v297 val_main_v296 val_main_v295 val_main_v294
  exact DenseLayer.host_dense plain_layer _ _ _ _ _

/-- Third layer, max(·, 0). -/
theorem s2_relu3 : val_main_v298 (F := Ideal) x0 x1 x2 x4 x5 x6 x7 x8 x9 x10 x11 x12 x13 x14 x15
    = relu (val_main_v297 (F := Ideal) x0 x1 x2 x4 x5 x6 x7 x8 x9 x10 x11 x12 x13 x14 x15) := by
  unfold val_main_v298 val_main_call8_v0 val_main_call8_cst
  exact host_relu _ _

/-- The scaling of row p by the source normaliser's entry (p, 0). -/
theorem s2_scale : val_main_v300 (F := Ideal) x0 x1 x2 x4 x5 x6 x7 x8 x9 x10 x11 x12 x13 x14 x15
    = fun i => val_main_v298 (F := Ideal) x0 x1 x2 x4 x5 x6 x7 x8 x9 x10 x11 x12 x13 x14 x15 i
        * val_main_v13 (F := Ideal) x1 (ix2 (n0 := 100000) (i 0) (0 : Fin 1)) := by
  unfold val_main_v300 val_main_v299
  exact host_rowScale _ _ _

/-- THE THIRD NODE UPDATE: the scaled output of the three layers is step of the second aggregation and the third
    slices of the weights. -/
theorem u_eq_2 : val_main_v300 (F := Ideal) x0 x1 x2 x4 x5 x6 x7 x8 x9 x10 x11 x12 x13 x14 x15
    = step C E (val_main_v215 (F := Ideal) x0 x1 x2 x4 x5 x6 x7 x8 x9 x10 x11 x12 x13 x14 x15)
        (fun p => val_main_v13 (F := Ideal) x1 (ix2 p (0 : Fin 1)))
        (val_main_v217 (F := Ideal) x6) (fun q => val_main_v219 (F := Ideal) x7 (ix1 q))
        (fun q => val_main_v221 (F := Ideal) x8 (ix1 q)) (fun q => val_main_v223 (F := Ideal) x9 (ix1 q))
        (val_main_v225 (F := Ideal) x10) (fun q => val_main_v227 (F := Ideal) x11 (ix1 q))
        (fun q => val_main_v229 (F := Ideal) x12 (ix1 q)) (fun q => val_main_v231 (F := Ideal) x13 (ix1 q))
        (val_main_v233 (F := Ideal) x14) (fun q => val_main_v235 (F := Ideal) x15 (ix1 q)) := by
  rw [s2_scale, s2_relu3, s2_dense3, s2_norm2, s2_relu2, s2_dense2, s2_norm1, s2_relu1, s2_dense1]
  rfl

end Cert.ReferenceIdeal.Stages

end
-- ==== Proof.Stages.lean ====
/-
  The idealized kernel's result, stage by stage.

  The TensorCore's buffers at each boundary of the program are a fold over the launch memory: a stretch of host
  operations applies its operations, a launch replaces its output array by what its write-backs leave and keeps every
  other buffer.  Reading the fold at one buffer walks back through the stretches and launches that did not write it
  until the operation that did.  Stage by stage — the embedding, then three times the node update and the aggregation
  over the edges, then the pooling and the read-out — the kernel's buffer holds the very term the reference program
  computes for the same stage: the host operations are the same operations on both sides, and each launch's output
  array is the dense layer (resp. the node update) of its input arrays, which is what the reference spells out on the
  host.
-/
import proofs.«144831_j23313082483287_1_alg».proof.Proof.Gen.KernelIdeal.Frame
import proofs.«144831_j23313082483287_1_alg».proof.Proof.RefRead
import proofs.«144831_j23313082483287_1_alg».proof.Proof.LibNormLayer
import proofs.«144831_j23313082483287_1_alg».proof.Proof.Region0
import proofs.«144831_j23313082483287_1_alg».proof.Proof.Region1
import proofs.«144831_j23313082483287_1_alg».proof.Proof.Region2
import proofs.«144831_j23313082483287_1_alg».proof.Proof.Region3
import proofs.«144831_j23313082483287_1_alg».proof.Proof.RefStages
import Idealize.ShloMosaic.Lib.StableHlo.Run

set_option maxRecDepth 16384

noncomputable section

namespace Cert.KernelIdeal.Fold

open Cert.KernelIdeal Cert.KernelIdeal.Gen Idealize.ShloMosaic Idealize.ShloMosaic.ValueIdx Idealize.ShloMosaic.TcCoe Idealize.SL.Sem
open Idealize.ShloMosaic.StableHlo
open DenseLayer NormLayer
open Cert.ReferenceIdeal.Read

variable (m : (ℓ : Loc nD τ sig) → Buf (Elt Ideal) ℓ) (ρ : Dev nD → PrngReg) (c : Dev nD)

/-! ## Carrying a buffer across a launch -/

/-- A launch keeps every buffer that is not one of its arrays. -/
theorem W2_ne (b : Ref sig .tc) (hb : ∀ w, Pipeline.arrRef spec0 w ≠ b) :
    W2 m ρ c (no_index (Proc.devRef .tc b)) = W1 m ρ c (Proc.devRef .tc b) := W2_of_ne m ρ c b hb
theorem W4_ne (b : Ref sig .tc) (hb : ∀ w, Pipeline.arrRef spec1 w ≠ b) :
    W4 m ρ c (no_index (Proc.devRef .tc b)) = W3 m ρ c (Proc.devRef .tc b) := W4_of_ne m ρ c b hb
theorem W6_ne (b : Ref sig .tc) (hb : ∀ w, Pipeline.arrRef spec2 w ≠ b) :
    W6 m ρ c (no_index (Proc.devRef .tc b)) = W5 m ρ c (Proc.devRef .tc b) := W6_of_ne m ρ c b hb
theorem W8_ne (b : Ref sig .tc) (hb : ∀ w, Pipeline.arrRef spec3 w ≠ b) :
    W8 m ρ c (no_index (Proc.devRef .tc b)) = W7 m ρ c (Proc.devRef .tc b) := W8_of_ne m ρ c b hb

/-- The column of sender norms is an INPUT array of the update launches: they leave it as they find it. -/
theorem W4_v13 : W4 m ρ c (no_index (Proc.devRef .tc main_v13)) = W3 m ρ c (Proc.devRef .tc main_v13) :=
  (W4_arr m ρ c 1).trans (((dat1 (V3 m ρ) c).arrAt_in 1 rfl _).trans (A_eq1 (V3 m ρ) c 1))
theorem W6_v13 : W6 m ρ c (no_index (Proc.devRef .tc main_v13)) = W5 m ρ c (Proc.devRef .tc main_v13) :=
  (W6_arr m ρ c 1).trans (((dat2 (V5 m ρ) c).arrAt_in 1 rfl _).trans (A_eq2 (V5 m ρ) c 1))

/-- Walk the fold at one buffer back to the operation that wrote it, and through that operation's operands. -/
macro "wfold" : tactic => `(tactic| (
  simp (disch := decide) only [W9, W7, W5, W3, W1, V1, V3, V5, V7, hostOps0, hostOps1, hostOps2, hostOps3, hostOps4,
    List.flatten_cons, List.flatten_nil, List.append_nil, List.cons_append, List.nil_append,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    W2_ne, W4_ne, W6_ne, W8_ne, W4_v13, W6_v13]))

/-! ## Before and around launch 0 -/

theorem V1_arg0 : V1 m ρ c main_arg0 = (m ((c : Thread nD τ).loc main_arg0)) := by
  show W1 m ρ c (Proc.devRef .tc main_arg0) = _
  wfold
  try rfl
theorem V1_arg4 : V1 m ρ c main_arg4 = (m ((c : Thread nD τ).loc main_arg4)) := by
  show W1 m ρ c (Proc.devRef .tc main_arg4) = _
  wfold
  try rfl
theorem V1_v18 : V1 m ρ c main_v18 = shapeCast S1x128 (m ((c : Thread nD τ).loc main_arg5)) shapeCasts_S128_S1x128 := by
  show W1 m ρ c (Proc.devRef .tc main_v18) = _
  wfold
  try rfl

/-- A vector laid out as a one-row matrix reads, at (0, q), the vector at q. -/
theorem vec_as_row {α : Type} {Q : Nat} (v : (⟨1, ![Q]⟩ : Shape).Idx → α) (h : (⟨1, ![Q]⟩ : Shape).ShapeCasts ⟨2, ![1, Q]⟩)
    (u : Fin 1) (q : Fin Q) : shapeCast ⟨2, ![1, Q]⟩ v h (ix2 u q) = v (ix1 q) :=
  shapeCast_apply v h _ _ (by
    have hu : u.val = 0 := by omega
    rw [Shape.rowMajor_val_two, Shape.rowMajor_val_one]
    show q.val = u.val * Q + q.val
    rw [hu, Nat.zero_mul, Nat.zero_add])

/-- STAGE 0: after launch 0 the embedding buffer holds x · W + b of the arguments. -/
theorem stage0 : W2 m ρ c (Proc.devRef .tc main_v19)
    = dense (m ((c : Thread nD τ).loc main_arg0)) (m ((c : Thread nD τ).loc main_arg4)) (fun q => (m ((c : Thread nD τ).loc main_arg5)) (ix1 q)) := by
  refine (W2_arr m ρ c 3).trans ?_
  rw [Embed.final (V1 m ρ) c]
  unfold Embed.G
  rw [V1_arg0 m ρ c, V1_arg4 m ρ c, V1_v18 m ρ c]
  refine congrArg (dense _ _) (funext fun q => ?_)
  exact vec_as_row _ _ _ q

/-! ## Launch 1: the node update of step 1 -/

theorem V3_v19 : V3 m ρ c main_v19 = dense (m ((c : Thread nD τ).loc main_arg0)) (m ((c : Thread nD τ).loc main_arg4)) (fun q => (m ((c : Thread nD τ).loc main_arg5)) (ix1 q)) := by
  show W3 m ρ c (Proc.devRef .tc main_v19) = _
  wfold
  exact stage0 m ρ c
theorem V3_v13 : V3 m ρ c main_v13 = (val_main_v13 (F := Ideal) (m ((c : Thread nD τ).loc main_arg1))) := by
  show W3 m ρ c (Proc.devRef .tc main_v13) = _
  wfold
  try rfl
theorem V3_v21 : V3 m ρ c main_v21 = (val_main_v23 (F := Ideal) (m ((c : Thread nD τ).loc main_arg6))) := by
  show W3 m ρ c (Proc.devRef .tc main_v21) = _
  wfold
  try rfl
theorem V3_v29 : V3 m ρ c main_v29 = (val_main_v31 (F := Ideal) (m ((c : Thread nD τ).loc main_arg10))) := by
  show W3 m ρ c (Proc.devRef .tc main_v29) = _
  wfold
  try rfl
theorem V3_v37 : V3 m ρ c main_v37 = (val_main_v39 (F := Ideal) (m ((c : Thread nD τ).loc main_arg14))) := by
  show W3 m ρ c (Proc.devRef .tc main_v37) = _
  wfold
  try rfl
theorem V3_v40 : V3 m ρ c main_v40 = shapeCast S1x128 (val_main_v25 (F := Ideal) (m ((c : Thread nD τ).loc main_arg7))) shapeCasts_S128_S1x128 := by
  show W3 m ρ c (Proc.devRef .tc main_v40) = _
  wfold
  try rfl
theorem V3_v41 : V3 m ρ c main_v41 = shapeCast S1x128 (val_main_v27 (F := Ideal) (m ((c : Thread nD τ).loc main_arg8))) shapeCasts_S128_S1x128 := by
  show W3 m ρ c (Proc.devRef .tc main_v41) = _
  wfold
  try rfl
theorem V3_v42 : V3 m ρ c main_v42 = shapeCast S1x128 (val_main_v29 (F := Ideal) (m ((c : Thread nD τ).loc main_arg9))) shapeCasts_S128_S1x128 := by
  show W3 m ρ c (Proc.devRef .tc main_v42) = _
  wfold
  try rfl
theorem V3_v43 : V3 m ρ c main_v43 = shapeCast S1x128 (val_main_v33 (F := Ideal) (m ((c : Thread nD τ).loc main_arg11))) shapeCasts_S128_S1x128 := by
  show W3 m ρ c (Proc.devRef .tc main_v43) = _
  wfold
  try rfl
theorem V3_v44 : V3 m ρ c main_v44 = shapeCast S1x128 (val_main_v35 (F := Ideal) (m ((c : Thread nD τ).loc main_arg12))) shapeCasts_S128_S1x128 := by
  show W3 m ρ c (Proc.devRef .tc main_v44) = _
  wfold
  try rfl
theorem V3_v45 : V3 m ρ c main_v45 = shapeCast S1x128 (val_main_v37 (F := Ideal) (m ((c : Thread nD τ).loc main_arg13))) shapeCasts_S128_S1x128 := by
  show W3 m ρ c (Proc.devRef .tc main_v45) = _
  wfold
  try rfl
theorem V3_v46 : V3 m ρ c main_v46 = shapeCast S1x128 (val_main_v41 (F := Ideal) (m ((c : Thread nD τ).loc main_arg15))) shapeCasts_S128_S1x128 := by
  show W3 m ρ c (Proc.devRef .tc main_v46) = _
  wfold
  try rfl

/-- After launch 1 its output buffer holds the node update of the stage before it, with this step's slices of the parameters. -/
theorem update1_form : W4 m ρ c (Proc.devRef .tc main_v47)
    = step Update1.C Update1.E (dense (m ((c : Thread nD τ).loc main_arg0)) (m ((c : Thread nD τ).loc main_arg4)) (fun q => (m ((c : Thread nD τ).loc main_arg5)) (ix1 q))) (fun p => (val_main_v13 (F := Ideal) (m ((c : Thread nD τ).loc main_arg1))) (ix2 p (0 : Fin 1)))
      (val_main_v23 (F := Ideal) (m ((c : Thread nD τ).loc main_arg6))) (fun q => val_main_v25 (F := Ideal) (m ((c : Thread nD τ).loc main_arg7)) (ix1 q)) (fun q => val_main_v27 (F := Ideal) (m ((c : Thread nD τ).loc main_arg8)) (ix1 q)) (fun q => val_main_v29 (F := Ideal) (m ((c : Thread nD τ).loc main_arg9)) (ix1 q))
      (val_main_v31 (F := Ideal) (m ((c : Thread nD τ).loc main_arg10))) (fun q => val_main_v33 (F := Ideal) (m ((c : Thread nD τ).loc main_arg11)) (ix1 q)) (fun q => val_main_v35 (F := Ideal) (m ((c : Thread nD τ).loc main_arg12)) (ix1 q)) (fun q => val_main_v37 (F := Ideal) (m ((c : Thread nD τ).loc main_arg13)) (ix1 q))
      (val_main_v39 (F := Ideal) (m ((c : Thread nD τ).loc main_arg14))) (fun q => val_main_v41 (F := Ideal) (m ((c : Thread nD τ).loc main_arg15)) (ix1 q)) := by
  refine (W4_arr m ρ c 12).trans ?_
  rw [Update1.final (V3 m ρ) c]
  unfold Update1.G
  rw [V3_v19 m ρ c, V3_v13 m ρ c, V3_v21 m ρ c, V3_v40 m ρ c, V3_v41 m ρ c, V3_v42 m ρ c, V3_v29 m ρ c, V3_v43 m ρ c, V3_v44 m ρ c, V3_v45 m ρ c, V3_v37 m ρ c, V3_v46 m ρ c]
  simp only [vec_as_row]

/-- STAGE: the same buffer holds the reference's term for the update of step 1. -/
theorem update1 : W4 m ρ c (Proc.devRef .tc main_v47) = (val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Cert.ReferenceIdeal.Stages.u_eq_0, Cert.ReferenceIdeal.Stages.h0_eq]
  exact update1_form m ρ c

/-- STAGE: the aggregation over the edges after step 1 — gather the senders' rows, add them into the receivers' rows,
    scale by the receiver norms — is the same host operations on both sides, applied to the same update. -/
theorem agg1 : W5 m ρ c (Proc.devRef .tc main_v59) = (val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  wfold
  rw [update1 m ρ c]
  rfl

/-! ## Launch 2: the node update of step 2 -/

theorem V5_v59 : V5 m ρ c main_v59 = (val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  exact agg1 m ρ c
theorem V5_v13 : V5 m ρ c main_v13 = (val_main_v13 (F := Ideal) (m ((c : Thread nD τ).loc main_arg1))) := by
  show W5 m ρ c (Proc.devRef .tc main_v13) = _
  wfold
  try rfl
theorem V5_v61 : V5 m ρ c main_v61 = (val_main_v120 (F := Ideal) (m ((c : Thread nD τ).loc main_arg6))) := by
  show W5 m ρ c (Proc.devRef .tc main_v61) = _
  wfold
  try rfl
theorem V5_v69 : V5 m ρ c main_v69 = (val_main_v128 (F := Ideal) (m ((c : Thread nD τ).loc main_arg10))) := by
  show W5 m ρ c (Proc.devRef .tc main_v69) = _
  wfold
  try rfl
theorem V5_v77 : V5 m ρ c main_v77 = (val_main_v136 (F := Ideal) (m ((c : Thread nD τ).loc main_arg14))) := by
  show W5 m ρ c (Proc.devRef .tc main_v77) = _
  wfold
  try rfl
theorem V5_v80 : V5 m ρ c main_v80 = shapeCast S1x128 (val_main_v122 (F := Ideal) (m ((c : Thread nD τ).loc main_arg7))) shapeCasts_S128_S1x128 := by
  show W5 m ρ c (Proc.devRef .tc main_v80) = _
  wfold
  try rfl
theorem V5_v81 : V5 m ρ c main_v81 = shapeCast S1x128 (val_main_v124 (F := Ideal) (m ((c : Thread nD τ).loc main_arg8))) shapeCasts_S128_S1x128 := by
  show W5 m ρ c (Proc.devRef .tc main_v81) = _
  wfold
  try rfl
theorem V5_v82 : V5 m ρ c main_v82 = shapeCast S1x128 (val_main_v126 (F := Ideal) (m ((c : Thread nD τ).loc main_arg9))) shapeCasts_S128_S1x128 := by
  show W5 m ρ c (Proc.devRef .tc main_v82) = _
  wfold
  try rfl
theorem V5_v83 : V5 m ρ c main_v83 = shapeCast S1x128 (val_main_v130 (F := Ideal) (m ((c : Thread nD τ).loc main_arg11))) shapeCasts_S128_S1x128 := by
  show W5 m ρ c (Proc.devRef .tc main_v83) = _
  wfold
  try rfl
theorem V5_v84 : V5 m ρ c main_v84 = shapeCast S1x128 (val_main_v132 (F := Ideal) (m ((c : Thread nD τ).loc main_arg12))) shapeCasts_S128_S1x128 := by
  show W5 m ρ c (Proc.devRef .tc main_v84) = _
  wfold
  try rfl
theorem V5_v85 : V5 m ρ c main_v85 = shapeCast S1x128 (val_main_v134 (F := Ideal) (m ((c : Thread nD τ).loc main_arg13))) shapeCasts_S128_S1x128 := by
  show W5 m ρ c (Proc.devRef .tc main_v85) = _
  wfold
  try rfl
theorem V5_v86 : V5 m ρ c main_v86 = shapeCast S1x128 (val_main_v138 (F := Ideal) (m ((c : Thread nD τ).loc main_arg15))) shapeCasts_S128_S1x128 := by
  show W5 m ρ c (Proc.devRef .tc main_v86) = _
  wfold
  try rfl

/-- After launch 2 its output buffer holds the node update of the stage before it, with this step's slices of the parameters. -/
theorem update2_form : W6 m ρ c (Proc.devRef .tc main_v87)
    = step Update2.C Update2.E (val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (fun p => (val_main_v13 (F := Ideal) (m ((c : Thread nD τ).loc main_arg1))) (ix2 p (0 : Fin 1)))
      (val_main_v120 (F := Ideal) (m ((c : Thread nD τ).loc main_arg6))) (fun q => val_main_v122 (F := Ideal) (m ((c : Thread nD τ).loc main_arg7)) (ix1 q)) (fun q => val_main_v124 (F := Ideal) (m ((c : Thread nD τ).loc main_arg8)) (ix1 q)) (fun q => val_main_v126 (F := Ideal) (m ((c : Thread nD τ).loc main_arg9)) (ix1 q))
      (val_main_v128 (F := Ideal) (m ((c : Thread nD τ).loc main_arg10))) (fun q => val_main_v130 (F := Ideal) (m ((c : Thread nD τ).loc main_arg11)) (ix1 q)) (fun q => val_main_v132 (F := Ideal) (m ((c : Thread nD τ).loc main_arg12)) (ix1 q)) (fun q => val_main_v134 (F := Ideal) (m ((c : Thread nD τ).loc main_arg13)) (ix1 q))
      (val_main_v136 (F := Ideal) (m ((c : Thread nD τ).loc main_arg14))) (fun q => val_main_v138 (F := Ideal) (m ((c : Thread nD τ).loc main_arg15)) (ix1 q)) := by
  refine (W6_arr m ρ c 12).trans ?_
  rw [Update2.final (V5 m ρ) c]
  unfold Update2.G
  rw [V5_v59 m ρ c, V5_v13 m ρ c, V5_v61 m ρ c, V5_v80 m ρ c, V5_v81 m ρ c, V5_v82 m ρ c, V5_v69 m ρ c, V5_v83 m ρ c, V5_v84 m ρ c, V5_v85 m ρ c, V5_v77 m ρ c, V5_v86 m ρ c]
  simp only [vec_as_row]

/-- STAGE: the same buffer holds the reference's term for the update of step 2. -/
theorem update2 : W6 m ρ c (Proc.devRef .tc main_v87) = (val_main_v203 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Cert.ReferenceIdeal.Stages.u_eq_1]
  exact update2_form m ρ c

/-- STAGE: the aggregation over the edges after step 2 — gather the senders' rows, add them into the receivers' rows,
    scale by the receiver norms — is the same host operations on both sides, applied to the same update. -/
theorem agg2 : W7 m ρ c (Proc.devRef .tc main_v99) = (val_main_v215 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  wfold
  rw [update2 m ρ c]
  rfl

/-! ## Launch 3: the node update of step 3 -/

theorem V7_v99 : V7 m ρ c main_v99 = (val_main_v215 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  exact agg2 m ρ c
theorem V7_v13 : V7 m ρ c main_v13 = (val_main_v13 (F := Ideal) (m ((c : Thread nD τ).loc main_arg1))) := by
  show W7 m ρ c (Proc.devRef .tc main_v13) = _
  wfold
  try rfl
theorem V7_v101 : V7 m ρ c main_v101 = (val_main_v217 (F := Ideal) (m ((c : Thread nD τ).loc main_arg6))) := by
  show W7 m ρ c (Proc.devRef .tc main_v101) = _
  wfold
  try rfl
theorem V7_v109 : V7 m ρ c main_v109 = (val_main_v225 (F := Ideal) (m ((c : Thread nD τ).loc main_arg10))) := by
  show W7 m ρ c (Proc.devRef .tc main_v109) = _
  wfold
  try rfl
theorem V7_v117 : V7 m ρ c main_v117 = (val_main_v233 (F := Ideal) (m ((c : Thread nD τ).loc main_arg14))) := by
  show W7 m ρ c (Proc.devRef .tc main_v117) = _
  wfold
  try rfl
theorem V7_v120 : V7 m ρ c main_v120 = shapeCast S1x128 (val_main_v219 (F := Ideal) (m ((c : Thread nD τ).loc main_arg7))) shapeCasts_S128_S1x128 := by
  show W7 m ρ c (Proc.devRef .tc main_v120) = _
  wfold
  try rfl
theorem V7_v121 : V7 m ρ c main_v121 = shapeCast S1x128 (val_main_v221 (F := Ideal) (m ((c : Thread nD τ).loc main_arg8))) shapeCasts_S128_S1x128 := by
  show W7 m ρ c (Proc.devRef .tc main_v121) = _
  wfold
  try rfl
theorem V7_v122 : V7 m ρ c main_v122 = shapeCast S1x128 (val_main_v223 (F := Ideal) (m ((c : Thread nD τ).loc main_arg9))) shapeCasts_S128_S1x128 := by
  show W7 m ρ c (Proc.devRef .tc main_v122) = _
  wfold
  try rfl
theorem V7_v123 : V7 m ρ c main_v123 = shapeCast S1x128 (val_main_v227 (F := Ideal) (m ((c : Thread nD τ).loc main_arg11))) shapeCasts_S128_S1x128 := by
  show W7 m ρ c (Proc.devRef .tc main_v123) = _
  wfold
  try rfl
theorem V7_v124 : V7 m ρ c main_v124 = shapeCast S1x128 (val_main_v229 (F := Ideal) (m ((c : Thread nD τ).loc main_arg12))) shapeCasts_S128_S1x128 := by
  show W7 m ρ c (Proc.devRef .tc main_v124) = _
  wfold
  try rfl
theorem V7_v125 : V7 m ρ c main_v125 = shapeCast S1x128 (val_main_v231 (F := Ideal) (m ((c : Thread nD τ).loc main_arg13))) shapeCasts_S128_S1x128 := by
  show W7 m ρ c (Proc.devRef .tc main_v125) = _
  wfold
  try rfl
theorem V7_v126 : V7 m ρ c main_v126 = shapeCast S1x128 (val_main_v235 (F := Ideal) (m ((c : Thread nD τ).loc main_arg15))) shapeCasts_S128_S1x128 := by
  show W7 m ρ c (Proc.devRef .tc main_v126) = _
  wfold
  try rfl

/-- After launch 3 its output buffer holds the node update of the stage before it, with this step's slices of the parameters. -/
theorem update3_form : W8 m ρ c (Proc.devRef .tc main_v127)
    = step Update3.C Update3.E (val_main_v215 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (fun p => (val_main_v13 (F := Ideal) (m ((c : Thread nD τ).loc main_arg1))) (ix2 p (0 : Fin 1)))
      (val_main_v217 (F := Ideal) (m ((c : Thread nD τ).loc main_arg6))) (fun q => val_main_v219 (F := Ideal) (m ((c : Thread nD τ).loc main_arg7)) (ix1 q)) (fun q => val_main_v221 (F := Ideal) (m ((c : Thread nD τ).loc main_arg8)) (ix1 q)) (fun q => val_main_v223 (F := Ideal) (m ((c : Thread nD τ).loc main_arg9)) (ix1 q))
      (val_main_v225 (F := Ideal) (m ((c : Thread nD τ).loc main_arg10))) (fun q => val_main_v227 (F := Ideal) (m ((c : Thread nD τ).loc main_arg11)) (ix1 q)) (fun q => val_main_v229 (F := Ideal) (m ((c : Thread nD τ).loc main_arg12)) (ix1 q)) (fun q => val_main_v231 (F := Ideal) (m ((c : Thread nD τ).loc main_arg13)) (ix1 q))
      (val_main_v233 (F := Ideal) (m ((c : Thread nD τ).loc main_arg14))) (fun q => val_main_v235 (F := Ideal) (m ((c : Thread nD τ).loc main_arg15)) (ix1 q)) := by
  refine (W8_arr m ρ c 12).trans ?_
  rw [Update3.final (V7 m ρ) c]
  unfold Update3.G
  rw [V7_v99 m ρ c, V7_v13 m ρ c, V7_v101 m ρ c, V7_v120 m ρ c, V7_v121 m ρ c, V7_v122 m ρ c, V7_v109 m ρ c, V7_v123 m ρ c, V7_v124 m ρ c, V7_v125 m ρ c, V7_v117 m ρ c, V7_v126 m ρ c]
  simp only [vec_as_row]

/-- STAGE: the same buffer holds the reference's term for the update of step 3. -/
theorem update3 : W8 m ρ c (Proc.devRef .tc main_v127) = (val_main_v300 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Cert.ReferenceIdeal.Stages.u_eq_2]
  exact update3_form m ρ c

/-- STAGE: the aggregation over the edges after step 3 — gather the senders' rows, add them into the receivers' rows,
    scale by the receiver norms — is the same host operations on both sides, applied to the same update. -/
theorem agg3 : W9 m ρ c (Proc.devRef .tc main_v139) = (val_main_v312 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  wfold
  rw [update3 m ρ c]
  rfl

/-! ## The read-out -/

set_option maxHeartbeats 2000000 in
/-- THE RESULT: after the last stretch — the pooling of the nodes of each graph and the read-out layer, the same host
    operations on both sides — the result buffer holds the reference's result term of the same arguments. -/
theorem result : W9 m ρ c (Proc.devRef .tc main_v155) = (val_main_v328 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  wfold
  rw [update3 m ρ c]
  rfl

end Cert.KernelIdeal.Fold

end
-- ==== Proof.lean ====
/-
  A graph network of three convolution steps over 100000 nodes and 725000 edges (625000 given, one self loop per node):
  an embedding x · W + b of the node features, then three times
      update:  three dense layers with max(·, 0), a layer normalisation after the first two, the rows scaled by the
               senders' norms 1 / sqrt (max (out-degree, 1));
      aggregate: gather the senders' rows, add them into the receivers' rows, scale by the receivers' norms;
  then the mean of the nodes of each of 512 graphs and a read-out layer.

  The kernel runs the embedding and the three updates as launches over blocks of 2000 rows (the matrix products on
  operands rounded to bf16), and everything else on the host; the reference runs everything on the host.  At the ideal
  instance a rounding is the identity and every product and sum is exact, so the two programs apply the SAME
  operations to the same values in the same order.  No law of arithmetic is used and the inputs' finiteness is never
  opened: the proof is that (1) each launch's output array is one whole-array function of its input arrays, because an
  entry of a dense layer or of a normalisation reads one row of its input and the 50 blocks tile the rows; (2) that
  function is the term the reference spells on the host; (3) the host operations around the launches are, buffer by
  buffer, the reference's own operations.  The kernel's result buffer then holds the reference's result term.

  `preserves` has no entry: the idealized kernel is the kernel's own text read at the ideal instance.
-/
import proofs.«144831_j23313082483287_1_alg».proof.Defs
import proofs.«144831_j23313082483287_1_alg».proof.Proof.Gen.Kernel
import proofs.«144831_j23313082483287_1_alg».proof.Proof.Gen.Kernel.Skeleton
import proofs.«144831_j23313082483287_1_alg».proof.Proof.Gen.Kernel.Launch
import proofs.«144831_j23313082483287_1_alg».proof.Proof.Gen.Kernel.Points
import proofs.«144831_j23313082483287_1_alg».proof.Proof.Gen.Kernel.Frame
import proofs.«144831_j23313082483287_1_alg».proof.Proof.Gen.KernelIdeal
import proofs.«144831_j23313082483287_1_alg».proof.Proof.Gen.KernelIdeal.Skeleton
import proofs.«144831_j23313082483287_1_alg».proof.Proof.Gen.KernelIdeal.Launch
import proofs.«144831_j23313082483287_1_alg».proof.Proof.Gen.KernelIdeal.Points
import proofs.«144831_j23313082483287_1_alg».proof.Proof.Gen.KernelIdeal.Frame
import proofs.«144831_j23313082483287_1_alg».proof.Proof.Gen.ReferenceIdeal
import proofs.«144831_j23313082483287_1_alg».proof.Proof.Gen.Pre_finite_inputs
import proofs.«144831_j23313082483287_1_alg».proof.Proof.RefRun
import proofs.«144831_j23313082483287_1_alg».proof.Proof.RefRead
import proofs.«144831_j23313082483287_1_alg».proof.Proof.RefFold
import proofs.«144831_j23313082483287_1_alg».proof.Proof.KernelRun
import proofs.«144831_j23313082483287_1_alg».proof.Proof.Stages
import Idealize.ShloMosaic.Adequacy
import Idealize.ShloMosaic.Init

noncomputable section

namespace Cert.Proof

open Idealize.ShloMosaic Idealize.SL.Sem

/-- The three programs run, fault nowhere and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the reference's result term of those arguments in
    their result buffers. -/
theorem algebraic : Cert.algebraic_KernelIdeal_ReferenceIdeal := by
  intro m ρ m' ρ' _ hagree
  refine ⟨fun c => Cert.ReferenceIdeal.Read.val_main_v328 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨((h c).1).trans (Cert.KernelIdeal.Fold.result m ρ c), (h c).2⟩)
      (Cert.KernelIdeal.Fold.run (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11, e12, e13, e14, e15, e16, e17⟩ := hagree c
    rw [(h c).1, Cert.ReferenceIdeal.Fold.result m' c, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
